-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x26x128 : Shape := ⟨3, ![16384, 26, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x26x128 : S_.BroadcastsInDim S16384x26x128 (![] : Fin 0 → Fin S16384x26x128.rank)
  reducesTo_S16384x26x128_S_d0_1_2 : S16384x26x128.ReducesTo [0, 1, 2] S_

variable [Facts]

def fn {F : FTy → Type} [FloatOps F] (main_arg0 : FVec F S16384x128 .f32) (main_arg1 : FVec F S16384x26x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x26x128 .f32 := Host.absf main_arg1
  let main_cst_0 : FVec F S_ .f32 := constant S_ .f32 0x7F800000#32
  let main_v5 : FVec F S16384x26x128 .f32 := broadcastInDim S16384x26x128 ![] bcast_S_S16384x26x128 main_cst_0
  let main_v6 : IVec S16384x26x128 1 := cmpf .olt main_v4 main_v5
  let main_c_1 : IVec S_ 1 := constantI S_ 1 1#1
  let main_v7 : IVec S_ 1 := (fun x v => Host.reduce IntOp.andi x v reducesTo_S16384x26x128_S_d0_1_2 h_S_) main_v6 main_c_1
  let main_v8 : IVec S_ 1 := andi main_v3 main_v7
  main_v8
-- ==== Kernel.lean ====
abbrev S16384x128 : Shape := ⟨2, ![16384, 128]⟩
abbrev S16384x26x128 : Shape := ⟨3, ![16384, 26, 128]⟩
abbrev S16384x479 : Shape := ⟨2, ![16384, 479]⟩
abbrev S256x128 : Shape := ⟨2, ![256, 128]⟩
abbrev S256x26x128 : Shape := ⟨3, ![256, 26, 128]⟩
abbrev S256x479 : Shape := ⟨2, ![256, 479]⟩
abbrev S256x1x128 : Shape := ⟨3, ![256, 1, 128]⟩
abbrev S256x27x128 : Shape := ⟨3, ![256, 27, 128]⟩
abbrev S256x27x27 : Shape := ⟨3, ![256, 27, 27]⟩
abbrev S256x1x26 : Shape := ⟨3, ![256, 1, 26]⟩
abbrev S256x26 : Shape := ⟨2, ![256, 26]⟩
abbrev S256x1x25 : Shape := ⟨3, ![256, 1, 25]⟩
abbrev S256x25 : Shape := ⟨2, ![256, 25]⟩
abbrev S256x1x24 : Shape := ⟨3, ![256, 1, 24]⟩
abbrev S256x24 : Shape := ⟨2, ![256, 24]⟩
abbrev S256x1x23 : Shape := ⟨3, ![256, 1, 23]⟩
abbrev S256x23 : Shape := ⟨2, ![256, 23]⟩
abbrev S256x1x22 : Shape := ⟨3, ![256, 1, 22]⟩
abbrev S256x22 : Shape := ⟨2, ![256, 22]⟩
abbrev S256x1x21 : Shape := ⟨3, ![256, 1, 21]⟩
abbrev S256x21 : Shape := ⟨2, ![256, 21]⟩
abbrev S256x1x20 : Shape := ⟨3, ![256, 1, 20]⟩
abbrev S256x20 : Shape := ⟨2, ![256, 20]⟩
abbrev S256x1x19 : Shape := ⟨3, ![256, 1, 19]⟩
abbrev S256x19 : Shape := ⟨2, ![256, 19]⟩
abbrev S256x1x18 : Shape := ⟨3, ![256, 1, 18]⟩
abbrev S256x18 : Shape := ⟨2, ![256, 18]⟩
abbrev S256x1x17 : Shape := ⟨3, ![256, 1, 17]⟩
abbrev S256x17 : Shape := ⟨2, ![256, 17]⟩
abbrev S256x1x16 : Shape := ⟨3, ![256, 1, 16]⟩
abbrev S256x16 : Shape := ⟨2, ![256, 16]⟩
abbrev S256x1x15 : Shape := ⟨3, ![256, 1, 15]⟩
abbrev S256x15 : Shape := ⟨2, ![256, 15]⟩
abbrev S256x1x14 : Shape := ⟨3, ![256, 1, 14]⟩
abbrev S256x14 : Shape := ⟨2, ![256, 14]⟩
abbrev S256x1x13 : Shape := ⟨3, ![256, 1, 13]⟩
abbrev S256x13 : Shape := ⟨2, ![256, 13]⟩
abbrev S256x1x12 : Shape := ⟨3, ![256, 1, 12]⟩
abbrev S256x12 : Shape := ⟨2, ![256, 12]⟩
abbrev S256x1x11 : Shape := ⟨3, ![256, 1, 11]⟩
abbrev S256x11 : Shape := ⟨2, ![256, 11]⟩
abbrev S256x1x10 : Shape := ⟨3, ![256, 1, 10]⟩
abbrev S256x10 : Shape := ⟨2, ![256, 10]⟩
abbrev S256x1x9 : Shape := ⟨3, ![256, 1, 9]⟩
abbrev S256x9 : Shape := ⟨2, ![256, 9]⟩
abbrev S256x1x8 : Shape := ⟨3, ![256, 1, 8]⟩
abbrev S256x8 : Shape := ⟨2, ![256, 8]⟩
abbrev S256x1x7 : Shape := ⟨3, ![256, 1, 7]⟩
abbrev S256x7 : Shape := ⟨2, ![256, 7]⟩
abbrev S256x1x6 : Shape := ⟨3, ![256, 1, 6]⟩
abbrev S256x6 : Shape := ⟨2, ![256, 6]⟩
abbrev S256x1x5 : Shape := ⟨3, ![256, 1, 5]⟩
abbrev S256x5 : Shape := ⟨2, ![256, 5]⟩
abbrev S256x1x4 : Shape := ⟨3, ![256, 1, 4]⟩
abbrev S256x4 : Shape := ⟨2, ![256, 4]⟩
abbrev S256x1x3 : Shape := ⟨3, ![256, 1, 3]⟩
abbrev S256x3 : Shape := ⟨2, ![256, 3]⟩
abbrev S256x1x2 : Shape := ⟨3, ![256, 1, 2]⟩
abbrev S256x2 : Shape := ⟨2, ![256, 2]⟩
abbrev S256x1x1 : Shape := ⟨3, ![256, 1, 1]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S16384x26x128, .f32⟩
  | .hbm, ⟨2, _⟩ => ⟨S16384x479, .f32⟩
  | .local _ .vmem, ⟨0, _⟩ => ⟨S256x128, .f32⟩
  | .local _ .vmem, ⟨1, _⟩ => ⟨S256x128, .f32⟩
  | .local _ .vmem, ⟨2, _⟩ => ⟨S256x26x128, .f32⟩
  | .local _ .vmem, ⟨3, _⟩ => ⟨S256x26x128, .f32⟩
  | .local _ .vmem, ⟨4, _⟩ => ⟨S256x479, .f32⟩
  | .local _ .vmem, ⟨5, _⟩ => ⟨S256x479, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x26x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x479 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x128_S256x128_0_0 : ∀ a, (![0, 0] : Fin 2 → Nat) a + S256x128.size a ≤ S256x128.size a
  h_S256x128 : 0 < S256x128.numel
  inb_S256x26x128_S256x26x128_0_0_0 : ∀ a, (![0, 0, 0] : Fin 3 → Nat) a + S256x26x128.size a ≤ S256x26x128.size a
  h_S256x26x128 : 0 < S256x26x128.numel
  bitsLt_bf16_f32 : FTy.bits .bf16 < FTy.bits .f32
  shapeCasts_S256x128_S256x1x128 : S256x128.ShapeCasts S256x1x128
  concatenates_S256x1x128_S256x26x128_S256x27x128_d1 : Shape.Concatenates [S256x1x128, S256x26x128] S256x27x128 1
  inb_S256x479_S256x128_0_0 : ∀ a, (![0, 0] : Fin 2 → Nat) a + S256x128.size a ≤ S256x479.size a
  slices_S256x27x27_o0_0_1_S256x1x26 : S256x27x27.Slices ![0, 0, 1] S256x1x26
  shapeCasts_S256x1x26_S256x26 : S256x1x26.ShapeCasts S256x26
  inb_S256x479_S256x26_0_128 : ∀ a, (![0, 128] : Fin 2 → Nat) a + S256x26.size a ≤ S256x479.size a
  h_S256x26 : 0 < S256x26.numel
  slices_S256x27x27_o0_1_2_S256x1x25 : S256x27x27.Slices ![0, 1, 2] S256x1x25
  shapeCasts_S256x1x25_S256x25 : S256x1x25.ShapeCasts S256x25
  inb_S256x479_S256x25_0_154 : ∀ a, (![0, 154] : Fin 2 → Nat) a + S256x25.size a ≤ S256x479.size a
  h_S256x25 : 0 < S256x25.numel
  slices_S256x27x27_o0_2_3_S256x1x24 : S256x27x27.Slices ![0, 2, 3] S256x1x24
  shapeCasts_S256x1x24_S256x24 : S256x1x24.ShapeCasts S256x24
  inb_S256x479_S256x24_0_179 : ∀ a, (![0, 179] : Fin 2 → Nat) a + S256x24.size a ≤ S256x479.size a
  h_S256x24 : 0 < S256x24.numel
  slices_S256x27x27_o0_3_4_S256x1x23 : S256x27x27.Slices ![0, 3, 4] S256x1x23
  shapeCasts_S256x1x23_S256x23 : S256x1x23.ShapeCasts S256x23
  inb_S256x479_S256x23_0_203 : ∀ a, (![0, 203] : Fin 2 → Nat) a + S256x23.size a ≤ S256x479.size a
  h_S256x23 : 0 < S256x23.numel
  slices_S256x27x27_o0_4_5_S256x1x22 : S256x27x27.Slices ![0, 4, 5] S256x1x22
  shapeCasts_S256x1x22_S256x22 : S256x1x22.ShapeCasts S256x22
  inb_S256x479_S256x22_0_226 : ∀ a, (![0, 226] : Fin 2 → Nat) a + S256x22.size a ≤ S256x479.size a
  h_S256x22 : 0 < S256x22.numel
  slices_S256x27x27_o0_5_6_S256x1x21 : S256x27x27.Slices ![0, 5, 6] S256x1x21
  shapeCasts_S256x1x21_S256x21 : S256x1x21.ShapeCasts S256x21
  inb_S256x479_S256x21_0_248 : ∀ a, (![0, 248] : Fin 2 → Nat) a + S256x21.size a ≤ S256x479.size a
  h_S256x21 : 0 < S256x21.numel
  slices_S256x27x27_o0_6_7_S256x1x20 : S256x27x27.Slices ![0, 6, 7] S256x1x20
  shapeCasts_S256x1x20_S256x20 : S256x1x20.ShapeCasts S256x20
  inb_S256x479_S256x20_0_269 : ∀ a, (![0, 269] : Fin 2 → Nat) a + S256x20.size a ≤ S256x479.size a
  h_S256x20 : 0 < S256x20.numel
  slices_S256x27x27_o0_7_8_S256x1x19 : S256x27x27.Slices ![0, 7, 8] S256x1x19
  shapeCasts_S256x1x19_S256x19 : S256x1x19.ShapeCasts S256x19
  inb_S256x479_S256x19_0_289 : ∀ a, (![0, 289] : Fin 2 → Nat) a + S256x19.size a ≤ S256x479.size a
  h_S256x19 : 0 < S256x19.numel
  slices_S256x27x27_o0_8_9_S256x1x18 : S256x27x27.Slices ![0, 8, 9] S256x1x18
  shapeCasts_S256x1x18_S256x18 : S256x1x18.ShapeCasts S256x18
  inb_S256x479_S256x18_0_308 : ∀ a, (![0, 308] : Fin 2 → Nat) a + S256x18.size a ≤ S256x479.size a
  h_S256x18 : 0 < S256x18.numel
  slices_S256x27x27_o0_9_10_S256x1x17 : S256x27x27.Slices ![0, 9, 10] S256x1x17
  shapeCasts_S256x1x17_S256x17 : S256x1x17.ShapeCasts S256x17
  inb_S256x479_S256x17_0_326 : ∀ a, (![0, 326] : Fin 2 → Nat) a + S256x17.size a ≤ S256x479.size a
  h_S256x17 : 0 < S256x17.numel
  slices_S256x27x27_o0_10_11_S256x1x16 : S256x27x27.Slices ![0, 10, 11] S256x1x16
  shapeCasts_S256x1x16_S256x16 : S256x1x16.ShapeCasts S256x16
  inb_S256x479_S256x16_0_343 : ∀ a, (![0, 343] : Fin 2 → Nat) a + S256x16.size a ≤ S256x479.size a
  h_S256x16 : 0 < S256x16.numel
  slices_S256x27x27_o0_11_12_S256x1x15 : S256x27x27.Slices ![0, 11, 12] S256x1x15
  shapeCasts_S256x1x15_S256x15 : S256x1x15.ShapeCasts S256x15
  inb_S256x479_S256x15_0_359 : ∀ a, (![0, 359] : Fin 2 → Nat) a + S256x15.size a ≤ S256x479.size a
  h_S256x15 : 0 < S256x15.numel
  slices_S256x27x27_o0_12_13_S256x1x14 : S256x27x27.Slices ![0, 12, 13] S256x1x14
  shapeCasts_S256x1x14_S256x14 : S256x1x14.ShapeCasts S256x14
  inb_S256x479_S256x14_0_374 : ∀ a, (![0, 374] : Fin 2 → Nat) a + S256x14.size a ≤ S256x479.size a
  h_S256x14 : 0 < S256x14.numel
  slices_S256x27x27_o0_13_14_S256x1x13 : S256x27x27.Slices ![0, 13, 14] S256x1x13
  shapeCasts_S256x1x13_S256x13 : S256x1x13.ShapeCasts S256x13
  inb_S256x479_S256x13_0_388 : ∀ a, (![0, 388] : Fin 2 → Nat) a + S256x13.size a ≤ S256x479.size a
  h_S256x13 : 0 < S256x13.numel
  slices_S256x27x27_o0_14_15_S256x1x12 : S256x27x27.Slices ![0, 14, 15] S256x1x12
  shapeCasts_S256x1x12_S256x12 : S256x1x12.ShapeCasts S256x12
  inb_S256x479_S256x12_0_401 : ∀ a, (![0, 401] : Fin 2 → Nat) a + S256x12.size a ≤ S256x479.size a
  h_S256x12 : 0 < S256x12.numel
  slices_S256x27x27_o0_15_16_S256x1x11 : S256x27x27.Slices ![0, 15, 16] S256x1x11
  shapeCasts_S256x1x11_S256x11 : S256x1x11.ShapeCasts S256x11
  inb_S256x479_S256x11_0_413 : ∀ a, (![0, 413] : Fin 2 → Nat) a + S256x11.size a ≤ S256x479.size a
  h_S256x11 : 0 < S256x11.numel
  slices_S256x27x27_o0_16_17_S256x1x10 : S256x27x27.Slices ![0, 16, 17] S256x1x10
  shapeCasts_S256x1x10_S256x10 : S256x1x10.ShapeCasts S256x10
  inb_S256x479_S256x10_0_424 : ∀ a, (![0, 424] : Fin 2 → Nat) a + S256x10.size a ≤ S256x479.size a
  h_S256x10 : 0 < S256x10.numel
  slices_S256x27x27_o0_17_18_S256x1x9 : S256x27x27.Slices ![0, 17, 18] S256x1x9
  shapeCasts_S256x1x9_S256x9 : S256x1x9.ShapeCasts S256x9
  inb_S256x479_S256x9_0_434 : ∀ a, (![0, 434] : Fin 2 → Nat) a + S256x9.size a ≤ S256x479.size a
  h_S256x9 : 0 < S256x9.numel
  slices_S256x27x27_o0_18_19_S256x1x8 : S256x27x27.Slices ![0, 18, 19] S256x1x8
  shapeCasts_S256x1x8_S256x8 : S256x1x8.ShapeCasts S256x8
  inb_S256x479_S256x8_0_443 : ∀ a, (![0, 443] : Fin 2 → Nat) a + S256x8.size a ≤ S256x479.size a
  h_S256x8 : 0 < S256x8.numel
  slices_S256x27x27_o0_19_20_S256x1x7 : S256x27x27.Slices ![0, 19, 20] S256x1x7
  shapeCasts_S256x1x7_S256x7 : S256x1x7.ShapeCasts S256x7
  inb_S256x479_S256x7_0_451 : ∀ a, (![0, 451] : Fin 2 → Nat) a + S256x7.size a ≤ S256x479.size a
  h_S256x7 : 0 < S256x7.numel
  slices_S256x27x27_o0_20_21_S256x1x6 : S256x27x27.Slices ![0, 20, 21] S256x1x6
  shapeCasts_S256x1x6_S256x6 : S256x1x6.ShapeCasts S256x6
  inb_S256x479_S256x6_0_458 : ∀ a, (![0, 458] : Fin 2 → Nat) a + S256x6.size a ≤ S256x479.size a
  h_S256x6 : 0 < S256x6.numel
  slices_S256x27x27_o0_21_22_S256x1x5 : S256x27x27.Slices ![0, 21, 22] S256x1x5
  shapeCasts_S256x1x5_S256x5 : S256x1x5.ShapeCasts S256x5
  inb_S256x479_S256x5_0_464 : ∀ a, (![0, 464] : Fin 2 → Nat) a + S256x5.size a ≤ S256x479.size a
  h_S256x5 : 0 < S256x5.numel
  slices_S256x27x27_o0_22_23_S256x1x4 : S256x27x27.Slices ![0, 22, 23] S256x1x4
  shapeCasts_S256x1x4_S256x4 : S256x1x4.ShapeCasts S256x4
  inb_S256x479_S256x4_0_469 : ∀ a, (![0, 469] : Fin 2 → Nat) a + S256x4.size a ≤ S256x479.size a
  h_S256x4 : 0 < S256x4.numel
  slices_S256x27x27_o0_23_24_S256x1x3 : S256x27x27.Slices ![0, 23, 24] S256x1x3
  shapeCasts_S256x1x3_S256x3 : S256x1x3.ShapeCasts S256x3
  inb_S256x479_S256x3_0_473 : ∀ a, (![0, 473] : Fin 2 → Nat) a + S256x3.size a ≤ S256x479.size a
  h_S256x3 : 0 < S256x3.numel
  slices_S256x27x27_o0_24_25_S256x1x2 : S256x27x27.Slices ![0, 24, 25] S256x1x2
  shapeCasts_S256x1x2_S256x2 : S256x1x2.ShapeCasts S256x2
  inb_S256x479_S256x2_0_476 : ∀ a, (![0, 476] : Fin 2 → Nat) a + S256x2.size a ≤ S256x479.size a
  h_S256x2 : 0 < S256x2.numel
  slices_S256x27x27_o0_25_26_S256x1x1 : S256x27x27.Slices ![0, 25, 26] S256x1x1
  shapeCasts_S256x1x1_S256x1 : S256x1x1.ShapeCasts S256x1
  inb_S256x479_S256x1_0_478 : ∀ a, (![0, 478] : Fin 2 → Nat) a + S256x1.size a ≤ S256x479.size a
  h_S256x1 : 0 < S256x1.numel
  dot_S256x27x128_S256x27x128_S256x27x27_2_2_1_1_0_0_wf : DotDims.WF S256x27x128 S256x27x128 S256x27x27 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S16384x128.size a
  hwx0_0 : ∀ i : grid0.Coords, EltTy.bits .f32 = 32 ∨ (Rect.block (s := S16384x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x26x128.size a ≤ S16384x26x128.size a
  hwx0_1 : ∀ i : grid0.Coords, EltTy.bits .f32 = 32 ∨ (Rect.block (s := S16384x26x128) S256x26x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x479.size a ≤ S16384x479.size a
  hwx0_2 : ∀ i : grid0.Coords, EltTy.bits .f32 = 32 ∨ (Rect.block (s := S16384x479) S256x479.size (cc0_transform_2 i) (hinb0_2 i)).WholeWords (EltTy.packing .f32)

variable [Facts₀]

def dot_S256x27x128_S256x27x128_S256x27x27_2_2_1_1_0_0 : DotDims S256x27x128 S256x27x128 S256x27x27 where
  lhsContracting := [2]
  rhsContracting := [2]
  lhsNonContracting := [1]
  rhsNonContracting := [1]
  lhsBatch := [0]
  rhsBatch := [0]
  wf := dot_S256x27x128_S256x27x128_S256x27x27_2_2_1_1_0_0_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x26x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x479.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x26x128 : Shape := ⟨3, ![16384, 26, 128]⟩
abbrev S16384x1x128 : Shape := ⟨3, ![16384, 1, 128]⟩
abbrev S16384x27x128 : Shape := ⟨3, ![16384, 27, 128]⟩
abbrev S16384x27x27 : Shape := ⟨3, ![16384, 27, 27]⟩
abbrev S_ : Shape := ⟨0, ![]⟩
abbrev S27x27 : Shape := ⟨2, ![27, 27]⟩
abbrev S729 : Shape := ⟨1, ![729]⟩
abbrev S351 : Shape := ⟨1, ![351]⟩
abbrev S729x1 : Shape := ⟨2, ![729, 1]⟩
abbrev S351x1 : Shape := ⟨2, ![351, 1]⟩
abbrev S351x2 : Shape := ⟨2, ![351, 2]⟩
abbrev S16384x351 : Shape := ⟨2, ![16384, 351]⟩
abbrev S16384x479 : Shape := ⟨2, ![16384, 479]⟩

abbrev nBuf : Space → Nat
  | .hbm => 141
  | .vmem => 0
  | .smem => 0
  | _ => 0

abbrev hbmTy0_0 (i : Nat) : BufTy := match i % 128 with
  | 0 => ⟨S16384x128, .f32⟩
  | 1 => ⟨S16384x26x128, .f32⟩
  | 2 => ⟨S16384x1x128, .f32⟩
  | 3 => ⟨S16384x27x128, .f32⟩
  | 4 => ⟨S16384x27x27, .f32⟩
  | 5 => ⟨S_, .f32⟩
  | 6 => ⟨S27x27, .f32⟩
  | 7 => ⟨S27x27, .i32⟩
  | 8 => ⟨S_, .i32⟩
  | 9 => ⟨S27x27, .i32⟩
  | 10 => ⟨S27x27, .i32⟩
  | 11 => ⟨S27x27, .i32⟩
  | 12 => ⟨S27x27, .i1⟩
  | 13 => ⟨S_, .f32⟩
  | 14 => ⟨S27x27, .f32⟩
  | 15 => ⟨S27x27, .f32⟩
  | 16 => ⟨S_, .f32⟩
  | 17 => ⟨S27x27, .f32⟩
  | 18 => ⟨S27x27, .i1⟩
  | 19 => ⟨S729, .i1⟩
  | 20 => ⟨S729, .i32⟩
  | 21 => ⟨S_, .i32⟩
  | 22 => ⟨S_, .i32⟩
  | 23 => ⟨S729, .i32⟩
  | 24 => ⟨S_, .i32⟩
  | 25 => ⟨S351, .i32⟩
  | 26 => ⟨S_, .i32⟩
  | 27 => ⟨S_, .i32⟩
  | 28 => ⟨S729, .i32⟩
  | 29 => ⟨S729, .i32⟩
  | 30 => ⟨S_, .i32⟩
  | 31 => ⟨S729, .i32⟩
  | 32 => ⟨S729, .i1⟩
  | 33 => ⟨S_, .i32⟩
  | 34 => ⟨S729, .i32⟩
  | 35 => ⟨S729, .i32⟩
  | 36 => ⟨S729, .i32⟩
  | 37 => ⟨S729x1, .i32⟩
  | 38 => ⟨S_, .i32⟩
  | 39 => ⟨S729, .i32⟩
  | 40 => ⟨S351, .i32⟩
  | 41 => ⟨S_, .i32⟩
  | 42 => ⟨S_, .i32⟩
  | 43 => ⟨S351, .i32⟩
  | 44 => ⟨S_, .i32⟩
  | 45 => ⟨S351, .i32⟩
  | 46 => ⟨S351, .i32⟩
  | 47 => ⟨S351, .i32⟩
  | 48 => ⟨S_, .i32⟩
  | 49 => ⟨S351, .i32⟩
  | 50 => ⟨S351, .i1⟩
  | 51 => ⟨S351, .i32⟩
  | 52 => ⟨S351, .i32⟩
  | 53 => ⟨S_, .i32⟩
  | 54 => ⟨S351, .i32⟩
  | 55 => ⟨S351, .i1⟩
  | 56 => ⟨S351, .i1⟩
  | 57 => ⟨S_, .i32⟩
  | 58 => ⟨S351, .i32⟩
  | 59 => ⟨S351, .i32⟩
  | 60 => ⟨S351, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S351, .i32⟩
  | 68 => ⟨S351, .i32⟩
  | 69 => ⟨S_, .i32⟩
  | 70 => ⟨S351, .i32⟩
  | 71 => ⟨S351, .i1⟩
  | 72 => ⟨S_, .i32⟩
  | 73 => ⟨S351, .i32⟩
  | 74 => ⟨S351, .i1⟩
  | 75 => ⟨S_, .i32⟩
  | 76 => ⟨S_, .i1⟩
  | 77 => ⟨S351, .i1⟩
  | 78 => ⟨S351, .i1⟩
  | 79 => ⟨S351, .i1⟩
  | 80 => ⟨S351, .i32⟩
  | 81 => ⟨S351, .i32⟩
  | 82 => ⟨S351, .i32⟩
  | 83 => ⟨S_, .i32⟩
  | 84 => ⟨S351, .i32⟩
  | 85 => ⟨S351, .i32⟩
  | 86 => ⟨S351, .i32⟩
  | 87 => ⟨S_, .i32⟩
  | 88 => ⟨S351, .i32⟩
  | 89 => ⟨S351, .i1⟩
  | 90 => ⟨S351, .i32⟩
  | 91 => ⟨S351, .i32⟩
  | 92 => ⟨S_, .i32⟩
  | 93 => ⟨S351, .i32⟩
  | 94 => ⟨S351, .i1⟩
  | 95 => ⟨S351, .i1⟩
  | 96 => ⟨S_, .i32⟩
  | 97 => ⟨S351, .i32⟩
  | 98 => ⟨S351, .i32⟩
  | 99 => ⟨S351, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S351, .i32⟩
  | 107 => ⟨S351, .i32⟩
  | 108 => ⟨S_, .i32⟩
  | 109 => ⟨S351, .i32⟩
  | 110 => ⟨S351, .i1⟩
  | 111 => ⟨S_, .i32⟩
  | 112 => ⟨S351, .i32⟩
  | 113 => ⟨S351, .i1⟩
  | 114 => ⟨S_, .i32⟩
  | 115 => ⟨S_, .i1⟩
  | 116 => ⟨S351, .i1⟩
  | 117 => ⟨S351, .i1⟩
  | 118 => ⟨S351, .i1⟩
  | 119 => ⟨S351, .i32⟩
  | 120 => ⟨S351, .i32⟩
  | 121 => ⟨S351, .i32⟩
  | 122 => ⟨S_, .i32⟩
  | 123 => ⟨S351, .i32⟩
  | 124 => ⟨S351, .i1⟩
  | 125 => ⟨S_, .i32⟩
  | 126 => ⟨S351, .i32⟩
  | 127 => ⟨S351, .i32⟩
  | _ => ⟨S16384x128, .f32⟩

abbrev hbmTy0_1 (i : Nat) : BufTy := match i % 128 with
  | 0 => ⟨S351, .i32⟩
  | 1 => ⟨S_, .i32⟩
  | 2 => ⟨S351, .i32⟩
  | 3 => ⟨S351, .i1⟩
  | 4 => ⟨S_, .i32⟩
  | 5 => ⟨S351, .i32⟩
  | 6 => ⟨S351, .i32⟩
  | 7 => ⟨S351, .i32⟩
  | 8 => ⟨S351x1, .i32⟩
  | 9 => ⟨S351x1, .i32⟩
  | 10 => ⟨S351x2, .i32⟩
  | 11 => ⟨S16384x351, .f32⟩
  | 12 => ⟨S16384x479, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst : Ref sig .tc := ⟨.hbm, 13, rfl⟩
abbrev main_call0_v5 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_call0_c : Ref sig .tc := ⟨.hbm, 21, rfl⟩
abbrev main_call1_call0_v0 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_c_1 : Ref sig .tc := ⟨.hbm, 26, rfl⟩
abbrev main_call2_v0 : Ref sig .tc := ⟨.hbm, 27, rfl⟩
abbrev main_call2_v1 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_call3_call0_c : Ref sig .tc := ⟨.hbm, 41, rfl⟩
abbrev main_call3_call0_v0 : Ref sig .tc := ⟨.hbm, 42, rfl⟩
abbrev main_v18 : Ref sig .tc := ⟨.hbm, 43, rfl⟩
abbrev main_c_5 : Ref sig .tc := ⟨.hbm, 44, rfl⟩
abbrev main_call4_v0 : Ref sig .tc := ⟨.hbm, 45, rfl⟩
abbrev main_call4_v1 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_call4_v5 : Ref sig .tc := ⟨.hbm, 50, rfl⟩
abbrev main_call4_v6 : Ref sig .tc := ⟨.hbm, 51, rfl⟩
abbrev main_call4_v7 : Ref sig .tc := ⟨.hbm, 52, rfl⟩
abbrev main_call4_c : Ref sig .tc := ⟨.hbm, 53, rfl⟩
abbrev main_call4_v8 : Ref sig .tc := ⟨.hbm, 54, rfl⟩
abbrev main_call4_v9 : Ref sig .tc := ⟨.hbm, 55, rfl⟩
abbrev main_call4_v10 : Ref sig .tc := ⟨.hbm, 56, rfl⟩
abbrev main_call4_c_0 : Ref sig .tc := ⟨.hbm, 57, rfl⟩
abbrev main_call4_v11 : Ref sig .tc := ⟨.hbm, 58, rfl⟩
abbrev main_call4_v12 : Ref sig .tc := ⟨.hbm, 59, rfl⟩
abbrev main_v19 : Ref sig .tc := ⟨.hbm, 60, rfl⟩
abbrev main_c_6 : Ref sig .tc := ⟨.hbm, 61, rfl⟩
abbrev main_call5_v0 : Ref sig .tc := ⟨.hbm, 62, rfl⟩
abbrev main_call5_c : Ref sig .tc := ⟨.hbm, 63, rfl⟩
abbrev main_call5_v1 : Ref sig .tc := ⟨.hbm, 64, rfl⟩
abbrev main_call5_c_0 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_call5_c_1 : Ref sig .tc := ⟨.hbm, 69, rfl⟩
abbrev main_call5_v5 : Ref sig .tc := ⟨.hbm, 70, rfl⟩
abbrev main_call5_v6 : Ref sig .tc := ⟨.hbm, 71, rfl⟩
abbrev main_call5_c_2 : Ref sig .tc := ⟨.hbm, 72, rfl⟩
abbrev main_call5_v7 : Ref sig .tc := ⟨.hbm, 73, rfl⟩
abbrev main_call5_v8 : Ref sig .tc := ⟨.hbm, 74, rfl⟩
abbrev main_call5_c_3 : Ref sig .tc := ⟨.hbm, 75, rfl⟩
abbrev main_call5_v9 : Ref sig .tc := ⟨.hbm, 76, rfl⟩
abbrev main_call5_v10 : Ref sig .tc := ⟨.hbm, 77, rfl⟩
abbrev main_call5_v11 : Ref sig .tc := ⟨.hbm, 78, rfl⟩
abbrev main_call5_v12 : Ref sig .tc := ⟨.hbm, 79, rfl⟩
abbrev main_call5_v13 : Ref sig .tc := ⟨.hbm, 80, rfl⟩
abbrev main_call5_v14 : Ref sig .tc := ⟨.hbm, 81, rfl⟩
abbrev main_v20 : Ref sig .tc := ⟨.hbm, 82, rfl⟩
abbrev main_c_7 : Ref sig .tc := ⟨.hbm, 83, rfl⟩
abbrev main_call6_v0 : Ref sig .tc := ⟨.hbm, 84, rfl⟩
abbrev main_call6_v1 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_call6_v5 : Ref sig .tc := ⟨.hbm, 89, rfl⟩
abbrev main_call6_v6 : Ref sig .tc := ⟨.hbm, 90, rfl⟩
abbrev main_call6_v7 : Ref sig .tc := ⟨.hbm, 91, rfl⟩
abbrev main_call6_c : Ref sig .tc := ⟨.hbm, 92, rfl⟩
abbrev main_call6_v8 : Ref sig .tc := ⟨.hbm, 93, rfl⟩
abbrev main_call6_v9 : Ref sig .tc := ⟨.hbm, 94, rfl⟩
abbrev main_call6_v10 : Ref sig .tc := ⟨.hbm, 95, rfl⟩
abbrev main_call6_c_0 : Ref sig .tc := ⟨.hbm, 96, rfl⟩
abbrev main_call6_v11 : Ref sig .tc := ⟨.hbm, 97, rfl⟩
abbrev main_call6_v12 : Ref sig .tc := ⟨.hbm, 98, rfl⟩
abbrev main_v21 : Ref sig .tc := ⟨.hbm, 99, rfl⟩
abbrev main_c_8 : Ref sig .tc := ⟨.hbm, 100, rfl⟩
abbrev main_call7_v0 : Ref sig .tc := ⟨.hbm, 101, rfl⟩
abbrev main_call7_c : Ref sig .tc := ⟨.hbm, 102, rfl⟩
abbrev main_call7_v1 : Ref sig .tc := ⟨.hbm, 103, rfl⟩
abbrev main_call7_c_0 : Ref sig .tc := ⟨.hbm, 104, rfl⟩
abbrev main_call7_v2 : Ref sig .tc := ⟨.hbm, 105, rfl⟩
abbrev main_call7_v3 : Ref sig .tc := ⟨.hbm, 106, rfl⟩
abbrev main_call7_v4 : Ref sig .tc := ⟨.hbm, 107, rfl⟩
abbrev main_call7_c_1 : Ref sig .tc := ⟨.hbm, 108, rfl⟩
abbrev main_call7_v5 : Ref sig .tc := ⟨.hbm, 109, rfl⟩
abbrev main_call7_v6 : Ref sig .tc := ⟨.hbm, 110, rfl⟩
abbrev main_call7_c_2 : Ref sig .tc := ⟨.hbm, 111, rfl⟩
abbrev main_call7_v7 : Ref sig .tc := ⟨.hbm, 112, rfl⟩
abbrev main_call7_v8 : Ref sig .tc := ⟨.hbm, 113, rfl⟩
abbrev main_call7_c_3 : Ref sig .tc := ⟨.hbm, 114, rfl⟩
abbrev main_call7_v9 : Ref sig .tc := ⟨.hbm, 115, rfl⟩
abbrev main_call7_v10 : Ref sig .tc := ⟨.hbm, 116, rfl⟩
abbrev main_call7_v11 : Ref sig .tc := ⟨.hbm, 117, rfl⟩
abbrev main_call7_v12 : Ref sig .tc := ⟨.hbm, 118, rfl⟩
abbrev main_call7_v13 : Ref sig .tc := ⟨.hbm, 119, rfl⟩
abbrev main_call7_v14 : Ref sig .tc := ⟨.hbm, 120, rfl⟩
abbrev main_v22 : Ref sig .tc := ⟨.hbm, 121, rfl⟩
abbrev main_c_9 : Ref sig .tc := ⟨.hbm, 122, rfl⟩
abbrev main_v23 : Ref sig .tc := ⟨.hbm, 123, rfl⟩
abbrev main_v24 : Ref sig .tc := ⟨.hbm, 124, rfl⟩
abbrev main_c_10 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_c_11 : Ref sig .tc := ⟨.hbm, 129, rfl⟩
abbrev main_v28 : Ref sig .tc := ⟨.hbm, 130, rfl⟩
abbrev main_v29 : Ref sig .tc := ⟨.hbm, 131, rfl⟩
abbrev main_c_12 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩

abbrev nD : Nat := 1
abbrev τ : Topo := Topo.v7x

variable {F : FTy → Type} [FloatOps F]

class Facts₀ : Prop where
  bcast_S16384x128_S16384x1x128_0_2 : S16384x128.BroadcastsInDim S16384x1x128 (![0, 2] : Fin 2 → Fin S16384x1x128.rank)
  concatenates_S16384x1x128_S16384x26x128_S16384x27x128_d1 : Shape.Concatenates [S16384x1x128, S16384x26x128] S16384x27x128 1
  bcast_S_S27x27 : S_.BroadcastsInDim S27x27 (![] : Fin 0 → Fin S27x27.rank)
  shapeCasts_S27x27_S729 : S27x27.ShapeCasts S729
  natLt_1_32 : 1 < 32
  bcast_S_S_ : S_.BroadcastsInDim S_ (![] : Fin 0 → Fin S_.rank)
  reduceWindows_S729_S729_w729s1p728_0 : S729.ReduceWindows (![729] : Fin 1 → Nat) ![1] ![728] ![0] S729
  h_S_ : 0 < S_.numel
  bcast_S_S351 : S_.BroadcastsInDim S351 (![] : Fin 0 → Fin S351.rank)
  bcast_S_S729 : S_.BroadcastsInDim S729 (![] : Fin 0 → Fin S729.rank)
  bcast_S729_S729x1_0 : S729.BroadcastsInDim S729x1 (![0] : Fin 1 → Fin S729x1.rank)
  reduceWindows_S351_S351_w351s1p350_0 : S351.ReduceWindows (![351] : Fin 1 → Nat) ![1] ![350] ![0] S351
  bcast_S351_S351x1_0 : S351.BroadcastsInDim S351x1 (![0] : Fin 1 → Fin S351x1.rank)
  concatenates_S351x1_S351x1_S351x2_d1 : Shape.Concatenates [S351x1, S351x1] S351x2 1
  concatenates_S16384x128_S16384x351_S16384x479_d1 : Shape.Concatenates [S16384x128, S16384x351] S16384x479 1
  dot_S16384x27x128_S16384x27x128_S16384x27x27_2_2_1_1_0_0_wf : DotDims.WF S16384x27x128 S16384x27x128 S16384x27x27 [2] [2] [1] [1] [0] [0]
  scatter_S351_S729x1_S729_n_0_0_1_wf : ScatterDims.WF S351 S729x1 S729 [] [0] [0] 1
  gather_S16384x27x27_S351x2_S16384x351_0_12_n_n_12_1_1638411_wf : GatherDims.WF S16384x27x27 S351x2 S16384x351 [0] [1, 2] [] [1, 2] [] 1 ![16384, 1, 1]

variable [Facts₀]

def dot_S16384x27x128_S16384x27x128_S16384x27x27_2_2_1_1_0_0 : DotDims S16384x27x128 S16384x27x128 S16384x27x27 where
  lhsContracting := [2]
  rhsContracting := [2]
  lhsNonContracting := [1]
  rhsNonContracting := [1]
  lhsBatch := [0]
  rhsBatch := [0]
  wf := dot_S16384x27x128_S16384x27x128_S16384x27x27_2_2_1_1_0_0_wf
def scatter_S351_S729x1_S729_n_0_0_1 : ScatterDims S351 S729x1 S729 where
  updateWindowDims := []
  insertedWindowDims := [0]
  scatterDimsToOperandDims := [0]
  indexVectorDim := 1
  wf := scatter_S351_S729x1_S729_n_0_0_1_wf
def gather_S16384x27x27_S351x2_S16384x351_0_12_n_n_12_1_1638411 : GatherDims S16384x27x27 S351x2 S16384x351 where
  offsetDims := [0]
  collapsedSliceDims := [1, 2]
  operandBatchingDims := []
  startIndicesBatchingDims := []
  startIndexMap := [1, 2]
  indexVectorDim := 1
  sliceSizes := ![16384, 1, 1]
  wf := gather_S16384x27x27_S351x2_S16384x351_0_12_n_n_12_1_1638411_wf

class Facts : Prop extends Facts₀ where

variable [Facts]
-- ==== Proof.Spec.lean ====
/-
  What both programs compute, as one function of the two argument arrays.

  Per batch entry b there are 27 rows of 128 numbers: row 0 is the dense row x[b, ·], row f ≥ 1 the embedding row
  e[b, f-1, ·]. The result has 479 columns: the first 128 are the dense row itself, and column 128 + p, for p < 351,
  is the dot product of rows f < g, where (f, g) is the p-th pair of the strict upper triangle in row-major order:
  row f owns the 26 - f consecutive positions from f·(53 - f)/2 on, and within them g runs from f + 1 to 26.
-/
import Idealize.ShloMosaic.PureOps.Ideal
import Idealize.ShloMosaic.Lib.ValueIdx

noncomputable section

namespace Cert.Spec

open Idealize.ShloMosaic Idealize.ShloMosaic.ValueIdx

/-- The number of pairs (f', g) with f' < f: 26 + 25 + … + (27 - f). -/
def rowStart (f : ℕ) : ℕ := f * (53 - f) / 2

/-- The row of the p-th pair: the largest f ≤ 25 whose pairs start at or before p. -/
def pairRow (p : ℕ) : ℕ := ((List.range 26).filter (fun f => rowStart f ≤ p)).length - 1

/-- The column of the p-th pair. -/
def pairCol (p : ℕ) : ℕ := pairRow p + 1 + (p - rowStart (pairRow p))

/-- Every pair lies strictly above the diagonal, inside the 27 × 27 square. -/
theorem pair_bounds : ∀ p : Fin 351, pairRow p.val < pairCol p.val ∧ pairCol p.val < 27 := by decide

/-- Row f's pairs are the positions rowStart f + j, j < 26 - f, with columns f + 1 + j. -/
theorem pair_of_row : ∀ f : Fin 26, ∀ j : Fin 26, j.val < 26 - f.val →
    pairRow (rowStart f.val + j.val) = f.val ∧ pairCol (rowStart f.val + j.val) = f.val + 1 + j.val := by decide

/-- The flat position 27·f + g of the p-th pair in the 27 × 27 square is below 729. -/
theorem pair_flat_lt : ∀ p : Fin 351, 27 * pairRow p.val + pairCol p.val < 729 := by decide

def pairRowF (p : Fin 351) : Fin 27 := ⟨pairRow p.val, by have := pair_bounds p; omega⟩
def pairColF (p : Fin 351) : Fin 27 := ⟨pairCol p.val, (pair_bounds p).2⟩

abbrev SX : Shape := ⟨2, ![16384, 128]⟩
abbrev SE : Shape := ⟨3, ![16384, 26, 128]⟩
abbrev SO : Shape := ⟨2, ![16384, 479]⟩

/-- Row f of batch entry b: the dense row for f = 0, the embedding row f - 1 otherwise. -/
def rowOf (x : SX.Idx → EReal) (e : SE.Idx → EReal) (b : Fin 16384) (f : Fin 27) (d : Fin 128) : EReal :=
  if h : f.val = 0 then x (ix2 b d) else e (ix3 b ⟨f.val - 1, by omega⟩ d)

/-- The dot product of rows f and g of batch entry b. -/
def dotOf (x : SX.Idx → EReal) (e : SE.Idx → EReal) (b : Fin 16384) (f g : Fin 27) : EReal :=
  ∑ d : Fin 128, rowOf x e b f d * rowOf x e b g d

/-- The result at row b, column c. -/
def G' (x : SX.Idx → EReal) (e : SE.Idx → EReal) (b : Fin 16384) (c : Fin 479) : EReal :=
  if h : c.val < 128 then x (ix2 b ⟨c.val, h⟩)
  else dotOf x e b (pairRowF ⟨c.val - 128, by omega⟩) (pairColF ⟨c.val - 128, by omega⟩)

/-- The result array. -/
def G (x : SX.Idx → EReal) (e : SE.Idx → EReal) : SO.Idx → EReal := fun i => G' x e (i 0) (i 1)

theorem G_ix2 (x : SX.Idx → EReal) (e : SE.Idx → EReal) (b : Fin 16384) (c : Fin 479) : G x e (ix2 b c) = G' x e b c := rfl

end Cert.Spec

end
-- ==== Proof.KernelBlock.lean ====
/-
  What one grid point of the kernel leaves in its output block of 256 rows and 479 columns.

  The body stores the dense block into columns 0 … 127 and then, for each row f = 0 … 25 of the 27 × 27 matrix M of
  row products, the tail M[·, f, f+1 … 26] into the 26 - f columns that start at 128 + f·(53 - f)/2. So the block at
  (r, c) is the dense number for c < 128 and M (r, f, g) otherwise, (f, g) the (c - 128)-th pair of the strict upper
  triangle in row-major order. The 27 stores tile the block, so the block is this one function whatever the order
  of the stores.
-/
import proofs.«159237_j82617990905996_2_alg».proof.Proof.Gen.KernelIdeal.Value
import proofs.«159237_j82617990905996_2_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.Tactic
open Idealize.ShloMosaic.ValueIdx Cert.Spec

/-- A row tail of a [256, 27, 27] array — the slice of one row f from column o on, with the unit axis dropped — read at
    (r, j) is the array at (r, f, o + j). -/
theorem rowTail_apply {α : Type} {W : ℕ} (o1 o2 : ℕ) (M : (⟨3, ![256, 27, 27]⟩ : Shape).Idx → α)
    (hs : (⟨3, ![256, 27, 27]⟩ : Shape).Slices ![0, o1, o2] ⟨3, ![256, 1, W]⟩)
    (hc : (⟨3, ![256, 1, W]⟩ : Shape).ShapeCasts ⟨2, ![256, W]⟩)
    (r : Fin 256) (j : Fin W) (f g : Fin 27) (hf : f.val = o1) (hg : g.val = o2 + j.val) :
    shapeCast ⟨2, ![256, W]⟩ (extractStridedSlice ⟨3, ![256, 1, W]⟩ ![0, o1, o2] M hs) hc (ix2 r j) = M (ix3 r f g) := by
  refine (shapeCast_apply _ hc (ix2 r j) (ix3 r (0 : Fin 1) j) ?_).trans ?_
  · rw [Shape.rowMajor_val_three, Shape.rowMajor_val_two]
    show (r.val * 1 + 0) * W + j.val = r.val * W + j.val
    rw [Nat.mul_one, Nat.add_zero]
  · refine extractStridedSlice_apply _ _ hs (ix3 r (0 : Fin 1) j) (ix3 r f g) (fun a => ?_)
    match a with
    | ⟨0, _⟩ => exact (Nat.zero_add _).symm
    | ⟨1, _⟩ => exact hf.trans (Nat.add_zero _).symm
    | ⟨2, _⟩ => exact hg

/-- The block one grid point leaves, from the matrix M of row products of the point's 256 batch entries and the
    point's dense block. -/
def blockOf (M : (⟨3, ![256, 27, 27]⟩ : Shape).Idx → EReal) (x0 : (⟨2, ![256, 128]⟩ : Shape).Idx → EReal) :
    (⟨2, ![256, 479]⟩ : Shape).Idx → EReal := fun y =>
  if h : (y 1).val < 128 then x0 (ix2 (y 0) ⟨(y 1).val, h⟩)
  else M (ix3 (y 0) (pairRowF ⟨(y 1).val - 128, by have := idx2_lt1 y; omega⟩)
    (pairColF ⟨(y 1).val - 128, by have := idx2_lt1 y; omega⟩))

/-- The store of row f's tail agrees with the block: its payload at (r, j) is M (r, f, f + 1 + j), and the column
    it lands on, 128 + f·(53 - f)/2 + j, is the position of the pair (f, f + 1 + j). -/
theorem piece_tail (M : (⟨3, ![256, 27, 27]⟩ : Shape).Idx → EReal) (x0 : (⟨2, ![256, 128]⟩ : Shape).Idx → EReal)
    (f : Fin 26) (W off : ℕ) (hW : W = 26 - f.val) (hoff : off = 128 + rowStart f.val)
    (inb : ∀ a, (![0, off] : Fin 2 → ℕ) a + (![256, W] : Fin 2 → ℕ) a ≤ (⟨2, ![256, 479]⟩ : Shape).size a)
    (pay : (⟨2, ![256, W]⟩ : Shape).Idx → EReal)
    (hpay : ∀ (r : Fin 256) (j : Fin W) (f' g : Fin 27), f'.val = f.val → g.val = f.val + 1 + j.val →
      pay (ix2 r j) = M (ix3 r f' g))
    (x : (Rect.unit (s := ⟨2, ![256, 479]⟩) ![0, off] ![256, W] inb).shape.Idx) :
    pay x = blockOf M x0 ((Rect.unit (s := ⟨2, ![256, 479]⟩) ![0, off] ![256, W] inb).emb x) := by
  subst hW hoff
  obtain ⟨r, j, rfl⟩ : ∃ (r : Fin 256) (j : Fin (26 - f.val)), x = ix2 r j := ⟨x 0, x 1, eq_ix2 x⟩
  have hj : j.val < 26 - f.val := j.isLt
  have hp := pair_of_row f ⟨j.val, by omega⟩ hj
  have e1 : (((Rect.unit (s := ⟨2, ![256, 479]⟩) ![0, 128 + rowStart f.val] ![256, 26 - f.val] inb).emb (ix2 r j)) 1).val
      = 128 + rowStart f.val + j.val := by
    show 128 + rowStart f.val + 1 * j.val = _
    rw [Nat.one_mul]
  have e0 : (((Rect.unit (s := ⟨2, ![256, 479]⟩) ![0, 128 + rowStart f.val] ![256, 26 - f.val] inb).emb (ix2 r j)) 0).val
      = r.val := by
    show 0 + 1 * r.val = _
    rw [Nat.one_mul, Nat.zero_add]
  have e2 : (((Rect.unit (s := ⟨2, ![256, 479]⟩) ![0, 128 + rowStart f.val] ![256, 26 - f.val] inb).emb (ix2 r j)) 1).val - 128
      = rowStart f.val + j.val := by rw [e1]; omega
  unfold blockOf
  rw [dif_neg (by rw [e1]; omega)]
  refine (hpay r j _ _ ?_ ?_).trans (congrArg M (congrArg (fun q => ix3 q _ _) (Fin.ext e0.symm)))
  · exact (congrArg pairRow e2).trans hp.1
  · exact (congrArg pairCol e2).trans hp.2

/-- The store of the dense block agrees with the block. -/
theorem piece_dense (M : (⟨3, ![256, 27, 27]⟩ : Shape).Idx → EReal) (x0 : (⟨2, ![256, 128]⟩ : Shape).Idx → EReal)
    (inb : ∀ a, (![0, 0] : Fin 2 → ℕ) a + (![256, 128] : Fin 2 → ℕ) a ≤ (⟨2, ![256, 479]⟩ : Shape).size a)
    (x : (Rect.unit (s := ⟨2, ![256, 479]⟩) ![0, 0] ![256, 128] inb).shape.Idx) :
    x0 x = blockOf M x0 ((Rect.unit (s := ⟨2, ![256, 479]⟩) ![0, 0] ![256, 128] inb).emb x) := by
  obtain ⟨r, j, rfl⟩ : ∃ (r : Fin 256) (j : Fin 128), x = ix2 r j := ⟨x 0, x 1, eq_ix2 x⟩
  have e1 : (((Rect.unit (s := ⟨2, ![256, 479]⟩) ![0, 0] ![256, 128] inb).emb (ix2 r j)) 1).val = j.val := by
    show 0 + 1 * j.val = _
    rw [Nat.one_mul, Nat.zero_add]
  have e0 : (((Rect.unit (s := ⟨2, ![256, 479]⟩) ![0, 0] ![256, 128] inb).emb (ix2 r j)) 0).val = r.val := by
    show 0 + 1 * r.val = _
    rw [Nat.one_mul, Nat.zero_add]
  unfold blockOf
  rw [dif_pos (by rw [e1]; exact j.isLt)]
  refine congrArg x0 (funext fun a => Fin.ext ?_)
  match a with
  | ⟨0, _⟩ => exact e0.symm
  | ⟨1, _⟩ => exact e1.symm

/-! ## The stores' payloads at an entry: each row tail of the matrix of products -/

theorem pay11_apply (x0 : Vec Ideal S256x128 .f32) (x1 : Vec Ideal S256x26x128 .f32) (r : Fin 256) (j : Fin 26) (f g : Fin 27)
    (hf : f.val = 0) (hg : g.val = 0 + 1 + j.val) : k0_pay11 (F := Ideal) x0 x1 (ix2 r j) = k0_pay10 (F := Ideal) x0 x1 (ix3 r f g) := by
  unfold k0_pay11
  exact rowTail_apply 0 1 _ _ _ r j f g hf (by omega)
theorem pay12_apply (x0 : Vec Ideal S256x128 .f32) (x1 : Vec Ideal S256x26x128 .f32) (r : Fin 256) (j : Fin 25) (f g : Fin 27)
    (hf : f.val = 1) (hg : g.val = 1 + 1 + j.val) : k0_pay12 (F := Ideal) x0 x1 (ix2 r j) = k0_pay10 (F := Ideal) x0 x1 (ix3 r f g) := by
  unfold k0_pay12
  exact rowTail_apply 1 2 _ _ _ r j f g hf (by omega)
theorem pay13_apply (x0 : Vec Ideal S256x128 .f32) (x1 : Vec Ideal S256x26x128 .f32) (r : Fin 256) (j : Fin 24) (f g : Fin 27)
    (hf : f.val = 2) (hg : g.val = 2 + 1 + j.val) : k0_pay13 (F := Ideal) x0 x1 (ix2 r j) = k0_pay10 (F := Ideal) x0 x1 (ix3 r f g) := by
  unfold k0_pay13
  exact rowTail_apply 2 3 _ _ _ r j f g hf (by omega)
theorem pay14_apply (x0 : Vec Ideal S256x128 .f32) (x1 : Vec Ideal S256x26x128 .f32) (r : Fin 256) (j : Fin 23) (f g : Fin 27)
    (hf : f.val = 3) (hg : g.val = 3 + 1 + j.val) : k0_pay14 (F := Ideal) x0 x1 (ix2 r j) = k0_pay10 (F := Ideal) x0 x1 (ix3 r f g) := by
  unfold k0_pay14
  exact rowTail_apply 3 4 _ _ _ r j f g hf (by omega)
theorem pay15_apply (x0 : Vec Ideal S256x128 .f32) (x1 : Vec Ideal S256x26x128 .f32) (r : Fin 256) (j : Fin 22) (f g : Fin 27)
    (hf : f.val = 4) (hg : g.val = 4 + 1 + j.val) : k0_pay15 (F := Ideal) x0 x1 (ix2 r j) = k0_pay10 (F := Ideal) x0 x1 (ix3 r f g) := by
  unfold k0_pay15
  exact rowTail_apply 4 5 _ _ _ r j f g hf (by omega)
theorem pay16_apply (x0 : Vec Ideal S256x128 .f32) (x1 : Vec Ideal S256x26x128 .f32) (r : Fin 256) (j : Fin 21) (f g : Fin 27)
    (hf : f.val = 5) (hg : g.val = 5 + 1 + j.val) : k0_pay16 (F := Ideal) x0 x1 (ix2 r j) = k0_pay10 (F := Ideal) x0 x1 (ix3 r f g) := by
  unfold k0_pay16
  exact rowTail_apply 5 6 _ _ _ r j f g hf (by omega)
theorem pay17_apply (x0 : Vec Ideal S256x128 .f32) (x1 : Vec Ideal S256x26x128 .f32) (r : Fin 256) (j : Fin 20) (f g : Fin 27)
    (hf : f.val = 6) (hg : g.val = 6 + 1 + j.val) : k0_pay17 (F := Ideal) x0 x1 (ix2 r j) = k0_pay10 (F := Ideal) x0 x1 (ix3 r f g) := by
  unfold k0_pay17
  exact rowTail_apply 6 7 _ _ _ r j f g hf (by omega)
theorem pay18_apply (M : FVec Ideal S256x27x27 .f32) (r : Fin 256) (j : Fin 19) (f g : Fin 27)
    (hf : f.val = 7) (hg : g.val = 7 + 1 + j.val) : k0_pay18 (F := Ideal) M (ix2 r j) = M (ix3 r f g) := by
  unfold k0_pay18
  exact rowTail_apply 7 8 _ _ _ r j f g hf (by omega)
theorem pay19_apply (M : FVec Ideal S256x27x27 .f32) (r : Fin 256) (j : Fin 18) (f g : Fin 27)
    (hf : f.val = 8) (hg : g.val = 8 + 1 + j.val) : k0_pay19 (F := Ideal) M (ix2 r j) = M (ix3 r f g) := by
  unfold k0_pay19
  exact rowTail_apply 8 9 _ _ _ r j f g hf (by omega)
theorem pay20_apply (M : FVec Ideal S256x27x27 .f32) (r : Fin 256) (j : Fin 17) (f g : Fin 27)
    (hf : f.val = 9) (hg : g.val = 9 + 1 + j.val) : k0_pay20 (F := Ideal) M (ix2 r j) = M (ix3 r f g) := by
  unfold k0_pay20
  exact rowTail_apply 9 10 _ _ _ r j f g hf (by omega)
theorem pay21_apply (M : FVec Ideal S256x27x27 .f32) (r : Fin 256) (j : Fin 16) (f g : Fin 27)
    (hf : f.val = 10) (hg : g.val = 10 + 1 + j.val) : k0_pay21 (F := Ideal) M (ix2 r j) = M (ix3 r f g) := by
  unfold k0_pay21
  exact rowTail_apply 10 11 _ _ _ r j f g hf (by omega)
theorem pay22_apply (M : FVec Ideal S256x27x27 .f32) (r : Fin 256) (j : Fin 15) (f g : Fin 27)
    (hf : f.val = 11) (hg : g.val = 11 + 1 + j.val) : k0_pay22 (F := Ideal) M (ix2 r j) = M (ix3 r f g) := by
  unfold k0_pay22
  exact rowTail_apply 11 12 _ _ _ r j f g hf (by omega)
theorem pay23_apply (M : FVec Ideal S256x27x27 .f32) (r : Fin 256) (j : Fin 14) (f g : Fin 27)
    (hf : f.val = 12) (hg : g.val = 12 + 1 + j.val) : k0_pay23 (F := Ideal) M (ix2 r j) = M (ix3 r f g) := by
  unfold k0_pay23
  exact rowTail_apply 12 13 _ _ _ r j f g hf (by omega)
theorem pay24_apply (M : FVec Ideal S256x27x27 .f32) (r : Fin 256) (j : Fin 13) (f g : Fin 27)
    (hf : f.val = 13) (hg : g.val = 13 + 1 + j.val) : k0_pay24 (F := Ideal) M (ix2 r j) = M (ix3 r f g) := by
  unfold k0_pay24
  exact rowTail_apply 13 14 _ _ _ r j f g hf (by omega)
theorem pay25_apply (M : FVec Ideal S256x27x27 .f32) (r : Fin 256) (j : Fin 12) (f g : Fin 27)
    (hf : f.val = 14) (hg : g.val = 14 + 1 + j.val) : k0_pay25 (F := Ideal) M (ix2 r j) = M (ix3 r f g) := by
  unfold k0_pay25
  exact rowTail_apply 14 15 _ _ _ r j f g hf (by omega)
theorem pay26_apply (M : FVec Ideal S256x27x27 .f32) (r : Fin 256) (j : Fin 11) (f g : Fin 27)
    (hf : f.val = 15) (hg : g.val = 15 + 1 + j.val) : k0_pay26 (F := Ideal) M (ix2 r j) = M (ix3 r f g) := by
  unfold k0_pay26
  exact rowTail_apply 15 16 _ _ _ r j f g hf (by omega)
theorem pay27_apply (M : FVec Ideal S256x27x27 .f32) (r : Fin 256) (j : Fin 10) (f g : Fin 27)
    (hf : f.val = 16) (hg : g.val = 16 + 1 + j.val) : k0_pay27 (F := Ideal) M (ix2 r j) = M (ix3 r f g) := by
  unfold k0_pay27
  exact rowTail_apply 16 17 _ _ _ r j f g hf (by omega)
theorem pay1_apply (M : FVec Ideal S256x27x27 .f32) (r : Fin 256) (j : Fin 9) (f g : Fin 27)
    (hf : f.val = 17) (hg : g.val = 17 + 1 + j.val) : k0_pay1 (F := Ideal) M (ix2 r j) = M (ix3 r f g) := by
  unfold k0_pay1
  exact rowTail_apply 17 18 _ _ _ r j f g hf (by omega)
theorem pay2_apply (M : FVec Ideal S256x27x27 .f32) (r : Fin 256) (j : Fin 8) (f g : Fin 27)
    (hf : f.val = 18) (hg : g.val = 18 + 1 + j.val) : k0_pay2 (F := Ideal) M (ix2 r j) = M (ix3 r f g) := by
  unfold k0_pay2
  exact rowTail_apply 18 19 _ _ _ r j f g hf (by omega)
theorem pay3_apply (M : FVec Ideal S256x27x27 .f32) (r : Fin 256) (j : Fin 7) (f g : Fin 27)
    (hf : f.val = 19) (hg : g.val = 19 + 1 + j.val) : k0_pay3 (F := Ideal) M (ix2 r j) = M (ix3 r f g) := by
  unfold k0_pay3
  exact rowTail_apply 19 20 _ _ _ r j f g hf (by omega)
theorem pay4_apply (M : FVec Ideal S256x27x27 .f32) (r : Fin 256) (j : Fin 6) (f g : Fin 27)
    (hf : f.val = 20) (hg : g.val = 20 + 1 + j.val) : k0_pay4 (F := Ideal) M (ix2 r j) = M (ix3 r f g) := by
  unfold k0_pay4
  exact rowTail_apply 20 21 _ _ _ r j f g hf (by omega)
theorem pay5_apply (M : FVec Ideal S256x27x27 .f32) (r : Fin 256) (j : Fin 5) (f g : Fin 27)
    (hf : f.val = 21) (hg : g.val = 21 + 1 + j.val) : k0_pay5 (F := Ideal) M (ix2 r j) = M (ix3 r f g) := by
  unfold k0_pay5
  exact rowTail_apply 21 22 _ _ _ r j f g hf (by omega)
theorem pay6_apply (M : FVec Ideal S256x27x27 .f32) (r : Fin 256) (j : Fin 4) (f g : Fin 27)
    (hf : f.val = 22) (hg : g.val = 22 + 1 + j.val) : k0_pay6 (F := Ideal) M (ix2 r j) = M (ix3 r f g) := by
  unfold k0_pay6
  exact rowTail_apply 22 23 _ _ _ r j f g hf (by omega)
theorem pay7_apply (M : FVec Ideal S256x27x27 .f32) (r : Fin 256) (j : Fin 3) (f g : Fin 27)
    (hf : f.val = 23) (hg : g.val = 23 + 1 + j.val) : k0_pay7 (F := Ideal) M (ix2 r j) = M (ix3 r f g) := by
  unfold k0_pay7
  exact rowTail_apply 23 24 _ _ _ r j f g hf (by omega)
theorem pay8_apply (M : FVec Ideal S256x27x27 .f32) (r : Fin 256) (j : Fin 2) (f g : Fin 27)
    (hf : f.val = 24) (hg : g.val = 24 + 1 + j.val) : k0_pay8 (F := Ideal) M (ix2 r j) = M (ix3 r f g) := by
  unfold k0_pay8
  exact rowTail_apply 24 25 _ _ _ r j f g hf (by omega)
theorem pay9_apply (M : FVec Ideal S256x27x27 .f32) (r : Fin 256) (j : Fin 1) (f g : Fin 27)
    (hf : f.val = 25) (hg : g.val = 25 + 1 + j.val) : k0_pay9 (F := Ideal) M (ix2 r j) = M (ix3 r f g) := by
  unfold k0_pay9
  exact rowTail_apply 25 26 _ _ _ r j f g hf (by omega)

/-! ## The block -/

theorem zero2 : (![0, 0] : Fin 2 → Nat) = fun _ => 0 := funext fun a => by fin_cases a <;> rfl
theorem zero3 : (![0, 0, 0] : Fin 3 → Nat) = fun _ => 0 := funext fun a => by fin_cases a <;> rfl

/-- Every store of the body writes the values the block function has under it. -/
theorem pieces_ok (c : Dev nD) (i : grid0.Coords) (arg1 : Memref sig .tc .vmem S256x128 .f32) (harg1 : arg1.IsWhole)
    (arg2 : Memref sig .tc .vmem S256x26x128 .f32) (harg2 : arg2.IsWhole) (arg3 : Memref sig .tc .vmem S256x479 .f32) (harg3 : arg3.IsWhole)
    (x0 : Vec Ideal S256x128 .f32) (x1 : Vec Ideal S256x26x128 .f32) :
    ∀ p ∈ (kernelRun0_A (F := Ideal) c i arg1 harg1 arg2 harg2 arg3 harg3 x0 x1).1, ∀ x : p.1.shape.Idx,
      p.2 x = blockOf (k0_pay10 x0 x1) x0 (p.1.emb x) := by
  unfold kernelRun0_A
  dsimp only
  sl_unfold_words
  simp only [View.readAt_eq_ld, harg1.read_unread, harg2.read_unread, View.ld_unit_zero (S := S256x128) zero2,
    View.ld_unit_zero (S := S256x26x128) zero3]
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl
  · exact piece_tail (k0_pay10 x0 x1) x0 ⟨25, by decide⟩ 1 478 rfl rfl inb_S256x479_S256x1_0_478 (k0_pay9 (k0_pay10 x0 x1))
      (fun r j f g hf hg => pay9_apply (k0_pay10 x0 x1) r j f g hf hg) x
  · exact piece_tail (k0_pay10 x0 x1) x0 ⟨24, by decide⟩ 2 476 rfl rfl inb_S256x479_S256x2_0_476 (k0_pay8 (k0_pay10 x0 x1))
      (fun r j f g hf hg => pay8_apply (k0_pay10 x0 x1) r j f g hf hg) x
  · exact piece_tail (k0_pay10 x0 x1) x0 ⟨23, by decide⟩ 3 473 rfl rfl inb_S256x479_S256x3_0_473 (k0_pay7 (k0_pay10 x0 x1))
      (fun r j f g hf hg => pay7_apply (k0_pay10 x0 x1) r j f g hf hg) x
  · exact piece_tail (k0_pay10 x0 x1) x0 ⟨22, by decide⟩ 4 469 rfl rfl inb_S256x479_S256x4_0_469 (k0_pay6 (k0_pay10 x0 x1))
      (fun r j f g hf hg => pay6_apply (k0_pay10 x0 x1) r j f g hf hg) x
  · exact piece_tail (k0_pay10 x0 x1) x0 ⟨21, by decide⟩ 5 464 rfl rfl inb_S256x479_S256x5_0_464 (k0_pay5 (k0_pay10 x0 x1))
      (fun r j f g hf hg => pay5_apply (k0_pay10 x0 x1) r j f g hf hg) x
  · exact piece_tail (k0_pay10 x0 x1) x0 ⟨20, by decide⟩ 6 458 rfl rfl inb_S256x479_S256x6_0_458 (k0_pay4 (k0_pay10 x0 x1))
      (fun r j f g hf hg => pay4_apply (k0_pay10 x0 x1) r j f g hf hg) x
  · exact piece_tail (k0_pay10 x0 x1) x0 ⟨19, by decide⟩ 7 451 rfl rfl inb_S256x479_S256x7_0_451 (k0_pay3 (k0_pay10 x0 x1))
      (fun r j f g hf hg => pay3_apply (k0_pay10 x0 x1) r j f g hf hg) x
  · exact piece_tail (k0_pay10 x0 x1) x0 ⟨18, by decide⟩ 8 443 rfl rfl inb_S256x479_S256x8_0_443 (k0_pay2 (k0_pay10 x0 x1))
      (fun r j f g hf hg => pay2_apply (k0_pay10 x0 x1) r j f g hf hg) x
  · exact piece_tail (k0_pay10 x0 x1) x0 ⟨17, by decide⟩ 9 434 rfl rfl inb_S256x479_S256x9_0_434 (k0_pay1 (k0_pay10 x0 x1))
      (fun r j f g hf hg => pay1_apply (k0_pay10 x0 x1) r j f g hf hg) x
  · exact piece_tail (k0_pay10 x0 x1) x0 ⟨16, by decide⟩ 10 424 rfl rfl inb_S256x479_S256x10_0_424 (k0_pay27 (k0_pay10 x0 x1))
      (fun r j f g hf hg => pay27_apply (k0_pay10 x0 x1) r j f g hf hg) x
  · exact piece_tail (k0_pay10 x0 x1) x0 ⟨15, by decide⟩ 11 413 rfl rfl inb_S256x479_S256x11_0_413 (k0_pay26 (k0_pay10 x0 x1))
      (fun r j f g hf hg => pay26_apply (k0_pay10 x0 x1) r j f g hf hg) x
  · exact piece_tail (k0_pay10 x0 x1) x0 ⟨14, by decide⟩ 12 401 rfl rfl inb_S256x479_S256x12_0_401 (k0_pay25 (k0_pay10 x0 x1))
      (fun r j f g hf hg => pay25_apply (k0_pay10 x0 x1) r j f g hf hg) x
  · exact piece_tail (k0_pay10 x0 x1) x0 ⟨13, by decide⟩ 13 388 rfl rfl inb_S256x479_S256x13_0_388 (k0_pay24 (k0_pay10 x0 x1))
      (fun r j f g hf hg => pay24_apply (k0_pay10 x0 x1) r j f g hf hg) x
  · exact piece_tail (k0_pay10 x0 x1) x0 ⟨12, by decide⟩ 14 374 rfl rfl inb_S256x479_S256x14_0_374 (k0_pay23 (k0_pay10 x0 x1))
      (fun r j f g hf hg => pay23_apply (k0_pay10 x0 x1) r j f g hf hg) x
  · exact piece_tail (k0_pay10 x0 x1) x0 ⟨11, by decide⟩ 15 359 rfl rfl inb_S256x479_S256x15_0_359 (k0_pay22 (k0_pay10 x0 x1))
      (fun r j f g hf hg => pay22_apply (k0_pay10 x0 x1) r j f g hf hg) x
  · exact piece_tail (k0_pay10 x0 x1) x0 ⟨10, by decide⟩ 16 343 rfl rfl inb_S256x479_S256x16_0_343 (k0_pay21 (k0_pay10 x0 x1))
      (fun r j f g hf hg => pay21_apply (k0_pay10 x0 x1) r j f g hf hg) x
  · exact piece_tail (k0_pay10 x0 x1) x0 ⟨9, by decide⟩ 17 326 rfl rfl inb_S256x479_S256x17_0_326 (k0_pay20 (k0_pay10 x0 x1))
      (fun r j f g hf hg => pay20_apply (k0_pay10 x0 x1) r j f g hf hg) x
  · exact piece_tail (k0_pay10 x0 x1) x0 ⟨8, by decide⟩ 18 308 rfl rfl inb_S256x479_S256x18_0_308 (k0_pay19 (k0_pay10 x0 x1))
      (fun r j f g hf hg => pay19_apply (k0_pay10 x0 x1) r j f g hf hg) x
  · exact piece_tail (k0_pay10 x0 x1) x0 ⟨7, by decide⟩ 19 289 rfl rfl inb_S256x479_S256x19_0_289 (k0_pay18 (k0_pay10 x0 x1))
      (fun r j f g hf hg => pay18_apply (k0_pay10 x0 x1) r j f g hf hg) x
  · exact piece_tail (k0_pay10 x0 x1) x0 ⟨6, by decide⟩ 20 269 rfl rfl inb_S256x479_S256x20_0_269 (k0_pay17 x0 x1)
      (fun r j f g hf hg => pay17_apply x0 x1 r j f g hf hg) x
  · exact piece_tail (k0_pay10 x0 x1) x0 ⟨5, by decide⟩ 21 248 rfl rfl inb_S256x479_S256x21_0_248 (k0_pay16 x0 x1)
      (fun r j f g hf hg => pay16_apply x0 x1 r j f g hf hg) x
  · exact piece_tail (k0_pay10 x0 x1) x0 ⟨4, by decide⟩ 22 226 rfl rfl inb_S256x479_S256x22_0_226 (k0_pay15 x0 x1)
      (fun r j f g hf hg => pay15_apply x0 x1 r j f g hf hg) x
  · exact piece_tail (k0_pay10 x0 x1) x0 ⟨3, by decide⟩ 23 203 rfl rfl inb_S256x479_S256x23_0_203 (k0_pay14 x0 x1)
      (fun r j f g hf hg => pay14_apply x0 x1 r j f g hf hg) x
  · exact piece_tail (k0_pay10 x0 x1) x0 ⟨2, by decide⟩ 24 179 rfl rfl inb_S256x479_S256x24_0_179 (k0_pay13 x0 x1)
      (fun r j f g hf hg => pay13_apply x0 x1 r j f g hf hg) x
  · exact piece_tail (k0_pay10 x0 x1) x0 ⟨1, by decide⟩ 25 154 rfl rfl inb_S256x479_S256x25_0_154 (k0_pay12 x0 x1)
      (fun r j f g hf hg => pay12_apply x0 x1 r j f g hf hg) x
  · exact piece_tail (k0_pay10 x0 x1) x0 ⟨0, by decide⟩ 26 128 rfl rfl inb_S256x479_S256x26_0_128 (k0_pay11 x0 x1)
      (fun r j f g hf hg => pay11_apply x0 x1 r j f g hf hg) x
  · exact piece_dense (k0_pay10 x0 x1) x0 inb_S256x479_S256x128_0_0 x

/-- What the body leaves in the output's staging buffer is the block function of the point's input blocks. -/
theorem out_eq (c : Dev nD) (i : grid0.Coords) (arg1 : Memref sig .tc .vmem S256x128 .f32) (harg1 : arg1.IsWhole)
    (arg2 : Memref sig .tc .vmem S256x26x128 .f32) (harg2 : arg2.IsWhole) (arg3 : Memref sig .tc .vmem S256x479 .f32) (harg3 : arg3.IsWhole)
    (x0 : Vec Ideal S256x128 .f32) (x1 : Vec Ideal S256x26x128 .f32) :
    out0_A_2 (F := Ideal) c i arg1 harg1 arg2 harg2 arg3 harg3 x0 x1 = blockOf (k0_pay10 x0 x1) x0 := by
  unfold out0_A_2
  rw [View.read_writes_eq_canon _ _ _ (cover0_A_2 c i arg1 harg1 arg2 harg2 arg3 harg3 x0 x1)]
  funext y
  exact View.canon_apply_of_pieces _ _ (pieces_ok c i arg1 harg1 arg2 harg2 arg3 harg3 x0 x1) y
    (cover0_A_2 c i arg1 harg1 arg2 harg2 arg3 harg3 x0 x1 y)

end Cert.KernelIdeal.Hand

end
-- ==== Proof.KernelProducts.lean ====
/-
  The matrix of row products one grid point computes, read at an entry.

  The body stacks the dense block's row on top of the 26 embedding rows of each of its 256 batch entries (a change of
  float format in between is the identity on extended reals) and contracts the stack with itself along the last
  axis, batch entry by batch entry: entry (r, f, g) is the sum over d of row f times row g of batch entry r.
-/
import proofs.«159237_j82617990905996_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.ValueIdx

/-- Row f of batch entry r of a block: the dense row for f = 0, the embedding row f - 1 otherwise. -/
def rowB (x0 : (⟨2, ![256, 128]⟩ : Shape).Idx → EReal) (x1 : (⟨3, ![256, 26, 128]⟩ : Shape).Idx → EReal)
    (r : Fin 256) (f : Fin 27) (d : Fin 128) : EReal :=
  if h : f.val = 0 then x0 (ix2 r d) else x1 (ix3 r ⟨f.val - 1, by omega⟩ d)

/-- The stack of the 27 rows, read at an entry. -/
theorem stack_apply {α : Type} (y0 : (⟨2, ![256, 128]⟩ : Shape).Idx → α) (y1 : (⟨3, ![256, 26, 128]⟩ : Shape).Idx → α)
    (hc : (⟨2, ![256, 128]⟩ : Shape).ShapeCasts ⟨3, ![256, 1, 128]⟩)
    (h : Shape.Concatenates [(⟨3, ![256, 1, 128]⟩ : Shape), ⟨3, ![256, 26, 128]⟩] ⟨3, ![256, 27, 128]⟩ 1)
    (r : Fin 256) (f : Fin 27) (d : Fin 128) :
    concatenate (⟨3, ![256, 27, 128]⟩ : Shape) 1 [⟨⟨3, ![256, 1, 128]⟩, shapeCast ⟨3, ![256, 1, 128]⟩ y0 hc⟩, ⟨⟨3, ![256, 26, 128]⟩, y1⟩] h (ix3 r f d)
      = if h : f.val = 0 then y0 (ix2 r d) else y1 (ix3 r ⟨f.val - 1, by omega⟩ d) := by
  by_cases hf : f.val = 0
  · rw [dif_pos hf]
    refine (concatenate_pair_apply_left (t := ⟨3, ![256, 27, 128]⟩) (s₁ := ⟨3, ![256, 1, 128]⟩) (s₂ := ⟨3, ![256, 26, 128]⟩) (1 : Fin 3) _ _ h (ix3 r f d) rfl (ix3 r (0 : Fin 1) d) (fun b => ?_)).trans ?_
    · match b with
      | ⟨0, _⟩ => rfl
      | ⟨1, _⟩ => exact hf.symm
      | ⟨2, _⟩ => rfl
    · refine shapeCast_apply _ hc (ix3 r (0 : Fin 1) d) (ix2 r d) ?_
      rw [Shape.rowMajor_val_three, Shape.rowMajor_val_two]
      show r.val * 128 + d.val = (r.val * 1 + 0) * 128 + d.val
      rw [Nat.mul_one, Nat.add_zero]
  · rw [dif_neg hf]
    refine concatenate_pair_apply_right (t := ⟨3, ![256, 27, 128]⟩) (s₁ := ⟨3, ![256, 1, 128]⟩) (s₂ := ⟨3, ![256, 26, 128]⟩) (1 : Fin 3) _ _ h (ix3 r f d) rfl rfl (ix3 r ⟨f.val - 1, by omega⟩ d) (fun b hb => ?_) ?_
    · match b with
      | ⟨0, _⟩ => rfl
      | ⟨1, _⟩ => exact absurd rfl hb
      | ⟨2, _⟩ => rfl
    · show f.val - 1 + 1 = f.val
      omega

/-- The batched contraction's dimension numbers: batch axis 0, free axis 1, contracted axis 2 on both sides. -/
abbrev D : DotDims S256x27x128 S256x27x128 S256x27x27 := dot_S256x27x128_S256x27x128_S256x27x27_2_2_1_1_0_0

theorem lhs_0 (i : S256x27x27.Idx) (q : D.contr.Idx) : (D.lhsIdx i q 0).val = (i 0).val := by
  unfold DotDims.lhsIdx
  rw [dif_pos (show (0 : Fin S256x27x128.rank) ∈ D.lhsBatch by decide)]
  rfl
theorem lhs_1 (i : S256x27x27.Idx) (q : D.contr.Idx) : (D.lhsIdx i q 1).val = (i 1).val := by
  unfold DotDims.lhsIdx
  rw [dif_neg (show ¬(1 : Fin S256x27x128.rank) ∈ D.lhsBatch by decide), dif_pos (show (1 : Fin S256x27x128.rank) ∈ D.lhsNonContracting by decide)]
  rfl
theorem lhs_2 (i : S256x27x27.Idx) (q : D.contr.Idx) : (D.lhsIdx i q 2).val = (q ⟨0, by decide⟩).val :=
  D.lhsIdx_val_of_single rfl i q
theorem rhs_0 (i : S256x27x27.Idx) (q : D.contr.Idx) : (D.rhsIdx i q 0).val = (i 0).val := by
  unfold DotDims.rhsIdx
  rw [dif_pos (show (0 : Fin S256x27x128.rank) ∈ D.rhsBatch by decide)]
  rfl
theorem rhs_1 (i : S256x27x27.Idx) (q : D.contr.Idx) : (D.rhsIdx i q 1).val = (i 2).val := by
  unfold DotDims.rhsIdx
  rw [dif_neg (show ¬(1 : Fin S256x27x128.rank) ∈ D.rhsBatch by decide), dif_pos (show (1 : Fin S256x27x128.rank) ∈ D.rhsNonContracting by decide)]
  rfl
theorem rhs_2 (i : S256x27x27.Idx) (q : D.contr.Idx) : (D.rhsIdx i q 2).val = (q ⟨0, by decide⟩).val :=
  D.rhsIdx_val_of_single rfl i q

/-- The matrix of products at (r, f, g): the sum over d of row f times row g of batch entry r. -/
theorem products_apply (x0 : Vec Ideal S256x128 .f32) (x1 : Vec Ideal S256x26x128 .f32) (r : Fin 256) (f g : Fin 27) :
    k0_pay10 (F := Ideal) x0 x1 (ix3 r f g) = ∑ d : Fin 128, rowB x0 x1 r f d * rowB x0 x1 r g d := by
  unfold k0_pay10
  refine (Ideal.matmul_constant_zero_apply D none _ _ (ix3 r f g)).trans ?_
  rw [← Equiv.sum_comp (contrEquiv1 D 128 rfl rfl).symm]
  refine Finset.sum_congr rfl fun k _ => ?_
  have hk := contrEquiv1_symm_val D 128 rfl rfl k
  have el : D.lhsIdx (ix3 r f g) ((contrEquiv1 D 128 rfl rfl).symm k) = ix3 r f k := funext fun a => Fin.ext (by
    match a with
    | ⟨0, _⟩ => exact lhs_0 _ _
    | ⟨1, _⟩ => exact lhs_1 _ _
    | ⟨2, _⟩ => exact (lhs_2 _ _).trans hk)
  have er : D.rhsIdx (ix3 r f g) ((contrEquiv1 D 128 rfl rfl).symm k) = ix3 r g k := funext fun a => Fin.ext (by
    match a with
    | ⟨0, _⟩ => exact rhs_0 _ _
    | ⟨1, _⟩ => exact rhs_1 _ _
    | ⟨2, _⟩ => exact (rhs_2 _ _).trans hk)
  rw [el, er]
  unfold rowB
  exact congrArg₂ (· * ·) (stack_apply _ _ _ _ r f k) (stack_apply _ _ _ _ r g k)

end Cert.KernelIdeal.Hand

end
-- ==== Proof.KernelArray.lean ====
/-
  From the blocks to the whole result array.

  Grid point t handles the 256 batch entries from 256·t on: its dense block and its embedding block are those rows of
  the two argument arrays, and the block it writes back lands on those rows of the result, all 479 columns. The 64
  points' blocks tile the result's 16384 rows, so the result array is one function of the argument arrays: the
  specification G.
-/
import proofs.«159237_j82617990905996_2_alg».proof.Proof.KernelBlock
import proofs.«159237_j82617990905996_2_alg».proof.Proof.KernelProducts

noncomputable section

namespace Cert.KernelIdeal.Hand

open Cert.KernelIdeal Cert.KernelIdeal.Gen Idealize.ShloMosaic Idealize.ShloMosaic.TcCoe Idealize.SL.Sem
open Idealize.ShloMosaic.ValueIdx Cert.Spec
open Idealize.ShloMosaic.Pipeline (Dat)

/-- A block's rows are rows of the arrays: row f of the block's batch entry r is row f of the arrays' batch entry b. -/
theorem rowB_eq (A0 : SX.Idx → EReal) (A1 : SE.Idx → EReal) (b : Fin 16384)
    (x0 : (⟨2, ![256, 128]⟩ : Shape).Idx → EReal) (x1 : (⟨3, ![256, 26, 128]⟩ : Shape).Idx → EReal) (r : Fin 256)
    (h0 : ∀ d : Fin 128, x0 (ix2 r d) = A0 (ix2 b d))
    (h1 : ∀ (f : Fin 26) (d : Fin 128), x1 (ix3 r f d) = A1 (ix3 b f d)) (f : Fin 27) (d : Fin 128) :
    rowB x0 x1 r f d = rowOf A0 A1 b f d := by
  unfold rowB rowOf
  by_cases hf : f.val = 0
  · rw [dif_pos hf, dif_pos hf]; exact h0 d
  · rw [dif_neg hf, dif_neg hf]; exact h1 _ d

/-- The block function of the q-th row blocks of the arrays is the specification on those rows. -/
theorem block_eq (A0 : SX.Idx → EReal) (A1 : SE.Idx → EReal) (q : ℕ) (hq : q < 64)
    (x0 : Vec Ideal S256x128 .f32) (x1 : Vec Ideal S256x26x128 .f32)
    (h0 : ∀ (r : Fin 256) (d : Fin 128), x0 (ix2 r d) = A0 (ix2 ⟨q * 256 + r.val, by omega⟩ d))
    (h1 : ∀ (r : Fin 256) (f : Fin 26) (d : Fin 128), x1 (ix3 r f d) = A1 (ix3 ⟨q * 256 + r.val, by omega⟩ f d))
    (r : Fin 256) (cc : Fin 479) :
    blockOf (k0_pay10 x0 x1) x0 (ix2 r cc) = G' A0 A1 ⟨q * 256 + r.val, by omega⟩ cc := by
  unfold blockOf G'
  by_cases hc : cc.val < 128
  · rw [dif_pos hc, dif_pos hc]; exact h0 r ⟨cc.val, hc⟩
  · rw [dif_neg hc, dif_neg hc]
    refine (products_apply x0 x1 r _ _).trans ?_
    unfold dotOf
    exact Finset.sum_congr rfl fun d _ => congrArg₂ (· * ·)
      (rowB_eq A0 A1 _ x0 x1 r (h0 r) (h1 r) _ d) (rowB_eq A0 A1 _ x0 x1 r (h0 r) (h1 r) _ d)

variable (m : (ℓ : Loc nD τ sig) → Buf (Elt Ideal) ℓ) (ρ : Dev nD → PrngReg)

/-- The printed index maps, decided over the 64 grid points: every window's block index on its leading axis is the
    output's, on the other axes zero. -/
theorem idx_facts : ∀ t : Fin cfg0.N, win0_0.index t (0 : Fin 2) = win0_2.index t (0 : Fin 2)
    ∧ win0_0.index t (1 : Fin 2) = 0
    ∧ win0_1.index t (0 : Fin 3) = win0_2.index t (0 : Fin 2)
    ∧ win0_1.index t (1 : Fin 3) = 0 ∧ win0_1.index t (2 : Fin 3) = 0
    ∧ win0_2.index t (1 : Fin 2) = 0 ∧ win0_2.index t (0 : Fin 2) < 64 :=
  (by decide +kernel : ∀ t : Fin grid0.N, _)

/-- Every row block is some point's. -/
theorem idx_onto : ∀ q : Fin 64, ∃ t : Fin cfg0.N, win0_2.index t = ![q.val, 0] :=
  (by decide +kernel : ∀ q : Fin 64, ∃ t : Fin grid0.N, win0_2.index t = ![q.val, 0])

/-- What point t writes back is block t of the specification of the argument arrays. -/
theorem flushed_eq (c : Dev nD) (t : Fin cfg0.N) :
    (dats (F := Ideal) m 0 c).flushed 2 t
      = ((cfg0.win 2).blk t).view.read (Elt Ideal) (G (V m c main_arg0) (V m c main_arg1)) := by
  rw [Cert.KernelIdeal.Value.flushed2_A, out_eq]
  obtain ⟨e0, e1, e2, e3, e4, e5, e6⟩ := idx_facts t
  have h0 : ∀ (r : Fin 256) (d : Fin 128), iblk m c 0 t (ix2 r d)
      = V m c main_arg0 (ix2 ⟨win0_2.index t (0 : Fin 2) * 256 + r.val, by omega⟩ d) := fun r d => by
    show V m c main_arg0 (((cfg0.win 0).blk t).view.emb (ix2 r d)) = _
    refine congrArg (V m c main_arg0) (funext fun a => Fin.ext ?_)
    match a with
    | ⟨0, _⟩ => show win0_0.index t (0 : Fin 2) * 256 + 1 * r.val = win0_2.index t (0 : Fin 2) * 256 + r.val; omega
    | ⟨1, _⟩ => show win0_0.index t (1 : Fin 2) * 128 + 1 * d.val = d.val; omega
  have h1 : ∀ (r : Fin 256) (f : Fin 26) (d : Fin 128), iblk m c 1 t (ix3 r f d)
      = V m c main_arg1 (ix3 ⟨win0_2.index t (0 : Fin 2) * 256 + r.val, by omega⟩ f d) := fun r f d => by
    show V m c main_arg1 (((cfg0.win 1).blk t).view.emb (ix3 r f d)) = _
    refine congrArg (V m c main_arg1) (funext fun a => Fin.ext ?_)
    match a with
    | ⟨0, _⟩ => show win0_1.index t (0 : Fin 3) * 256 + 1 * r.val = win0_2.index t (0 : Fin 2) * 256 + r.val; omega
    | ⟨1, _⟩ => show win0_1.index t (1 : Fin 3) * 26 + 1 * f.val = f.val; omega
    | ⟨2, _⟩ => show win0_1.index t (2 : Fin 3) * 128 + 1 * d.val = d.val; omega
  funext j
  show blockOf (k0_pay10 (iblk m c 0 t) (iblk m c 1 t)) (iblk m c 0 t) j
    = G (V m c main_arg0) (V m c main_arg1) (((cfg0.win 2).blk t).view.emb j)
  refine ((congrArg (blockOf (k0_pay10 (iblk m c 0 t) (iblk m c 1 t)) (iblk m c 0 t)) (eq_ix2 j)).trans
    (block_eq (V m c main_arg0) (V m c main_arg1) (win0_2.index t (0 : Fin 2)) e6 (iblk m c 0 t) (iblk m c 1 t) h0 h1 (j 0) (j 1))).trans ?_
  show G' (V m c main_arg0) (V m c main_arg1) _ _
    = G' (V m c main_arg0) (V m c main_arg1) ((((cfg0.win 2).blk t).view.emb j) 0) ((((cfg0.win 2).blk t).view.emb j) 1)
  exact congrArg₂ (G' (V m c main_arg0) (V m c main_arg1))
    (Fin.ext (by show win0_2.index t (0 : Fin 2) * 256 + (j 0).val = win0_2.index t (0 : Fin 2) * 256 + 1 * (j 0).val; omega))
    (Fin.ext (by show (j 1).val = win0_2.index t (1 : Fin 2) * 479 + 1 * (j 1).val; omega))

/-- An index of the result is in point t's block iff each coordinate is in the block's range on its axis. -/
theorem mem_blk (t : Fin cfg0.N) (i : S16384x479.Idx) :
    i ∈ ((cfg0.win 2).blk t).view.set ↔ ∀ a : Fin 2, win0_2.index t a * S256x479.size a ≤ (i a).val
      ∧ (i a).val < win0_2.index t a * S256x479.size a + S256x479.size a := by
  show i ∈ ((View.whole main_v0).slice (win0_2.rect t)).set ↔ _
  rw [View.set_slice_whole, Rect.mem_set_unit]
  exact Iff.rfl

/-- Every index of the result is in the block of the point that handles its row. -/
theorem covered (i : S16384x479.Idx) :
    ∃ t : Fin cfg0.N, (cfg0.win 2).flush t = true ∧ i ∈ ((cfg0.win 2).blk t).view.set := by
  have hi0 : (i 0).val < 16384 := (i 0).isLt
  have hi1 : (i 1).val < 479 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, (mem_blk t i).2 fun a => ?_⟩
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 479 ≤ (i 1).val ∧ (i 1).val < win0_2.index t (1 : Fin 2) * 479 + 479
    omega

/-- The result array after the run is the specification of the argument arrays. -/
theorem final (c : Dev nD) : (dats (F := Ideal) m 0 c).arrAt 2 cfg0.N
    = G (m ((c : Thread nD τ).loc main_arg0)) (m ((c : Thread nD τ).loc main_arg1)) :=
  (dats (F := Ideal) m 0 c).arrAt_eq_of_cover 2 _ (fun t _ => flushed_eq m c t) covered

/-- The kernel's run: the result array at the specification, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Hand

end
-- ==== Proof.RefTerm.lean ====
/-
  The reference's result as one pure term of its two argument arrays, stage by stage.

  The reference stacks the dense row on top of the 26 embedding rows (27 rows of 128 numbers per batch entry), takes all
  27 × 27 dot products of rows, and keeps the strict upper triangle: the 351 pairs (f, g) with f < g, in row-major
  order, placed after the 128 dense numbers. It does not know the pairs in advance: it COMPUTES their row and column
  tables with integer operations — a 0/1 mask of the triangle flattened to 729 entries, its running count, a histogram
  of that count over 351 bins, the histogram's running count (the flat position of the p-th one of the mask), and
  from that position its quotient and remainder by 27 — and gathers the products at those positions.
  Nothing here depends on the float arguments until the last three definitions.
-/
import proofs.«159237_j82617990905996_2_alg».proof.ReferenceIdeal
import Idealize.ShloMosaic.PureOps.Ideal

noncomputable section

namespace Cert.ReferenceIdeal.Hand

open Idealize.ShloMosaic Cert.ReferenceIdeal Cert.ReferenceIdeal.Facts₀

variable [Facts]

/-- A rank-zero 32-bit integer. -/
abbrev kI (b : BitVec 32) : IVec S_ 32 := constantI S_ 32 b

/-- The mask of the strict upper triangle of a 27 × 27 matrix: a matrix of ones with the entries at and below the
    diagonal (row ≥ column) replaced by zero, compared with zero. -/
def triMask : IVec S27x27 1 :=
  cmpf (F := Ideal) .une
    (select (cmpi .sge (addi (iotaInDim S27x27 32 0) (broadcastInDim S27x27 ![] bcast_S_S27x27 (kI 0#32))) (iotaInDim S27x27 32 1))
      (broadcastInDim S27x27 ![] bcast_S_S27x27 (constant (F := Ideal) S_ .f32 0x00000000#32))
      (broadcastInDim S27x27 ![] bcast_S_S27x27 (constant (F := Ideal) S_ .f32 0x3F800000#32)))
    (broadcastInDim S27x27 ![] bcast_S_S27x27 (constant (F := Ideal) S_ .f32 0x00000000#32))

/-- The mask flattened to 729 entries, as 32-bit integers 0 / 1. -/
def maskFlat : IVec S729 32 := extui 32 (shapeCast S729 triMask shapeCasts_S27x27_S729) natLt_1_32

/-- The running count of the mask: entry k is the number of ones among entries 0 … k. -/
def maskCount : IVec S729 32 :=
  Host.reduceWindow IntOp.addi ![729] ![1] ![728] ![0] maskFlat (broadcastInDim S_ ![] bcast_S_S_ (kI 0#32))
    reduceWindows_S729_S729_w729s1p728_0 h_S_

/-- The running count clipped below at zero, a negative value moved up by 351 (neither happens), as a column of
    scatter indices. -/
def binIndex : IVec S729x1 32 :=
  let v9 : IVec S729 32 := maxsi (broadcastInDim S729 ![] bcast_S_S729 (kI 0#32)) maskCount
  broadcastInDim S729x1 ![0] bcast_S729_S729x1_0
    (select (cmpi .slt v9 (broadcastInDim S729 ![] bcast_S_S729 (kI 0#32))) (addi v9 (broadcastInDim S729 ![] bcast_S_S729 (kI 351#32))) v9)

/-- The histogram of the running count over the bins 0 … 350: bin v counts the entries whose running count is v. -/
def binCounts : IVec S351 32 :=
  Host.scatter scatter_S351_S729x1_S729_n_0_0_1 IntOp.addi (broadcastInDim S351 ![] bcast_S_S351 (kI 0#32)) binIndex
    (broadcastInDim S729 ![] bcast_S_S729 (kI 1#32))

/-- The running count of the histogram: entry p is the flat position, in 0 … 728, of the (p+1)-th one of the mask. -/
def flatPos : IVec S351 32 :=
  Host.reduceWindow IntOp.addi ![351] ![1] ![350] ![0] binCounts (broadcastInDim S_ ![] bcast_S_S_ (kI 0#32))
    reduceWindows_S351_S351_w351s1p350_0 h_S_

/-- Floor division of every entry by a rank-zero divisor: the truncated quotient, less one where the signs differ and
    the remainder is not zero. -/
def floorDiv (x : IVec S351 32) (d : IVec S_ 32) : IVec S351 32 :=
  let q : IVec S351 32 := Host.divsi x (broadcastInDim S351 ![] bcast_S_S351 d)
  select
    (andi (cmpi .ne (signi x) (broadcastInDim S351 ![] bcast_S_S351 (signi d)))
      (cmpi .ne (Host.remsi x (broadcastInDim S351 ![] bcast_S_S351 d)) (broadcastInDim S351 ![] bcast_S_S351 (kI 0#32))))
    (subi q (broadcastInDim S351 ![] bcast_S_S351 (kI 1#32))) q

/-- The remainder of every entry by a rank-zero divisor with the divisor's sign (a zero divisor read as one). -/
def floorRem (x : IVec S351 32) (d : IVec S_ 32) : IVec S351 32 :=
  let d' : IVec S_ 32 := select (cmpi .eq d (kI 0#32)) (kI 1#32) d
  let r : IVec S351 32 := Host.remsi x (broadcastInDim S351 ![] bcast_S_S351 d')
  select
    (andi (cmpi .ne (cmpi .slt r (broadcastInDim S351 ![] bcast_S_S351 (kI 0#32))) (broadcastInDim S351 ![] bcast_S_S351 (cmpi .slt d' (kI 0#32))))
      (cmpi .ne r (broadcastInDim S351 ![] bcast_S_S351 (kI 0#32))))
    (addi r (broadcastInDim S351 ![] bcast_S_S351 d')) r

/-- A negative index moved up by 27 (it never is negative). -/
def wrap27 (x : IVec S351 32) : IVec S351 32 :=
  select (cmpi .slt x (broadcastInDim S351 ![] bcast_S_S351 (kI 0#32))) (addi x (broadcastInDim S351 ![] bcast_S_S351 (kI 27#32))) x

/-- The rows of the 351 pairs: the flat position's quotient by 27 (reduced modulo 27). -/
def rowTable : IVec S351 32 := wrap27 (floorRem (floorDiv flatPos (kI 27#32)) (kI 27#32))

/-- The columns of the 351 pairs: the flat position's remainder by 27. -/
def colTable : IVec S351 32 := wrap27 (floorRem (floorDiv flatPos (kI 1#32)) (kI 27#32))

/-- The two tables side by side: entry (p, 0) the row and (p, 1) the column of pair p. -/
def pairTable : IVec S351x2 32 :=
  concatenate S351x2 1 [⟨S351x1, broadcastInDim S351x1 ![0] bcast_S351_S351x1_0 rowTable⟩,
    ⟨S351x1, broadcastInDim S351x1 ![0] bcast_S351_S351x1_0 colTable⟩] concatenates_S351x1_S351x1_S351x2_d1

/-- The 27 rows of every batch entry: the dense row first, then the 26 embedding rows. -/
def stacked (a0 : FVec Ideal S16384x128 .f32) (a1 : FVec Ideal S16384x26x128 .f32) : FVec Ideal S16384x27x128 .f32 :=
  concatenate S16384x27x128 1 [⟨S16384x1x128, broadcastInDim S16384x1x128 ![0, 2] bcast_S16384x128_S16384x1x128_0_2 a0⟩,
    ⟨S16384x26x128, a1⟩] concatenates_S16384x1x128_S16384x26x128_S16384x27x128_d1

/-- All 27 × 27 dot products of rows, per batch entry. -/
def products (a0 : FVec Ideal S16384x128 .f32) (a1 : FVec Ideal S16384x26x128 .f32) : FVec Ideal S16384x27x27 .f32 :=
  Host.dotGeneral dot_S16384x27x128_S16384x27x128_S16384x27x27_2_2_1_1_0_0 none (stacked a0 a1) (stacked a0 a1)

/-- The reference's result: the dense numbers, then the products at the 351 computed pairs. -/
def result (a0 : FVec Ideal S16384x128 .f32) (a1 : FVec Ideal S16384x26x128 .f32) : FVec Ideal S16384x479 .f32 :=
  concatenate S16384x479 1 [⟨S16384x128, a0⟩,
    ⟨S16384x351, Host.gather gather_S16384x27x27_S351x2_S16384x351_0_12_n_n_12_1_1638411 (products a0 a1) pairTable⟩]
    concatenates_S16384x128_S16384x351_S16384x479_d1

end Cert.ReferenceIdeal.Hand

end
-- ==== Proof.RefRun.lean ====
/-
  The reference's run. Its @main is a straight line of 139 host operations once the functions it calls are put in their
  calls' places (the triangle's mask, the two running counts, the clip, the two floor divisions and the two remainders);
  the line is cut into fifteen stretches, each read back as one stage of the reference's term (the stages of the reference's term, by name),
  and the stretches are chained: every weakly fair execution ends with the result buffer at that term of the two
  argument arrays, the arguments unchanged.
-/
import proofs.«159237_j82617990905996_2_alg».proof.Proof.RefTerm
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable [Facts]

section Ops
variable {F : FTy → Type} [FloatOps F]

/-- Operation 1 of @main, the called functions' operations in their calls' places. -/
abbrev ops1 : List (HloOp τ sig (Elt F)) :=
  [ unary main_arg0 main_v0 (broadcastInDim S16384x1x128 ![0, 2] bcast_S16384x128_S16384x1x128_0_2 : (⟨S16384x128, .f32⟩ : BufTy).Contents (Elt F) → (⟨S16384x1x128, .f32⟩ : BufTy).Contents (Elt F)) ]

/-- Operations 2 … 3 of @main, the called functions' operations in their calls' places. -/
abbrev ops2 : List (HloOp τ sig (Elt F)) :=
  [ binary main_v0 main_arg1 main_v1 ((fun a b => concatenate S16384x27x128 1 [⟨S16384x1x128, a⟩, ⟨S16384x26x128, b⟩] concatenates_S16384x1x128_S16384x26x128_S16384x27x128_d1) : (⟨S16384x1x128, .f32⟩ : BufTy).Contents (Elt F) → (⟨S16384x26x128, .f32⟩ : BufTy).Contents (Elt F) → (⟨S16384x27x128, .f32⟩ : BufTy).Contents (Elt F)),
    binary main_v1 main_v1 main_v2 ((fun l r => Host.dotGeneral dot_S16384x27x128_S16384x27x128_S16384x27x27_2_2_1_1_0_0 none l r) : (⟨S16384x27x128, .f32⟩ : BufTy).Contents (Elt F) → (⟨S16384x27x128, .f32⟩ : BufTy).Contents (Elt F) → (⟨S16384x27x27, .f32⟩ : BufTy).Contents (Elt F)) ]

/-- Operations 4 … 17 of @main, the called functions' operations in their calls' places. -/
abbrev ops3 : List (HloOp τ sig (Elt F)) :=
  [ nullary main_cst (constant S_ .f32 0x3F800000#32),
    unary main_cst main_v3 (broadcastInDim S27x27 ![] bcast_S_S27x27 : (⟨S_, .f32⟩ : BufTy).Contents (Elt F) → (⟨S27x27, .f32⟩ : BufTy).Contents (Elt F)),
    TRef.nullary (TRef.of (T := ⟨S27x27, .i32⟩) main_call0_v0) (iotaInDim S27x27 32 0),
    TRef.nullary (TRef.of (T := ⟨S_, .i32⟩) main_call0_c) (constantI S_ 32 0#32),
    TRef.unary (TRef.of (T := ⟨S_, .i32⟩) main_call0_c) (TRef.of (T := ⟨S27x27, .i32⟩) main_call0_v1) (broadcastInDim S27x27 ![] bcast_S_S27x27),
    TRef.binary (TRef.of (T := ⟨S27x27, .i32⟩) main_call0_v0) (TRef.of (T := ⟨S27x27, .i32⟩) main_call0_v1) (TRef.of (T := ⟨S27x27, .i32⟩) main_call0_v2) addi,
    TRef.nullary (TRef.of (T := ⟨S27x27, .i32⟩) main_call0_v3) (iotaInDim S27x27 32 1),
    TRef.binary (TRef.of (T := ⟨S27x27, .i32⟩) main_call0_v2) (TRef.of (T := ⟨S27x27, .i32⟩) main_call0_v3) (TRef.of (T := ⟨S27x27, .i1⟩) main_call0_v4) (cmpi .sge),
    TRef.nullary (TRef.of (T := ⟨S_, .f32⟩) main_call0_cst) (constant S_ .f32 0x00000000#32),
    TRef.unary (TRef.of (T := ⟨S_, .f32⟩) main_call0_cst) (TRef.of (T := ⟨S27x27, .f32⟩) main_call0_v5) (broadcastInDim S27x27 ![] bcast_S_S27x27),
    TRef.ternary (TRef.of (T := ⟨S27x27, .i1⟩) main_call0_v4) (TRef.of (T := ⟨S27x27, .f32⟩) main_call0_v5) (TRef.of (T := ⟨S27x27, .f32⟩) main_v3) (TRef.of (T := ⟨S27x27, .f32⟩) main_v4) select,
    nullary main_cst_0 (constant S_ .f32 0x00000000#32),
    unary main_cst_0 main_v5 (broadcastInDim S27x27 ![] bcast_S_S27x27 : (⟨S_, .f32⟩ : BufTy).Contents (Elt F) → (⟨S27x27, .f32⟩ : BufTy).Contents (Elt F)),
    binary main_v4 main_v5 main_v6 (cmpf .une : (⟨S27x27, .f32⟩ : BufTy).Contents (Elt F) → (⟨S27x27, .f32⟩ : BufTy).Contents (Elt F) → (⟨S27x27, .i1⟩ : BufTy).Contents (Elt F)) ]

/-- Operations 18 … 22 of @main, the called functions' operations in their calls' places. -/
abbrev ops4 : List (HloOp τ sig (Elt F)) :=
  [ TRef.reshape (TRef.of (T := ⟨S27x27, .i1⟩) main_v6) (TRef.of (T := ⟨S729, .i1⟩) main_call1_v0) rfl shapeCasts_S27x27_S729,
    TRef.unary (TRef.of (T := ⟨S729, .i1⟩) main_call1_v0) (TRef.of (T := ⟨S729, .i32⟩) main_call1_v1) (extui 32 · natLt_1_32),
    TRef.nullary (TRef.of (T := ⟨S_, .i32⟩) main_call1_call0_c) (constantI S_ 32 0#32),
    TRef.unary (TRef.of (T := ⟨S_, .i32⟩) main_call1_call0_c) (TRef.of (T := ⟨S_, .i32⟩) main_call1_call0_v0) (broadcastInDim S_ ![] bcast_S_S_),
    TRef.binary (TRef.of (T := ⟨S729, .i32⟩) main_call1_v1) (TRef.of (T := ⟨S_, .i32⟩) main_call1_call0_v0) (TRef.of (T := ⟨S729, .i32⟩) main_v7) (fun x v => Host.reduceWindow IntOp.addi ![729] ![1] ![728] ![0] x v reduceWindows_S729_S729_w729s1p728_0 h_S_) ]

/-- Operations 23 … 39 of @main, the called functions' operations in their calls' places. -/
abbrev ops5 : List (HloOp τ sig (Elt F)) :=
  [ nullary main_c (constantI S_ 32 0#32),
    unary main_c main_v8 (broadcastInDim S351 ![] bcast_S_S351 : (⟨S_, .i32⟩ : BufTy).Contents (Elt F) → (⟨S351, .i32⟩ : BufTy).Contents (Elt F)),
    nullary main_c_1 (constantI S_ 32 0#32),
    TRef.unary (TRef.of (T := ⟨S_, .i32⟩) main_c_1) (TRef.of (T := ⟨S_, .i32⟩) main_call2_v0) id,
    TRef.unary (TRef.of (T := ⟨S_, .i32⟩) main_call2_v0) (TRef.of (T := ⟨S729, .i32⟩) main_call2_v1) (broadcastInDim S729 ![] bcast_S_S729),
    TRef.binary (TRef.of (T := ⟨S729, .i32⟩) main_call2_v1) (TRef.of (T := ⟨S729, .i32⟩) main_v7) (TRef.of (T := ⟨S729, .i32⟩) main_v9) maxsi,
    nullary main_c_2 (constantI S_ 32 0#32),
    unary main_c_2 main_v10 (broadcastInDim S729 ![] bcast_S_S729 : (⟨S_, .i32⟩ : BufTy).Contents (Elt F) → (⟨S729, .i32⟩ : BufTy).Contents (Elt F)),
    binary main_v9 main_v10 main_v11 (cmpi .slt : (⟨S729, .i32⟩ : BufTy).Contents (Elt F) → (⟨S729, .i32⟩ : BufTy).Contents (Elt F) → (⟨S729, .i1⟩ : BufTy).Contents (Elt F)),
    nullary main_c_3 (constantI S_ 32 351#32),
    unary main_c_3 main_v12 (broadcastInDim S729 ![] bcast_S_S729 : (⟨S_, .i32⟩ : BufTy).Contents (Elt F) → (⟨S729, .i32⟩ : BufTy).Contents (Elt F)),
    binary main_v9 main_v12 main_v13 (addi : (⟨S729, .i32⟩ : BufTy).Contents (Elt F) → (⟨S729, .i32⟩ : BufTy).Contents (Elt F) → (⟨S729, .i32⟩ : BufTy).Contents (Elt F)),
    ternary main_v11 main_v13 main_v9 main_v14 (select : (⟨S729, .i1⟩ : BufTy).Contents (Elt F) → (⟨S729, .i32⟩ : BufTy).Contents (Elt F) → (⟨S729, .i32⟩ : BufTy).Contents (Elt F) → (⟨S729, .i32⟩ : BufTy).Contents (Elt F)),
    unary main_v14 main_v15 (broadcastInDim S729x1 ![0] bcast_S729_S729x1_0 : (⟨S729, .i32⟩ : BufTy).Contents (Elt F) → (⟨S729x1, .i32⟩ : BufTy).Contents (Elt F)),
    nullary main_c_4 (constantI S_ 32 1#32),
    unary main_c_4 main_v16 (broadcastInDim S729 ![] bcast_S_S729 : (⟨S_, .i32⟩ : BufTy).Contents (Elt F) → (⟨S729, .i32⟩ : BufTy).Contents (Elt F)),
    ternary main_v8 main_v15 main_v16 main_v17 ((fun x i u => Host.scatter scatter_S351_S729x1_S729_n_0_0_1 IntOp.addi x i u) : (⟨S351, .i32⟩ : BufTy).Contents (Elt F) → (⟨S729x1, .i32⟩ : BufTy).Contents (Elt F) → (⟨S729, .i32⟩ : BufTy).Contents (Elt F) → (⟨S351, .i32⟩ : BufTy).Contents (Elt F)) ]

/-- Operations 40 … 42 of @main, the called functions' operations in their calls' places. -/
abbrev ops6 : List (HloOp τ sig (Elt F)) :=
  [ TRef.nullary (TRef.of (T := ⟨S_, .i32⟩) main_call3_call0_c) (constantI S_ 32 0#32),
    TRef.unary (TRef.of (T := ⟨S_, .i32⟩) main_call3_call0_c) (TRef.of (T := ⟨S_, .i32⟩) main_call3_call0_v0) (broadcastInDim S_ ![] bcast_S_S_),
    TRef.binary (TRef.of (T := ⟨S351, .i32⟩) main_v17) (TRef.of (T := ⟨S_, .i32⟩) main_call3_call0_v0) (TRef.of (T := ⟨S351, .i32⟩) main_v18) (fun x v => Host.reduceWindow IntOp.addi ![351] ![1] ![350] ![0] x v reduceWindows_S351_S351_w351s1p350_0 h_S_) ]

/-- Operations 43 … 59 of @main, the called functions' operations in their calls' places. -/
abbrev ops7 : List (HloOp τ sig (Elt F)) :=
  [ nullary main_c_5 (constantI S_ 32 27#32),
    TRef.unary (TRef.of (T := ⟨S_, .i32⟩) main_c_5) (TRef.of (T := ⟨S351, .i32⟩) main_call4_v0) (broadcastInDim S351 ![] bcast_S_S351),
    TRef.binary (TRef.of (T := ⟨S351, .i32⟩) main_v18) (TRef.of (T := ⟨S351, .i32⟩) main_call4_v0) (TRef.of (T := ⟨S351, .i32⟩) main_call4_v1) Host.divsi,
    TRef.unary (TRef.of (T := ⟨S351, .i32⟩) main_v18) (TRef.of (T := ⟨S351, .i32⟩) main_call4_v2) signi,
    TRef.unary (TRef.of (T := ⟨S_, .i32⟩) main_c_5) (TRef.of (T := ⟨S_, .i32⟩) main_call4_v3) signi,
    TRef.unary (TRef.of (T := ⟨S_, .i32⟩) main_call4_v3) (TRef.of (T := ⟨S351, .i32⟩) main_call4_v4) (broadcastInDim S351 ![] bcast_S_S351),
    TRef.binary (TRef.of (T := ⟨S351, .i32⟩) main_call4_v2) (TRef.of (T := ⟨S351, .i32⟩) main_call4_v4) (TRef.of (T := ⟨S351, .i1⟩) main_call4_v5) (cmpi .ne),
    TRef.unary (TRef.of (T := ⟨S_, .i32⟩) main_c_5) (TRef.of (T := ⟨S351, .i32⟩) main_call4_v6) (broadcastInDim S351 ![] bcast_S_S351),
    TRef.binary (TRef.of (T := ⟨S351, .i32⟩) main_v18) (TRef.of (T := ⟨S351, .i32⟩) main_call4_v6) (TRef.of (T := ⟨S351, .i32⟩) main_call4_v7) Host.remsi,
    TRef.nullary (TRef.of (T := ⟨S_, .i32⟩) main_call4_c) (constantI S_ 32 0#32),
    TRef.unary (TRef.of (T := ⟨S_, .i32⟩) main_call4_c) (TRef.of (T := ⟨S351, .i32⟩) main_call4_v8) (broadcastInDim S351 ![] bcast_S_S351),
    TRef.binary (TRef.of (T := ⟨S351, .i32⟩) main_call4_v7) (TRef.of (T := ⟨S351, .i32⟩) main_call4_v8) (TRef.of (T := ⟨S351, .i1⟩) main_call4_v9) (cmpi .ne),
    TRef.binary (TRef.of (T := ⟨S351, .i1⟩) main_call4_v5) (TRef.of (T := ⟨S351, .i1⟩) main_call4_v9) (TRef.of (T := ⟨S351, .i1⟩) main_call4_v10) andi,
    TRef.nullary (TRef.of (T := ⟨S_, .i32⟩) main_call4_c_0) (constantI S_ 32 1#32),
    TRef.unary (TRef.of (T := ⟨S_, .i32⟩) main_call4_c_0) (TRef.of (T := ⟨S351, .i32⟩) main_call4_v11) (broadcastInDim S351 ![] bcast_S_S351),
    TRef.binary (TRef.of (T := ⟨S351, .i32⟩) main_call4_v1) (TRef.of (T := ⟨S351, .i32⟩) main_call4_v11) (TRef.of (T := ⟨S351, .i32⟩) main_call4_v12) subi,
    TRef.ternary (TRef.of (T := ⟨S351, .i1⟩) main_call4_v10) (TRef.of (T := ⟨S351, .i32⟩) main_call4_v12) (TRef.of (T := ⟨S351, .i32⟩) main_call4_v1) (TRef.of (T := ⟨S351, .i32⟩) main_v19) select ]

/-- Operations 60 … 81 of @main, the called functions' operations in their calls' places. -/
abbrev ops8 : List (HloOp τ sig (Elt F)) :=
  [ nullary main_c_6 (constantI S_ 32 27#32),
    TRef.unary (TRef.of (T := ⟨S_, .i32⟩) main_c_6) (TRef.of (T := ⟨S_, .i32⟩) main_call5_v0) id,
    TRef.nullary (TRef.of (T := ⟨S_, .i32⟩) main_call5_c) (constantI S_ 32 0#32),
    TRef.binary (TRef.of (T := ⟨S_, .i32⟩) main_call5_v0) (TRef.of (T := ⟨S_, .i32⟩) main_call5_c) (TRef.of (T := ⟨S_, .i1⟩) main_call5_v1) (cmpi .eq),
    TRef.nullary (TRef.of (T := ⟨S_, .i32⟩) main_call5_c_0) (constantI S_ 32 1#32),
    TRef.ternary (TRef.of (T := ⟨S_, .i1⟩) main_call5_v1) (TRef.of (T := ⟨S_, .i32⟩) main_call5_c_0) (TRef.of (T := ⟨S_, .i32⟩) main_call5_v0) (TRef.of (T := ⟨S_, .i32⟩) main_call5_v2) select,
    TRef.unary (TRef.of (T := ⟨S_, .i32⟩) main_call5_v2) (TRef.of (T := ⟨S351, .i32⟩) main_call5_v3) (broadcastInDim S351 ![] bcast_S_S351),
    TRef.binary (TRef.of (T := ⟨S351, .i32⟩) main_v19) (TRef.of (T := ⟨S351, .i32⟩) main_call5_v3) (TRef.of (T := ⟨S351, .i32⟩) main_call5_v4) Host.remsi,
    TRef.nullary (TRef.of (T := ⟨S_, .i32⟩) main_call5_c_1) (constantI S_ 32 0#32),
    TRef.unary (TRef.of (T := ⟨S_, .i32⟩) main_call5_c_1) (TRef.of (T := ⟨S351, .i32⟩) main_call5_v5) (broadcastInDim S351 ![] bcast_S_S351),
    TRef.binary (TRef.of (T := ⟨S351, .i32⟩) main_call5_v4) (TRef.of (T := ⟨S351, .i32⟩) main_call5_v5) (TRef.of (T := ⟨S351, .i1⟩) main_call5_v6) (cmpi .ne),
    TRef.nullary (TRef.of (T := ⟨S_, .i32⟩) main_call5_c_2) (constantI S_ 32 0#32),
    TRef.unary (TRef.of (T := ⟨S_, .i32⟩) main_call5_c_2) (TRef.of (T := ⟨S351, .i32⟩) main_call5_v7) (broadcastInDim S351 ![] bcast_S_S351),
    TRef.binary (TRef.of (T := ⟨S351, .i32⟩) main_call5_v4) (TRef.of (T := ⟨S351, .i32⟩) main_call5_v7) (TRef.of (T := ⟨S351, .i1⟩) main_call5_v8) (cmpi .slt),
    TRef.nullary (TRef.of (T := ⟨S_, .i32⟩) main_call5_c_3) (constantI S_ 32 0#32),
    TRef.binary (TRef.of (T := ⟨S_, .i32⟩) main_call5_v2) (TRef.of (T := ⟨S_, .i32⟩) main_call5_c_3) (TRef.of (T := ⟨S_, .i1⟩) main_call5_v9) (cmpi .slt),
    TRef.unary (TRef.of (T := ⟨S_, .i1⟩) main_call5_v9) (TRef.of (T := ⟨S351, .i1⟩) main_call5_v10) (broadcastInDim S351 ![] bcast_S_S351),
    TRef.binary (TRef.of (T := ⟨S351, .i1⟩) main_call5_v8) (TRef.of (T := ⟨S351, .i1⟩) main_call5_v10) (TRef.of (T := ⟨S351, .i1⟩) main_call5_v11) (cmpi .ne),
    TRef.binary (TRef.of (T := ⟨S351, .i1⟩) main_call5_v11) (TRef.of (T := ⟨S351, .i1⟩) main_call5_v6) (TRef.of (T := ⟨S351, .i1⟩) main_call5_v12) andi,
    TRef.unary (TRef.of (T := ⟨S_, .i32⟩) main_call5_v2) (TRef.of (T := ⟨S351, .i32⟩) main_call5_v13) (broadcastInDim S351 ![] bcast_S_S351),
    TRef.binary (TRef.of (T := ⟨S351, .i32⟩) main_call5_v4) (TRef.of (T := ⟨S351, .i32⟩) main_call5_v13) (TRef.of (T := ⟨S351, .i32⟩) main_call5_v14) addi,
    TRef.ternary (TRef.of (T := ⟨S351, .i1⟩) main_call5_v12) (TRef.of (T := ⟨S351, .i32⟩) main_call5_v14) (TRef.of (T := ⟨S351, .i32⟩) main_call5_v4) (TRef.of (T := ⟨S351, .i32⟩) main_v20) select ]

/-- Operations 82 … 98 of @main, the called functions' operations in their calls' places. -/
abbrev ops9 : List (HloOp τ sig (Elt F)) :=
  [ nullary main_c_7 (constantI S_ 32 1#32),
    TRef.unary (TRef.of (T := ⟨S_, .i32⟩) main_c_7) (TRef.of (T := ⟨S351, .i32⟩) main_call6_v0) (broadcastInDim S351 ![] bcast_S_S351),
    TRef.binary (TRef.of (T := ⟨S351, .i32⟩) main_v18) (TRef.of (T := ⟨S351, .i32⟩) main_call6_v0) (TRef.of (T := ⟨S351, .i32⟩) main_call6_v1) Host.divsi,
    TRef.unary (TRef.of (T := ⟨S351, .i32⟩) main_v18) (TRef.of (T := ⟨S351, .i32⟩) main_call6_v2) signi,
    TRef.unary (TRef.of (T := ⟨S_, .i32⟩) main_c_7) (TRef.of (T := ⟨S_, .i32⟩) main_call6_v3) signi,
    TRef.unary (TRef.of (T := ⟨S_, .i32⟩) main_call6_v3) (TRef.of (T := ⟨S351, .i32⟩) main_call6_v4) (broadcastInDim S351 ![] bcast_S_S351),
    TRef.binary (TRef.of (T := ⟨S351, .i32⟩) main_call6_v2) (TRef.of (T := ⟨S351, .i32⟩) main_call6_v4) (TRef.of (T := ⟨S351, .i1⟩) main_call6_v5) (cmpi .ne),
    TRef.unary (TRef.of (T := ⟨S_, .i32⟩) main_c_7) (TRef.of (T := ⟨S351, .i32⟩) main_call6_v6) (broadcastInDim S351 ![] bcast_S_S351),
    TRef.binary (TRef.of (T := ⟨S351, .i32⟩) main_v18) (TRef.of (T := ⟨S351, .i32⟩) main_call6_v6) (TRef.of (T := ⟨S351, .i32⟩) main_call6_v7) Host.remsi,
    TRef.nullary (TRef.of (T := ⟨S_, .i32⟩) main_call6_c) (constantI S_ 32 0#32),
    TRef.unary (TRef.of (T := ⟨S_, .i32⟩) main_call6_c) (TRef.of (T := ⟨S351, .i32⟩) main_call6_v8) (broadcastInDim S351 ![] bcast_S_S351),
    TRef.binary (TRef.of (T := ⟨S351, .i32⟩) main_call6_v7) (TRef.of (T := ⟨S351, .i32⟩) main_call6_v8) (TRef.of (T := ⟨S351, .i1⟩) main_call6_v9) (cmpi .ne),
    TRef.binary (TRef.of (T := ⟨S351, .i1⟩) main_call6_v5) (TRef.of (T := ⟨S351, .i1⟩) main_call6_v9) (TRef.of (T := ⟨S351, .i1⟩) main_call6_v10) andi,
    TRef.nullary (TRef.of (T := ⟨S_, .i32⟩) main_call6_c_0) (constantI S_ 32 1#32),
    TRef.unary (TRef.of (T := ⟨S_, .i32⟩) main_call6_c_0) (TRef.of (T := ⟨S351, .i32⟩) main_call6_v11) (broadcastInDim S351 ![] bcast_S_S351),
    TRef.binary (TRef.of (T := ⟨S351, .i32⟩) main_call6_v1) (TRef.of (T := ⟨S351, .i32⟩) main_call6_v11) (TRef.of (T := ⟨S351, .i32⟩) main_call6_v12) subi,
    TRef.ternary (TRef.of (T := ⟨S351, .i1⟩) main_call6_v10) (TRef.of (T := ⟨S351, .i32⟩) main_call6_v12) (TRef.of (T := ⟨S351, .i32⟩) main_call6_v1) (TRef.of (T := ⟨S351, .i32⟩) main_v21) select ]

/-- Operations 99 … 120 of @main, the called functions' operations in their calls' places. -/
abbrev ops10 : List (HloOp τ sig (Elt F)) :=
  [ nullary main_c_8 (constantI S_ 32 27#32),
    TRef.unary (TRef.of (T := ⟨S_, .i32⟩) main_c_8) (TRef.of (T := ⟨S_, .i32⟩) main_call7_v0) id,
    TRef.nullary (TRef.of (T := ⟨S_, .i32⟩) main_call7_c) (constantI S_ 32 0#32),
    TRef.binary (TRef.of (T := ⟨S_, .i32⟩) main_call7_v0) (TRef.of (T := ⟨S_, .i32⟩) main_call7_c) (TRef.of (T := ⟨S_, .i1⟩) main_call7_v1) (cmpi .eq),
    TRef.nullary (TRef.of (T := ⟨S_, .i32⟩) main_call7_c_0) (constantI S_ 32 1#32),
    TRef.ternary (TRef.of (T := ⟨S_, .i1⟩) main_call7_v1) (TRef.of (T := ⟨S_, .i32⟩) main_call7_c_0) (TRef.of (T := ⟨S_, .i32⟩) main_call7_v0) (TRef.of (T := ⟨S_, .i32⟩) main_call7_v2) select,
    TRef.unary (TRef.of (T := ⟨S_, .i32⟩) main_call7_v2) (TRef.of (T := ⟨S351, .i32⟩) main_call7_v3) (broadcastInDim S351 ![] bcast_S_S351),
    TRef.binary (TRef.of (T := ⟨S351, .i32⟩) main_v21) (TRef.of (T := ⟨S351, .i32⟩) main_call7_v3) (TRef.of (T := ⟨S351, .i32⟩) main_call7_v4) Host.remsi,
    TRef.nullary (TRef.of (T := ⟨S_, .i32⟩) main_call7_c_1) (constantI S_ 32 0#32),
    TRef.unary (TRef.of (T := ⟨S_, .i32⟩) main_call7_c_1) (TRef.of (T := ⟨S351, .i32⟩) main_call7_v5) (broadcastInDim S351 ![] bcast_S_S351),
    TRef.binary (TRef.of (T := ⟨S351, .i32⟩) main_call7_v4) (TRef.of (T := ⟨S351, .i32⟩) main_call7_v5) (TRef.of (T := ⟨S351, .i1⟩) main_call7_v6) (cmpi .ne),
    TRef.nullary (TRef.of (T := ⟨S_, .i32⟩) main_call7_c_2) (constantI S_ 32 0#32),
    TRef.unary (TRef.of (T := ⟨S_, .i32⟩) main_call7_c_2) (TRef.of (T := ⟨S351, .i32⟩) main_call7_v7) (broadcastInDim S351 ![] bcast_S_S351),
    TRef.binary (TRef.of (T := ⟨S351, .i32⟩) main_call7_v4) (TRef.of (T := ⟨S351, .i32⟩) main_call7_v7) (TRef.of (T := ⟨S351, .i1⟩) main_call7_v8) (cmpi .slt),
    TRef.nullary (TRef.of (T := ⟨S_, .i32⟩) main_call7_c_3) (constantI S_ 32 0#32),
    TRef.binary (TRef.of (T := ⟨S_, .i32⟩) main_call7_v2) (TRef.of (T := ⟨S_, .i32⟩) main_call7_c_3) (TRef.of (T := ⟨S_, .i1⟩) main_call7_v9) (cmpi .slt),
    TRef.unary (TRef.of (T := ⟨S_, .i1⟩) main_call7_v9) (TRef.of (T := ⟨S351, .i1⟩) main_call7_v10) (broadcastInDim S351 ![] bcast_S_S351),
    TRef.binary (TRef.of (T := ⟨S351, .i1⟩) main_call7_v8) (TRef.of (T := ⟨S351, .i1⟩) main_call7_v10) (TRef.of (T := ⟨S351, .i1⟩) main_call7_v11) (cmpi .ne),
    TRef.binary (TRef.of (T := ⟨S351, .i1⟩) main_call7_v11) (TRef.of (T := ⟨S351, .i1⟩) main_call7_v6) (TRef.of (T := ⟨S351, .i1⟩) main_call7_v12) andi,
    TRef.unary (TRef.of (T := ⟨S_, .i32⟩) main_call7_v2) (TRef.of (T := ⟨S351, .i32⟩) main_call7_v13) (broadcastInDim S351 ![] bcast_S_S351),
    TRef.binary (TRef.of (T := ⟨S351, .i32⟩) main_call7_v4) (TRef.of (T := ⟨S351, .i32⟩) main_call7_v13) (TRef.of (T := ⟨S351, .i32⟩) main_call7_v14) addi,
    TRef.ternary (TRef.of (T := ⟨S351, .i1⟩) main_call7_v12) (TRef.of (T := ⟨S351, .i32⟩) main_call7_v14) (TRef.of (T := ⟨S351, .i32⟩) main_call7_v4) (TRef.of (T := ⟨S351, .i32⟩) main_v22) select ]

/-- Operations 121 … 134 of @main, the called functions' operations in their calls' places. -/
abbrev ops11 : List (HloOp τ sig (Elt F)) :=
  [ nullary main_c_9 (constantI S_ 32 0#32),
    unary main_c_9 main_v23 (broadcastInDim S351 ![] bcast_S_S351 : (⟨S_, .i32⟩ : BufTy).Contents (Elt F) → (⟨S351, .i32⟩ : BufTy).Contents (Elt F)),
    binary main_v20 main_v23 main_v24 (cmpi .slt : (⟨S351, .i32⟩ : BufTy).Contents (Elt F) → (⟨S351, .i32⟩ : BufTy).Contents (Elt F) → (⟨S351, .i1⟩ : BufTy).Contents (Elt F)),
    nullary main_c_10 (constantI S_ 32 27#32),
    unary main_c_10 main_v25 (broadcastInDim S351 ![] bcast_S_S351 : (⟨S_, .i32⟩ : BufTy).Contents (Elt F) → (⟨S351, .i32⟩ : BufTy).Contents (Elt F)),
    binary main_v20 main_v25 main_v26 (addi : (⟨S351, .i32⟩ : BufTy).Contents (Elt F) → (⟨S351, .i32⟩ : BufTy).Contents (Elt F) → (⟨S351, .i32⟩ : BufTy).Contents (Elt F)),
    ternary main_v24 main_v26 main_v20 main_v27 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    nullary main_c_11 (constantI S_ 32 0#32),
    unary main_c_11 main_v28 (broadcastInDim S351 ![] bcast_S_S351 : (⟨S_, .i32⟩ : BufTy).Contents (Elt F) → (⟨S351, .i32⟩ : BufTy).Contents (Elt F)),
    binary main_v22 main_v28 main_v29 (cmpi .slt : (⟨S351, .i32⟩ : BufTy).Contents (Elt F) → (⟨S351, .i32⟩ : BufTy).Contents (Elt F) → (⟨S351, .i1⟩ : BufTy).Contents (Elt F)),
    nullary main_c_12 (constantI S_ 32 27#32),
    unary main_c_12 main_v30 (broadcastInDim S351 ![] bcast_S_S351 : (⟨S_, .i32⟩ : BufTy).Contents (Elt F) → (⟨S351, .i32⟩ : BufTy).Contents (Elt F)),
    binary main_v22 main_v30 main_v31 (addi : (⟨S351, .i32⟩ : BufTy).Contents (Elt F) → (⟨S351, .i32⟩ : BufTy).Contents (Elt F) → (⟨S351, .i32⟩ : BufTy).Contents (Elt F)),
    ternary main_v29 main_v31 main_v22 main_v32 (select : (⟨S351, .i1⟩ : BufTy).Contents (Elt F) → (⟨S351, .i32⟩ : BufTy).Contents (Elt F) → (⟨S351, .i32⟩ : BufTy).Contents (Elt F) → (⟨S351, .i32⟩ : BufTy).Contents (Elt F)) ]

/-- Operations 135 … 136 of @main, the called functions' operations in their calls' places. -/
abbrev ops12 : List (HloOp τ sig (Elt F)) :=
  [ unary main_v27 main_v33 (broadcastInDim S351x1 ![0] bcast_S351_S351x1_0 : (⟨S351, .i32⟩ : BufTy).Contents (Elt F) → (⟨S351x1, .i32⟩ : BufTy).Contents (Elt F)),
    unary main_v32 main_v34 (broadcastInDim S351x1 ![0] bcast_S351_S351x1_0 : (⟨S351, .i32⟩ : BufTy).Contents (Elt F) → (⟨S351x1, .i32⟩ : BufTy).Contents (Elt F)) ]

/-- Operation 137 of @main, the called functions' operations in their calls' places. -/
abbrev ops13 : List (HloOp τ sig (Elt F)) :=
  [ binary main_v33 main_v34 main_v35 ((fun a b => concatenate S351x2 1 [⟨S351x1, a⟩, ⟨S351x1, b⟩] concatenates_S351x1_S351x1_S351x2_d1) : (⟨S351x1, .i32⟩ : BufTy).Contents (Elt F) → (⟨S351x1, .i32⟩ : BufTy).Contents (Elt F) → (⟨S351x2, .i32⟩ : BufTy).Contents (Elt F)) ]

/-- Operation 138 of @main, the called functions' operations in their calls' places. -/
abbrev ops14 : List (HloOp τ sig (Elt F)) :=
  [ binary main_v2 main_v35 main_v36 ((fun x i => Host.gather gather_S16384x27x27_S351x2_S16384x351_0_12_n_n_12_1_1638411 x i) : (⟨S16384x27x27, .f32⟩ : BufTy).Contents (Elt F) → (⟨S351x2, .i32⟩ : BufTy).Contents (Elt F) → (⟨S16384x351, .f32⟩ : BufTy).Contents (Elt F)) ]

/-- Operation 139 of @main, the called functions' operations in their calls' places. -/
abbrev ops15 : List (HloOp τ sig (Elt F)) :=
  [ binary main_arg0 main_v36 main_v37 ((fun a b => concatenate S16384x479 1 [⟨S16384x128, a⟩, ⟨S16384x351, b⟩] concatenates_S16384x128_S16384x351_S16384x479_d1) : (⟨S16384x128, .f32⟩ : BufTy).Contents (Elt F) → (⟨S16384x351, .f32⟩ : BufTy).Contents (Elt F) → (⟨S16384x479, .f32⟩ : BufTy).Contents (Elt F)) ]

/-- @main's 139 operations, in order. -/
abbrev ops : List (HloOp τ sig (Elt F)) :=
  ops1 ++ (ops2 ++ (ops3 ++ (ops4 ++ (ops5 ++ (ops6 ++ (ops7 ++ (ops8 ++ (ops9 ++ (ops10 ++ (ops11 ++ (ops12 ++ (ops13 ++ (ops14 ++ (ops15))))))))))))))

set_option maxRecDepth 8192 in
set_option maxHeartbeats 400000 in
/-- @main is that straight line: the called functions unfolded at their calls, sequencing reassociated. -/
theorem main_eq (c : Dev nD) : main (F := F) c = seq ops := by
  simp only [main, fn_triu.body, fn_cumsum_0.body, fn_cumsum.body, fn_clip.body, fn_cumsum_2.body, fn_cumsum_1.body, fn_where.body,
    fn_floor_divide.body, fn_where_3.body, fn_remainder.body, List.cons_append, List.nil_append, seq, bind_assoc, pure_bind]

end Ops

/-- Running two lines one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ### Stretch 1: The dense rows as a 16384 × 1 × 128 array. -/

set_option maxHeartbeats 400000 in
theorem s1_v0 (V : Valuation τ sig (Elt Ideal)) (a0 : FVec Ideal S16384x128 .f32) (h0 : V (main_arg0 : DevRef τ sig) = a0) :
    after ops1 V (main_v0 : DevRef τ sig) = broadcastInDim S16384x1x128 ![0, 2] bcast_S16384x128_S16384x1x128_0_2 a0 := by
  after_results_simp
  simp only [cast_cast, cast_eq, h0]

theorem s1_main_arg0 (V : Valuation τ sig (Elt Ideal)) : after ops1 V (main_arg0 : DevRef τ sig) = V (main_arg0 : DevRef τ sig) := by
  after_results_simp

theorem s1_main_arg1 (V : Valuation τ sig (Elt Ideal)) : after ops1 V (main_arg1 : DevRef τ sig) = V (main_arg1 : DevRef τ sig) := by
  after_results_simp

/-! ### Stretch 2: The stacked rows and their products. -/

set_option maxHeartbeats 400000 in
theorem s2_v2 (V : Valuation τ sig (Elt Ideal)) (a0 : FVec Ideal S16384x128 .f32) (a1 : FVec Ideal S16384x26x128 .f32) (h0 : V (main_v0 : DevRef τ sig) = broadcastInDim S16384x1x128 ![0, 2] bcast_S16384x128_S16384x1x128_0_2 a0) (h1 : V (main_arg1 : DevRef τ sig) = a1) :
    after ops2 V (main_v2 : DevRef τ sig) = products a0 a1 := by
  after_results_simp
  rw [h0, h1]
  rfl

theorem s2_main_arg0 (V : Valuation τ sig (Elt Ideal)) : after ops2 V (main_arg0 : DevRef τ sig) = V (main_arg0 : DevRef τ sig) := by
  after_results_simp

theorem s2_main_arg1 (V : Valuation τ sig (Elt Ideal)) : after ops2 V (main_arg1 : DevRef τ sig) = V (main_arg1 : DevRef τ sig) := by
  after_results_simp

/-! ### Stretch 3: The triangle's mask. -/

set_option maxHeartbeats 400000 in
theorem s3_v6 (V : Valuation τ sig (Elt Ideal)) :
    after ops3 V (main_v6 : DevRef τ sig) = triMask := by
  after_results_simp
  simp only [cast_cast, cast_eq]
  rfl

theorem s3_main_arg0 (V : Valuation τ sig (Elt Ideal)) : after ops3 V (main_arg0 : DevRef τ sig) = V (main_arg0 : DevRef τ sig) := by
  after_results_simp

theorem s3_main_arg1 (V : Valuation τ sig (Elt Ideal)) : after ops3 V (main_arg1 : DevRef τ sig) = V (main_arg1 : DevRef τ sig) := by
  after_results_simp

theorem s3_main_v2 (V : Valuation τ sig (Elt Ideal)) : after ops3 V (main_v2 : DevRef τ sig) = V (main_v2 : DevRef τ sig) := by
  after_results_simp

/-! ### Stretch 4: The mask's running count. -/

set_option maxHeartbeats 400000 in
theorem s4_v7 (V : Valuation τ sig (Elt Ideal)) (h0 : V (main_v6 : DevRef τ sig) = triMask) :
    after ops4 V (main_v7 : DevRef τ sig) = maskCount := by
  after_results_simp
  simp only [cast_cast, cast_eq, h0]
  rfl

theorem s4_main_arg0 (V : Valuation τ sig (Elt Ideal)) : after ops4 V (main_arg0 : DevRef τ sig) = V (main_arg0 : DevRef τ sig) := by
  after_results_simp

theorem s4_main_arg1 (V : Valuation τ sig (Elt Ideal)) : after ops4 V (main_arg1 : DevRef τ sig) = V (main_arg1 : DevRef τ sig) := by
  after_results_simp

theorem s4_main_v2 (V : Valuation τ sig (Elt Ideal)) : after ops4 V (main_v2 : DevRef τ sig) = V (main_v2 : DevRef τ sig) := by
  after_results_simp

/-! ### Stretch 5: The histogram of the running count. -/

set_option maxHeartbeats 400000 in
theorem s5_v17 (V : Valuation τ sig (Elt Ideal)) (h0 : V (main_v7 : DevRef τ sig) = maskCount) :
    after ops5 V (main_v17 : DevRef τ sig) = binCounts := by
  after_results_simp
  simp only [cast_cast, cast_eq, h0]
  rfl

theorem s5_main_arg0 (V : Valuation τ sig (Elt Ideal)) : after ops5 V (main_arg0 : DevRef τ sig) = V (main_arg0 : DevRef τ sig) := by
  after_results_simp

theorem s5_main_arg1 (V : Valuation τ sig (Elt Ideal)) : after ops5 V (main_arg1 : DevRef τ sig) = V (main_arg1 : DevRef τ sig) := by
  after_results_simp

theorem s5_main_v2 (V : Valuation τ sig (Elt Ideal)) : after ops5 V (main_v2 : DevRef τ sig) = V (main_v2 : DevRef τ sig) := by
  after_results_simp

/-! ### Stretch 6: The histogram's running count: the flat positions. -/

set_option maxHeartbeats 400000 in
theorem s6_v18 (V : Valuation τ sig (Elt Ideal)) (h0 : V (main_v17 : DevRef τ sig) = binCounts) :
    after ops6 V (main_v18 : DevRef τ sig) = flatPos := by
  after_results_simp
  simp only [cast_cast, cast_eq, h0]
  rfl

theorem s6_main_arg0 (V : Valuation τ sig (Elt Ideal)) : after ops6 V (main_arg0 : DevRef τ sig) = V (main_arg0 : DevRef τ sig) := by
  after_results_simp

theorem s6_main_arg1 (V : Valuation τ sig (Elt Ideal)) : after ops6 V (main_arg1 : DevRef τ sig) = V (main_arg1 : DevRef τ sig) := by
  after_results_simp

theorem s6_main_v2 (V : Valuation τ sig (Elt Ideal)) : after ops6 V (main_v2 : DevRef τ sig) = V (main_v2 : DevRef τ sig) := by
  after_results_simp

/-! ### Stretch 7: Floor division by 27. -/

set_option maxHeartbeats 400000 in
theorem s7_v19 (V : Valuation τ sig (Elt Ideal)) (x : IVec S351 32) (h0 : V (main_v18 : DevRef τ sig) = x) :
    after ops7 V (main_v19 : DevRef τ sig) = floorDiv x (kI 27#32) := by
  after_results_simp
  simp only [cast_cast, cast_eq, h0]
  rfl

theorem s7_main_arg0 (V : Valuation τ sig (Elt Ideal)) : after ops7 V (main_arg0 : DevRef τ sig) = V (main_arg0 : DevRef τ sig) := by
  after_results_simp

theorem s7_main_arg1 (V : Valuation τ sig (Elt Ideal)) : after ops7 V (main_arg1 : DevRef τ sig) = V (main_arg1 : DevRef τ sig) := by
  after_results_simp

theorem s7_main_v2 (V : Valuation τ sig (Elt Ideal)) : after ops7 V (main_v2 : DevRef τ sig) = V (main_v2 : DevRef τ sig) := by
  after_results_simp

theorem s7_main_v18 (V : Valuation τ sig (Elt Ideal)) : after ops7 V (main_v18 : DevRef τ sig) = V (main_v18 : DevRef τ sig) := by
  after_results_simp

/-! ### Stretch 8: The remainder by 27. -/

set_option maxHeartbeats 400000 in
theorem s8_v20 (V : Valuation τ sig (Elt Ideal)) (x : IVec S351 32) (h0 : V (main_v19 : DevRef τ sig) = x) :
    after ops8 V (main_v20 : DevRef τ sig) = floorRem x (kI 27#32) := by
  after_results_simp
  simp only [cast_cast, cast_eq, h0]
  rfl

theorem s8_main_arg0 (V : Valuation τ sig (Elt Ideal)) : after ops8 V (main_arg0 : DevRef τ sig) = V (main_arg0 : DevRef τ sig) := by
  after_results_simp

theorem s8_main_arg1 (V : Valuation τ sig (Elt Ideal)) : after ops8 V (main_arg1 : DevRef τ sig) = V (main_arg1 : DevRef τ sig) := by
  after_results_simp

theorem s8_main_v2 (V : Valuation τ sig (Elt Ideal)) : after ops8 V (main_v2 : DevRef τ sig) = V (main_v2 : DevRef τ sig) := by
  after_results_simp

theorem s8_main_v18 (V : Valuation τ sig (Elt Ideal)) : after ops8 V (main_v18 : DevRef τ sig) = V (main_v18 : DevRef τ sig) := by
  after_results_simp

/-! ### Stretch 9: Floor division by 1. -/

set_option maxHeartbeats 400000 in
theorem s9_v21 (V : Valuation τ sig (Elt Ideal)) (x : IVec S351 32) (h0 : V (main_v18 : DevRef τ sig) = x) :
    after ops9 V (main_v21 : DevRef τ sig) = floorDiv x (kI 1#32) := by
  after_results_simp
  simp only [cast_cast, cast_eq, h0]
  rfl

theorem s9_main_arg0 (V : Valuation τ sig (Elt Ideal)) : after ops9 V (main_arg0 : DevRef τ sig) = V (main_arg0 : DevRef τ sig) := by
  after_results_simp

theorem s9_main_arg1 (V : Valuation τ sig (Elt Ideal)) : after ops9 V (main_arg1 : DevRef τ sig) = V (main_arg1 : DevRef τ sig) := by
  after_results_simp

theorem s9_main_v2 (V : Valuation τ sig (Elt Ideal)) : after ops9 V (main_v2 : DevRef τ sig) = V (main_v2 : DevRef τ sig) := by
  after_results_simp

theorem s9_main_v20 (V : Valuation τ sig (Elt Ideal)) : after ops9 V (main_v20 : DevRef τ sig) = V (main_v20 : DevRef τ sig) := by
  after_results_simp

/-! ### Stretch 10: The remainder by 27. -/

set_option maxHeartbeats 400000 in
theorem s10_v22 (V : Valuation τ sig (Elt Ideal)) (x : IVec S351 32) (h0 : V (main_v21 : DevRef τ sig) = x) :
    after ops10 V (main_v22 : DevRef τ sig) = floorRem x (kI 27#32) := by
  after_results_simp
  simp only [cast_cast, cast_eq, h0]
  rfl

theorem s10_main_arg0 (V : Valuation τ sig (Elt Ideal)) : after ops10 V (main_arg0 : DevRef τ sig) = V (main_arg0 : DevRef τ sig) := by
  after_results_simp

theorem s10_main_arg1 (V : Valuation τ sig (Elt Ideal)) : after ops10 V (main_arg1 : DevRef τ sig) = V (main_arg1 : DevRef τ sig) := by
  after_results_simp

theorem s10_main_v2 (V : Valuation τ sig (Elt Ideal)) : after ops10 V (main_v2 : DevRef τ sig) = V (main_v2 : DevRef τ sig) := by
  after_results_simp

theorem s10_main_v20 (V : Valuation τ sig (Elt Ideal)) : after ops10 V (main_v20 : DevRef τ sig) = V (main_v20 : DevRef τ sig) := by
  after_results_simp

/-! ### Stretch 11: The wrap of a negative index (two tables). -/

set_option maxHeartbeats 400000 in
theorem s11_v27 (V : Valuation τ sig (Elt Ideal)) (x : IVec S351 32) (h0 : V (main_v20 : DevRef τ sig) = x) :
    after ops11 V (main_v27 : DevRef τ sig) = wrap27 x := by
  after_results_simp
  simp only [cast_cast, cast_eq, h0]
  rfl

set_option maxHeartbeats 400000 in
theorem s11_v32 (V : Valuation τ sig (Elt Ideal)) (x : IVec S351 32) (h0 : V (main_v22 : DevRef τ sig) = x) :
    after ops11 V (main_v32 : DevRef τ sig) = wrap27 x := by
  after_results_simp
  simp only [cast_cast, cast_eq, h0]
  rfl

theorem s11_main_arg0 (V : Valuation τ sig (Elt Ideal)) : after ops11 V (main_arg0 : DevRef τ sig) = V (main_arg0 : DevRef τ sig) := by
  after_results_simp

theorem s11_main_arg1 (V : Valuation τ sig (Elt Ideal)) : after ops11 V (main_arg1 : DevRef τ sig) = V (main_arg1 : DevRef τ sig) := by
  after_results_simp

theorem s11_main_v2 (V : Valuation τ sig (Elt Ideal)) : after ops11 V (main_v2 : DevRef τ sig) = V (main_v2 : DevRef τ sig) := by
  after_results_simp

/-! ### Stretch 12: The two tables as columns. -/

set_option maxHeartbeats 400000 in
theorem s12_v33 (V : Valuation τ sig (Elt Ideal)) (x : IVec S351 32) (h0 : V (main_v27 : DevRef τ sig) = x) :
    after ops12 V (main_v33 : DevRef τ sig) = broadcastInDim S351x1 ![0] bcast_S351_S351x1_0 x := by
  after_results_simp
  simp only [cast_cast, cast_eq, h0]

set_option maxHeartbeats 400000 in
theorem s12_v34 (V : Valuation τ sig (Elt Ideal)) (x : IVec S351 32) (h0 : V (main_v32 : DevRef τ sig) = x) :
    after ops12 V (main_v34 : DevRef τ sig) = broadcastInDim S351x1 ![0] bcast_S351_S351x1_0 x := by
  after_results_simp
  simp only [cast_cast, cast_eq, h0]

theorem s12_main_arg0 (V : Valuation τ sig (Elt Ideal)) : after ops12 V (main_arg0 : DevRef τ sig) = V (main_arg0 : DevRef τ sig) := by
  after_results_simp

theorem s12_main_arg1 (V : Valuation τ sig (Elt Ideal)) : after ops12 V (main_arg1 : DevRef τ sig) = V (main_arg1 : DevRef τ sig) := by
  after_results_simp

theorem s12_main_v2 (V : Valuation τ sig (Elt Ideal)) : after ops12 V (main_v2 : DevRef τ sig) = V (main_v2 : DevRef τ sig) := by
  after_results_simp

/-! ### Stretch 13: The two columns side by side. -/

set_option maxHeartbeats 400000 in
theorem s13_v35 (V : Valuation τ sig (Elt Ideal)) (h0 : V (main_v33 : DevRef τ sig) = broadcastInDim S351x1 ![0] bcast_S351_S351x1_0 rowTable) (h1 : V (main_v34 : DevRef τ sig) = broadcastInDim S351x1 ![0] bcast_S351_S351x1_0 colTable) :
    after ops13 V (main_v35 : DevRef τ sig) = pairTable := by
  after_results_simp
  rw [h0, h1]
  rfl

theorem s13_main_arg0 (V : Valuation τ sig (Elt Ideal)) : after ops13 V (main_arg0 : DevRef τ sig) = V (main_arg0 : DevRef τ sig) := by
  after_results_simp

theorem s13_main_arg1 (V : Valuation τ sig (Elt Ideal)) : after ops13 V (main_arg1 : DevRef τ sig) = V (main_arg1 : DevRef τ sig) := by
  after_results_simp

theorem s13_main_v2 (V : Valuation τ sig (Elt Ideal)) : after ops13 V (main_v2 : DevRef τ sig) = V (main_v2 : DevRef τ sig) := by
  after_results_simp

/-! ### Stretch 14: The gather of the products at the pairs. -/

set_option maxHeartbeats 400000 in
theorem s14_v36 (V : Valuation τ sig (Elt Ideal)) (p : FVec Ideal S16384x27x27 .f32) (t : IVec S351x2 32) (h0 : V (main_v2 : DevRef τ sig) = p) (h1 : V (main_v35 : DevRef τ sig) = t) :
    after ops14 V (main_v36 : DevRef τ sig) = Host.gather gather_S16384x27x27_S351x2_S16384x351_0_12_n_n_12_1_1638411 p t := by
  after_results_simp
  simp only [cast_cast, cast_eq, h0, h1]

theorem s14_main_arg0 (V : Valuation τ sig (Elt Ideal)) : after ops14 V (main_arg0 : DevRef τ sig) = V (main_arg0 : DevRef τ sig) := by
  after_results_simp

theorem s14_main_arg1 (V : Valuation τ sig (Elt Ideal)) : after ops14 V (main_arg1 : DevRef τ sig) = V (main_arg1 : DevRef τ sig) := by
  after_results_simp

/-! ### Stretch 15: The dense numbers, then the gathered products. -/

set_option maxHeartbeats 400000 in
theorem s15_v37 (V : Valuation τ sig (Elt Ideal)) (a0 : FVec Ideal S16384x128 .f32) (a1 : FVec Ideal S16384x26x128 .f32) (h0 : V (main_arg0 : DevRef τ sig) = a0) (h1 : V (main_v36 : DevRef τ sig) = Host.gather gather_S16384x27x27_S351x2_S16384x351_0_12_n_n_12_1_1638411 (products a0 a1) pairTable) :
    after ops15 V (main_v37 : DevRef τ sig) = result a0 a1 := by
  after_results_simp
  rw [h0, h1]
  rfl

theorem s15_main_arg0 (V : Valuation τ sig (Elt Ideal)) : after ops15 V (main_arg0 : DevRef τ sig) = V (main_arg0 : DevRef τ sig) := by
  after_results_simp

theorem s15_main_arg1 (V : Valuation τ sig (Elt Ideal)) : after ops15 V (main_arg1 : DevRef τ sig) = V (main_arg1 : DevRef τ sig) := by
  after_results_simp

/-- The whole line: from any contents, the result buffer ends at the reference's term of the two arguments' contents, and the arguments are unchanged. -/
theorem out_eq (V : Valuation τ sig (Elt Ideal)) :
    after ops V (main_v37 : DevRef τ sig) = result (V (main_arg0 : DevRef τ sig)) (V (main_arg1 : DevRef τ sig))
      ∧ after ops V (main_arg0 : DevRef τ sig) = V (main_arg0 : DevRef τ sig)
      ∧ after ops V (main_arg1 : DevRef τ sig) = V (main_arg1 : DevRef τ sig) := by
  simp only [ops, after_append]
  have k0_main_arg0 : V (main_arg0 : DevRef τ sig) = V (main_arg0 : DevRef τ sig) := rfl
  have k0_main_arg1 : V (main_arg1 : DevRef τ sig) = V (main_arg1 : DevRef τ sig) := rfl
  have k1_main_v0 := s1_v0 V _ k0_main_arg0
  have k1_main_arg0 := (s1_main_arg0 V).trans k0_main_arg0
  have k1_main_arg1 := (s1_main_arg1 V).trans k0_main_arg1
  clear k0_main_arg0 k0_main_arg1
  generalize after ops1 V = V1 at *
  have k2_main_v2 := s2_v2 V1 _ _ k1_main_v0 k1_main_arg1
  have k2_main_arg0 := (s2_main_arg0 V1).trans k1_main_arg0
  have k2_main_arg1 := (s2_main_arg1 V1).trans k1_main_arg1
  clear k1_main_v0 k1_main_arg0 k1_main_arg1
  generalize after ops2 V1 = V2 at *
  have k3_main_v6 := s3_v6 V2
  have k3_main_arg0 := (s3_main_arg0 V2).trans k2_main_arg0
  have k3_main_arg1 := (s3_main_arg1 V2).trans k2_main_arg1
  have k3_main_v2 := (s3_main_v2 V2).trans k2_main_v2
  clear k2_main_v2 k2_main_arg0 k2_main_arg1
  generalize after ops3 V2 = V3 at *
  have k4_main_v7 := s4_v7 V3 k3_main_v6
  have k4_main_arg0 := (s4_main_arg0 V3).trans k3_main_arg0
  have k4_main_arg1 := (s4_main_arg1 V3).trans k3_main_arg1
  have k4_main_v2 := (s4_main_v2 V3).trans k3_main_v2
  clear k3_main_v6 k3_main_arg0 k3_main_arg1 k3_main_v2
  generalize after ops4 V3 = V4 at *
  have k5_main_v17 := s5_v17 V4 k4_main_v7
  have k5_main_arg0 := (s5_main_arg0 V4).trans k4_main_arg0
  have k5_main_arg1 := (s5_main_arg1 V4).trans k4_main_arg1
  have k5_main_v2 := (s5_main_v2 V4).trans k4_main_v2
  clear k4_main_v7 k4_main_arg0 k4_main_arg1 k4_main_v2
  generalize after ops5 V4 = V5 at *
  have k6_main_v18 := s6_v18 V5 k5_main_v17
  have k6_main_arg0 := (s6_main_arg0 V5).trans k5_main_arg0
  have k6_main_arg1 := (s6_main_arg1 V5).trans k5_main_arg1
  have k6_main_v2 := (s6_main_v2 V5).trans k5_main_v2
  clear k5_main_v17 k5_main_arg0 k5_main_arg1 k5_main_v2
  generalize after ops6 V5 = V6 at *
  have k7_main_v19 := s7_v19 V6 _ k6_main_v18
  have k7_main_arg0 := (s7_main_arg0 V6).trans k6_main_arg0
  have k7_main_arg1 := (s7_main_arg1 V6).trans k6_main_arg1
  have k7_main_v2 := (s7_main_v2 V6).trans k6_main_v2
  have k7_main_v18 := (s7_main_v18 V6).trans k6_main_v18
  clear k6_main_v18 k6_main_arg0 k6_main_arg1 k6_main_v2
  generalize after ops7 V6 = V7 at *
  have k8_main_v20 := s8_v20 V7 _ k7_main_v19
  have k8_main_arg0 := (s8_main_arg0 V7).trans k7_main_arg0
  have k8_main_arg1 := (s8_main_arg1 V7).trans k7_main_arg1
  have k8_main_v2 := (s8_main_v2 V7).trans k7_main_v2
  have k8_main_v18 := (s8_main_v18 V7).trans k7_main_v18
  clear k7_main_v19 k7_main_arg0 k7_main_arg1 k7_main_v2 k7_main_v18
  generalize after ops8 V7 = V8 at *
  have k9_main_v21 := s9_v21 V8 _ k8_main_v18
  have k9_main_arg0 := (s9_main_arg0 V8).trans k8_main_arg0
  have k9_main_arg1 := (s9_main_arg1 V8).trans k8_main_arg1
  have k9_main_v2 := (s9_main_v2 V8).trans k8_main_v2
  have k9_main_v20 := (s9_main_v20 V8).trans k8_main_v20
  clear k8_main_v20 k8_main_arg0 k8_main_arg1 k8_main_v2 k8_main_v18
  generalize after ops9 V8 = V9 at *
  have k10_main_v22 := s10_v22 V9 _ k9_main_v21
  have k10_main_arg0 := (s10_main_arg0 V9).trans k9_main_arg0
  have k10_main_arg1 := (s10_main_arg1 V9).trans k9_main_arg1
  have k10_main_v2 := (s10_main_v2 V9).trans k9_main_v2
  have k10_main_v20 := (s10_main_v20 V9).trans k9_main_v20
  clear k9_main_v21 k9_main_arg0 k9_main_arg1 k9_main_v2 k9_main_v20
  generalize after ops10 V9 = V10 at *
  have k11_main_v27 := s11_v27 V10 _ k10_main_v20
  have k11_main_v32 := s11_v32 V10 _ k10_main_v22
  have k11_main_arg0 := (s11_main_arg0 V10).trans k10_main_arg0
  have k11_main_arg1 := (s11_main_arg1 V10).trans k10_main_arg1
  have k11_main_v2 := (s11_main_v2 V10).trans k10_main_v2
  clear k10_main_v22 k10_main_arg0 k10_main_arg1 k10_main_v2 k10_main_v20
  generalize after ops11 V10 = V11 at *
  have k12_main_v33 := s12_v33 V11 _ k11_main_v27
  have k12_main_v34 := s12_v34 V11 _ k11_main_v32
  have k12_main_arg0 := (s12_main_arg0 V11).trans k11_main_arg0
  have k12_main_arg1 := (s12_main_arg1 V11).trans k11_main_arg1
  have k12_main_v2 := (s12_main_v2 V11).trans k11_main_v2
  clear k11_main_v27 k11_main_v32 k11_main_arg0 k11_main_arg1 k11_main_v2
  generalize after ops12 V11 = V12 at *
  have k13_main_v35 := s13_v35 V12 k12_main_v33 k12_main_v34
  have k13_main_arg0 := (s13_main_arg0 V12).trans k12_main_arg0
  have k13_main_arg1 := (s13_main_arg1 V12).trans k12_main_arg1
  have k13_main_v2 := (s13_main_v2 V12).trans k12_main_v2
  clear k12_main_v33 k12_main_v34 k12_main_arg0 k12_main_arg1 k12_main_v2
  generalize after ops13 V12 = V13 at *
  have k14_main_v36 := s14_v36 V13 _ _ k13_main_v2 k13_main_v35
  have k14_main_arg0 := (s14_main_arg0 V13).trans k13_main_arg0
  have k14_main_arg1 := (s14_main_arg1 V13).trans k13_main_arg1
  clear k13_main_v35 k13_main_arg0 k13_main_arg1 k13_main_v2
  generalize after ops14 V13 = V14 at *
  have k15_main_v37 := s15_v37 V14 _ _ k14_main_arg0 k14_main_v36
  have k15_main_arg0 := (s15_main_arg0 V14).trans k14_main_arg0
  have k15_main_arg1 := (s15_main_arg1 V14).trans k14_main_arg1
  clear k14_main_v36 k14_main_arg0 k14_main_arg1
  exact ⟨k15_main_v37, k15_main_arg0, k15_main_arg1⟩

theorem scopedRefs_eq : (Finset.univ.filter fun b : Ref sig .tc => b.isScoped) = ∅ := by decide
theorem scopedSems_eq : (Finset.univ.filter fun sm : SemLoc sig => sm.isScoped .tc) = ∅ := by decide

section
variable {F : FTy → Type} [FloatOps F]
theorem ops_sub : (ops : List (HloOp τ sig (Elt F))).Forall fun op => op.bufs ⊆ tcRefs τ sig :=
  ⟨unary_bufs_sub .., binary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub ..⟩
end

/-- On every device, from any memory with zero counters: every weakly fair execution of @main terminates with the result
    at the reference's term of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v37) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c main_v37).trans (out_eq (launchContents m c)).1,
        (h c main_arg0).trans (out_eq (launchContents m c)).2.1,
        (h c main_arg1).trans (out_eq (launchContents m c)).2.2⟩)
    (run_seq scopedRefs_eq scopedSems_eq defs main (fun _ => ops) main_eq (fun _ => ops_sub) m ρ)

end Cert.ReferenceIdeal.Hand

end
-- ==== Proof.RefRead.lean ====
/-
  The reference's float side read at an entry.

  Given the values of the two integer tables (entry p of the row table is the row, and of the column table the column,
  of the p-th pair of the strict upper triangle), the reference's result at row b, column c is: for c < 128 the dense
  number x[b, c]; for c ≥ 128 the dot product of rows f < g of batch entry b, where (f, g) is pair c - 128.
  The steps, innermost first: the 27 stacked rows at an entry (a concatenation of the dense row, broadcast to one row,
  and the 26 embedding rows); the 27 × 27 products at an entry (one batch axis, one contracted axis: a sum over the 128
  positions of a row); the pair table at an entry (a concatenation of the two tables as columns); the gather at an entry
  (the products at the batch entry and at the pair's two start indices, read signed and clamped into 0 … 26, where
  the clamp is the identity because both are below 27); the outer concatenation of the dense numbers and the gathered ones.
  Nothing here uses finiteness of the inputs: definitions are read at an index and one finite sum is re-indexed.
-/
import proofs.«159237_j82617990905996_2_alg».proof.Proof.RefTerm
import proofs.«159237_j82617990905996_2_alg».proof.Proof.Spec
import Idealize.ShloMosaic.Lib.ValueIdx
import Idealize.ShloMosaic.PureOps.Ideal.Laws
import Idealize.ShloMosaic.Lib.Pipeline.Value

noncomputable section

open scoped BigOperators

namespace Cert.ReferenceIdeal.Hand

open Idealize.ShloMosaic Idealize.ShloMosaic.ValueIdx Cert.ReferenceIdeal Cert.ReferenceIdeal.Facts₀ Cert.Spec

variable [Facts]

/-- The 27 rows of a batch entry read at an entry: row 0 is the dense row, row f ≥ 1 the embedding row f - 1. -/
theorem stacked_apply (a0 : FVec Ideal S16384x128 .f32) (a1 : FVec Ideal S16384x26x128 .f32)
    (b : Fin 16384) (f : Fin 27) (d : Fin 128) :
    stacked a0 a1 (ix3 b f d) = rowOf a0 a1 b f d := by
  unfold stacked rowOf
  by_cases hf : f.val = 0
  · rw [dif_pos hf]
    refine (concatenate_pair_apply_left (t := S16384x27x128) (s₁ := S16384x1x128) (s₂ := S16384x26x128) (1 : Fin 3) _ _ _
      (ix3 b f d) rfl (ix3 b (0 : Fin 1) d : S16384x1x128.Idx) ?_).trans ?_
    · intro c
      match c with
      | ⟨0, _⟩ => rfl
      | ⟨1, _⟩ => exact hf.symm
      | ⟨2, _⟩ => rfl
    · refine broadcastInDim_apply _ _ a0 _ (ix2 b d : S16384x128.Idx) ?_
      intro a
      match a with
      | ⟨0, _⟩ => rfl
      | ⟨1, _⟩ => rfl
  · rw [dif_neg hf]
    refine concatenate_pair_apply_right (t := S16384x27x128) (s₁ := S16384x1x128) (s₂ := S16384x26x128) (1 : Fin 3) _ _ _
      (ix3 b f d) rfl rfl (ix3 b (⟨f.val - 1, by omega⟩ : Fin 26) d : S16384x26x128.Idx) ?_ ?_
    · intro c hc
      match c, hc with
      | ⟨0, _⟩, _ => rfl
      | ⟨1, _⟩, hc => exact absurd rfl hc
      | ⟨2, _⟩, _ => rfl
    · show f.val - 1 + 1 = f.val
      omega

/-- The products at an entry: the dot product of rows f and g of batch entry b, a sum over the 128 positions. -/
theorem products_apply (a0 : FVec Ideal S16384x128 .f32) (a1 : FVec Ideal S16384x26x128 .f32)
    (b : Fin 16384) (f g : Fin 27) :
    products a0 a1 (ix3 b f g) = ∑ d : Fin 128, stacked a0 a1 (ix3 b f d) * stacked a0 a1 (ix3 b g d) := by
  unfold products
  refine (Ideal.dotGeneral_apply _ _ _ _ _ _).trans ?_
  have hr : (dot_S16384x27x128_S16384x27x128_S16384x27x27_2_2_1_1_0_0).contr.rank = 1 := rfl
  have hs : (dot_S16384x27x128_S16384x27x128_S16384x27x27_2_2_1_1_0_0).contr.size ⟨0, by omega⟩ = 128 := rfl
  rw [← Equiv.sum_comp (contrEquiv1 dot_S16384x27x128_S16384x27x128_S16384x27x27_2_2_1_1_0_0 128 hr hs).symm]
  refine Finset.sum_congr rfl fun d _ => ?_
  congr 1
  · refine congrArg _ (funext fun a => Fin.ext ?_)
    match a with
    | ⟨0, _⟩ => rfl
    | ⟨1, _⟩ => rfl
    | ⟨2, _⟩ => rfl
  · refine congrArg _ (funext fun a => Fin.ext ?_)
    match a with
    | ⟨0, _⟩ => rfl
    | ⟨1, _⟩ => rfl
    | ⟨2, _⟩ => rfl

/-- The pair table's first column is the row table. -/
theorem pairTable_row (p : Fin 351) : pairTable (ix2 p (0 : Fin 2)) = rowTable (ix1 p) := by
  unfold pairTable
  refine (concatenate_pair_apply_left (t := S351x2) (s₁ := S351x1) (s₂ := S351x1) (1 : Fin 2) _ _ _
    (ix2 p (0 : Fin 2)) rfl (ix2 p (0 : Fin 1) : S351x1.Idx) ?_).trans ?_
  · intro c
    match c with
    | ⟨0, _⟩ => rfl
    | ⟨1, _⟩ => rfl
  · refine broadcastInDim_apply _ _ rowTable _ (ix1 p : S351.Idx) ?_
    intro a
    match a with
    | ⟨0, _⟩ => rfl

/-- The pair table's second column is the column table. -/
theorem pairTable_col (p : Fin 351) : pairTable (ix2 p (1 : Fin 2)) = colTable (ix1 p) := by
  unfold pairTable
  refine (concatenate_pair_apply_right (t := S351x2) (s₁ := S351x1) (s₂ := S351x1) (1 : Fin 2) _ _ _
    (ix2 p (1 : Fin 2)) rfl rfl (ix2 p (0 : Fin 1) : S351x1.Idx) ?_ ?_).trans ?_
  · intro c hc
    match c, hc with
    | ⟨0, _⟩, _ => rfl
    | ⟨1, _⟩, hc => exact absurd rfl hc
  · rfl
  · refine broadcastInDim_apply _ _ colTable _ (ix1 p : S351.Idx) ?_
    intro a
    match a with
    | ⟨0, _⟩ => rfl

/-- The gather read at an entry: the operand at the batch entry, and at the two start indices of the pair read as signed
    integers and clamped into 0 … 26, named by the caller. -/
theorem gather_apply {α : Type} (x : S16384x27x27.Idx → α) (idx : IVec S351x2 32) (b : Fin 16384) (p : Fin 351) (r c : Fin 27)
    (hr : min (idx (ix2 p (0 : Fin 2))).toInt.toNat 26 = r.val) (hc : min (idx (ix2 p (1 : Fin 2))).toInt.toNat 26 = c.val) :
    Host.gather gather_S16384x27x27_S351x2_S16384x351_0_12_n_n_12_1_1638411 x idx (ix2 b p) = x (ix3 b r c) := by
  unfold Host.gather
  refine congrArg x (funext fun a => Fin.ext ?_)
  have hsi0 : (gather_S16384x27x27_S351x2_S16384x351_0_12_n_n_12_1_1638411).siIdx (ix2 b p : S16384x351.Idx) ⟨0, Nat.zero_lt_two⟩
      = (ix2 p (0 : Fin 2) : S351x2.Idx) := by
    funext k; refine Fin.ext ?_
    match k with
    | ⟨0, _⟩ => rfl
    | ⟨1, _⟩ => rfl
  have hsi1 : (gather_S16384x27x27_S351x2_S16384x351_0_12_n_n_12_1_1638411).siIdx (ix2 b p : S16384x351.Idx) ⟨1, Nat.one_lt_two⟩
      = (ix2 p (1 : Fin 2) : S351x2.Idx) := by
    funext k; refine Fin.ext ?_
    match k with
    | ⟨0, _⟩ => rfl
    | ⟨1, _⟩ => rfl
  match a with
  | ⟨0, _⟩ =>
    show 0 + 0 + b.val = b.val
    omega
  | ⟨1, _⟩ =>
    refine Eq.trans ?_ hr
    rw [← hsi0]
    rfl
  | ⟨2, _⟩ =>
    refine Eq.trans ?_ hc
    rw [← hsi1]
    rfl

/-- A number below 27 written as a 32-bit word reads back, signed, as itself. -/
theorem toInt_toNat_ofNat (n : ℕ) (h : n < 27) : (BitVec.ofNat 32 n).toInt.toNat = n := by
  interval_cases n <;> decide

/-- The reference's result at an entry, given the two tables of pairs. -/
theorem result_apply (hrow : ∀ p : Fin 351, rowTable (ix1 p) = BitVec.ofNat 32 (pairRow p.val))
    (hcol : ∀ p : Fin 351, colTable (ix1 p) = BitVec.ofNat 32 (pairCol p.val))
    (a0 : FVec Ideal S16384x128 .f32) (a1 : FVec Ideal S16384x26x128 .f32) (b : Fin 16384) (c : Fin 479) :
    result a0 a1 (ix2 b c) = G' a0 a1 b c := by
  unfold result G'
  by_cases hc : c.val < 128
  · rw [dif_pos hc]
    refine concatenate_pair_apply_left (t := S16384x479) (s₁ := S16384x128) (s₂ := S16384x351) (1 : Fin 2) _ _ _
      (ix2 b c) rfl (ix2 b (⟨c.val, hc⟩ : Fin 128) : S16384x128.Idx) ?_
    intro a
    match a with
    | ⟨0, _⟩ => rfl
    | ⟨1, _⟩ => rfl
  · rw [dif_neg hc]
    have hp : c.val - 128 < 351 := by omega
    refine (concatenate_pair_apply_right (t := S16384x479) (s₁ := S16384x128) (s₂ := S16384x351) (1 : Fin 2) _ _ _
      (ix2 b c) rfl rfl (ix2 b (⟨c.val - 128, hp⟩ : Fin 351) : S16384x351.Idx) ?_ ?_).trans ?_
    · intro a ha
      match a, ha with
      | ⟨0, _⟩, _ => rfl
      | ⟨1, _⟩, ha => exact absurd rfl ha
    · show c.val - 128 + 128 = c.val
      omega
    · have hb := pair_bounds ⟨c.val - 128, hp⟩
      refine (gather_apply _ _ b ⟨c.val - 128, hp⟩ (pairRowF ⟨c.val - 128, hp⟩) (pairColF ⟨c.val - 128, hp⟩) ?_ ?_).trans ?_
      · rw [pairTable_row, hrow, toInt_toNat_ofNat _ (by omega)]
        show min (pairRow (c.val - 128)) 26 = pairRow (c.val - 128)
        have h2 : pairRow (c.val - 128) < pairCol (c.val - 128) := hb.1
        have h3 : pairCol (c.val - 128) < 27 := hb.2
        omega
      · rw [pairTable_col, hcol, toInt_toNat_ofNat _ hb.2]
        show min (pairCol (c.val - 128)) 26 = pairCol (c.val - 128)
        have h3 : pairCol (c.val - 128) < 27 := hb.2
        omega
      · rw [products_apply]
        unfold dotOf
        refine Finset.sum_congr rfl fun d _ => ?_
        rw [stacked_apply, stacked_apply]

/-- The reference's result is the specified array, given the two tables of pairs. -/
theorem result_eq (hrow : ∀ p : Fin 351, rowTable (ix1 p) = BitVec.ofNat 32 (pairRow p.val))
    (hcol : ∀ p : Fin 351, colTable (ix1 p) = BitVec.ofNat 32 (pairCol p.val))
    (a0 : FVec Ideal S16384x128 .f32) (a1 : FVec Ideal S16384x26x128 .f32) : result a0 a1 = G a0 a1 := by
  funext i
  rw [eq_ix2 i]
  exact result_apply hrow hcol a0 a1 (i 0) (i 1)

end Cert.ReferenceIdeal.Hand

end
-- ==== Proof.PairTables.lean ====
/-
  The integer stages of the reference up to the flat positions of the pairs: the mask of the strict upper triangle of
  the 27 × 27 square, its running count, the histogram of that count over 351 bins, and the histogram's running count,
  whose entry p is 27 · f + g for the p-th pair (f, g), f < g, of the triangle in row-major order.

  Two general laws carry the argument: a window sum of width n over a length-n vector padded with n - 1 zeros in front is
  the running sum, and an element of a scatter-add is the start plus the sum of the updates that land on it. Between
  them the stages are closed forms in natural numbers: the running count of the mask is a step-by-step recurrence, and
  since it never decreases and reaches p + 1 exactly at position 27 · f + g, the positions whose count is at most p
  number 27 · f + g.
-/
import proofs.«159237_j82617990905996_2_alg».proof.Proof.RefTerm
import proofs.«159237_j82617990905996_2_alg».proof.Proof.Spec
import Idealize.ShloMosaic.Lib.ValueIdx
import Idealize.ShloMosaic.Lib.IdealHost
import Idealize.ShloMosaic.Lib.WordArith
import Idealize.ShloMosaic.Lib.Pipeline.Value
import Mathlib.Data.BitVec

noncomputable section

namespace Cert.ReferenceIdeal.Hand

open Idealize.ShloMosaic Idealize.ShloMosaic.ValueIdx Cert.ReferenceIdeal Cert.ReferenceIdeal.Facts₀ Cert.Spec
open scoped BigOperators

/-! ## Two general laws: a running sum, and a histogram -/

/-- A left fold of word addition is the start plus the sum of the terms. -/
theorem foldl_addi_eq {ι : Type} (l : List ι) (g : ι → BitVec 32) (v : BitVec 32) :
    l.foldl (fun r m => IntOp.addi r (g m)) v = v + (l.map g).sum := by
  induction l generalizing v with
  | nil => simp
  | cons a l ih =>
    rw [List.foldl_cons, ih, List.map_cons, List.sum_cons]
    simp only [IntOp.addi, add_assoc]

/-- A rank-one index set is its coordinate range. -/
def idxEquiv1 {n : ℕ} : (⟨1, ![n]⟩ : Shape).Idx ≃ Fin n where
  toFun i := i 0
  invFun a := ix1 a
  left_inv i := (eq_ix1 i).symm
  right_inv _ := rfl

/-- A sum over a rank-one index set is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- A vector of length n read at a natural number, zero past the end. -/
def readAt {n : ℕ} (x : IVec ⟨1, ![n]⟩ 32) (i : ℕ) : BitVec 32 := if hi : i < n then x (ix1 ⟨i, hi⟩) else 0

/-- The term of the window sum at window position w: the vector's entry k + w - lo, zero in the padding. -/
def winTerm {n : ℕ} (lo : ℕ) (x : IVec ⟨1, ![n]⟩ 32) (k : Fin n) (w : (⟨1, ![n]⟩ : Shape).Idx) : BitVec 32 :=
  if lo ≤ k.val + (w 0).val then readAt x (k.val + (w 0).val - lo) else 0

/-- A sum over the row-major positions of a rank-one shape is the sum over the coordinate. -/
theorem sum_finRange_rowMajor {n : ℕ} (G : (⟨1, ![n]⟩ : Shape).Idx → BitVec 32) :
    ((List.finRange (⟨1, ![n]⟩ : Shape).numel).map fun m => G ((Shape.rowMajor ⟨1, ![n]⟩).symm m)).sum
      = ∑ a : Fin n, G (ix1 a) := by
  rw [← Fin.sum_univ_def, Equiv.sum_comp (Shape.rowMajor ⟨1, ![n]⟩).symm G, sum_idx1]

/-- A window sum of width n over a vector of length n padded with n - 1 zeros in front is the running sum:
    entry k is the sum of entries 0 … k. -/
theorem cumsum_apply {n lo : ℕ} (hlo : lo + 1 = n) (x : IVec ⟨1, ![n]⟩ 32) (init : IVec ⟨0, ![]⟩ 32)
    (hinit : ∀ i, init i = 0#32)
    (h : (⟨1, ![n]⟩ : Shape).ReduceWindows (![n] : Fin 1 → ℕ) ![1] ![lo] ![0] ⟨1, ![n]⟩) (hu : 0 < (⟨0, ![]⟩ : Shape).numel)
    (k : Fin n) :
    Host.reduceWindow IntOp.addi ![n] ![1] ![lo] ![0] x init h hu (ix1 k)
      = ∑ i ∈ Finset.range (k.val + 1), readAt x i := by
  unfold Host.reduceWindow
  simp only [hinit]
  rw [foldl_addi_eq, BitVec.zero_add]
  refine (congrArg List.sum (List.map_congr_left
    (g := fun m => winTerm lo x k ((Shape.rowMajor ⟨1, ![n]⟩).symm m)) fun m _ => ?_)).trans ?_
  · unfold winTerm readAt
    split
    · rename_i hin
      have h0 := hin 0
      change lo ≤ k.val * 1 + ((Shape.rowMajor ⟨1, ![n]⟩).symm m 0).val ∧
        k.val * 1 + ((Shape.rowMajor ⟨1, ![n]⟩).symm m 0).val - lo < n at h0
      rw [Nat.mul_one] at h0
      rw [if_pos h0.1, dif_pos h0.2]
      refine congrArg x (funext fun a => ?_)
      obtain rfl : a = 0 := Subsingleton.elim _ _
      refine Fin.ext ?_
      show k.val * 1 + ((Shape.rowMajor ⟨1, ![n]⟩).symm m 0).val - lo = k.val + ((Shape.rowMajor ⟨1, ![n]⟩).symm m 0).val - lo
      rw [Nat.mul_one]
    · rename_i hin
      by_cases h1 : lo ≤ k.val + ((Shape.rowMajor ⟨1, ![n]⟩).symm m 0).val
      · rw [if_pos h1]
        by_cases h2 : k.val + ((Shape.rowMajor ⟨1, ![n]⟩).symm m 0).val - lo < n
        · exfalso; apply hin; intro a
          obtain rfl : a = 0 := Subsingleton.elim _ _
          show lo ≤ k.val * 1 + ((Shape.rowMajor ⟨1, ![n]⟩).symm m 0).val ∧
            k.val * 1 + ((Shape.rowMajor ⟨1, ![n]⟩).symm m 0).val - lo < n
          rw [Nat.mul_one]; exact ⟨h1, h2⟩
        · rw [dif_neg h2]; rfl
      · rw [if_neg h1]; rfl
  · rw [sum_finRange_rowMajor (winTerm lo x k)]
    unfold winTerm
    show ∑ a : Fin n, (fun m : ℕ => if lo ≤ k.val + m then readAt x (k.val + m - lo) else 0) a.val = _
    rw [Fin.sum_univ_eq_sum_range (fun m : ℕ => if lo ≤ k.val + m then readAt x (k.val + m - lo) else 0) n]
    rw [← Finset.sum_filter]
    have hk := k.isLt
    have hf : (Finset.range n).filter (fun m => lo ≤ k.val + m) = Finset.Ico (lo - k.val) n := by
      ext m; simp only [Finset.mem_filter, Finset.mem_range, Finset.mem_Ico]; omega
    rw [hf, Finset.sum_Ico_eq_sum_range]
    have hn : n - (lo - k.val) = k.val + 1 := by omega
    rw [hn]
    refine Finset.sum_congr rfl fun i hi => ?_
    have : k.val + (lo - k.val + i) - lo = i := by omega
    rw [this]

/-- One element of a scatter: the fold, over the updates in order, of those that land on it. -/
theorem scatter_apply {s si u : Shape} {w : ℕ} {α : Type} (d : ScatterDims s si u) (f : α → α → α) (x : s.Idx → α)
    (idx : IVec si w) (upd : u.Idx → α) (v : s.Idx) :
    Host.scatter d f x idx upd v
      = (List.finRange u.numel).foldl (fun acc n =>
          if d.resultIdx? (u.rowMajor.symm n) idx = some v then f acc (upd (u.rowMajor.symm n)) else acc) (x v) := by
  unfold Host.scatter
  generalize List.finRange u.numel = l
  induction l generalizing x with
  | nil => rfl
  | cons n l ih =>
    rw [List.foldl_cons, List.foldl_cons, ih]
    congr 1
    cases hg : d.resultIdx? (u.rowMajor.symm n) idx with
    | none => simp
    | some i =>
      by_cases hv : v = i
      · subst hv; simp
      · simp [hv, Ne.symm hv]

/-- A left fold that adds the terms satisfying a condition is the start plus the sum of those terms. -/
theorem foldl_addi_if_eq {ι : Type} (l : List ι) (c : ι → Prop) [DecidablePred c] (g : ι → BitVec 32) (v : BitVec 32) :
    l.foldl (fun r m => if c m then IntOp.addi r (g m) else r) v = v + (l.map fun m => if c m then g m else 0).sum := by
  induction l generalizing v with
  | nil => simp
  | cons a l ih =>
    rw [List.foldl_cons, ih, List.map_cons, List.sum_cons]
    by_cases ha : c a
    · simp only [if_pos ha, IntOp.addi, add_assoc]
    · simp only [if_neg ha, zero_add]

/-- The sum of words of natural numbers is the word of the sum. -/
theorem sum_ofNat (f : ℕ → ℕ) (m : ℕ) :
    ∑ i ∈ Finset.range m, BitVec.ofNat 32 (f i) = BitVec.ofNat 32 (∑ i ∈ Finset.range m, f i) := by
  induction m with
  | zero => rfl
  | succ m ih => rw [Finset.sum_range_succ, Finset.sum_range_succ, ih, BitVec.ofNat_add]

/-! ## The closed forms of the stages -/

/-- The mask of the strict upper triangle at flat position k: one where the row k / 27 is less than the column k % 27. -/
def msk (k : ℕ) : ℕ := if k / 27 < k % 27 then 1 else 0

/-- The running count of the mask at flat position k: the pairs of the rows before row k / 27, and those of that row
    with column at most k % 27. -/
def cnt (k : ℕ) : ℕ := rowStart (k / 27) + (k % 27 - k / 27)

/-- The flat position of the p-th pair. -/
def flat (p : ℕ) : ℕ := 27 * pairRow p + pairCol p

theorem cnt_step : ∀ k : Fin 728, cnt k.val + msk (k.val + 1) = cnt (k.val + 1) := by decide +kernel

/-- The running count of the mask, as natural numbers. -/
theorem prefix_msk : ∀ k : ℕ, k < 729 → ∑ i ∈ Finset.range (k + 1), msk i = cnt k := by
  intro k
  induction k with
  | zero => intro _; rfl
  | succ k ih =>
    intro hk
    rw [Finset.sum_range_succ, ih (by omega)]
    exact cnt_step ⟨k, by omega⟩

/-- The running count does not decrease. -/
theorem cnt_mono {a b : ℕ} (hab : a ≤ b) (hb : b < 729) : cnt a ≤ cnt b := by
  induction b, hab using Nat.le_induction with
  | base => exact Nat.le_refl _
  | succ b _ ih =>
    have := cnt_step ⟨b, by omega⟩
    have := ih (by omega)
    simp only at *
    omega

/-- The running count reaches p + 1 exactly at the flat position of the p-th pair. -/
theorem flat_facts : ∀ p : Fin 351, 1 ≤ flat p.val ∧ flat p.val < 729 ∧ cnt (flat p.val) = p.val + 1 ∧ cnt (flat p.val - 1) = p.val := by
  decide +kernel

/-- The running count is at most p exactly before the flat position of the p-th pair. -/
theorem cnt_le_iff {p k : ℕ} (hp : p < 351) (hk : k < 729) : cnt k ≤ p ↔ k < flat p := by
  obtain ⟨h1, h2, h3, h4⟩ := flat_facts ⟨p, hp⟩
  simp only at h1 h2 h3 h4
  constructor
  · intro h
    by_contra hc
    have := cnt_mono (Nat.le_of_not_lt hc) hk
    omega
  · intro h
    have := cnt_mono (show k ≤ flat p - 1 by omega) (by omega)
    omega

/-- The histogram's running count: the flat positions whose running count is at most p number the flat position of
    the p-th pair. -/
theorem count_total {p : ℕ} (hp : p < 351) :
    ∑ v ∈ Finset.range (p + 1), ∑ k ∈ Finset.range 729, (if cnt k = v then 1 else 0) = flat p := by
  rw [Finset.sum_comm]
  have h2 := (flat_facts ⟨p, hp⟩).2.1
  simp only at h2
  have hk : ∀ k ∈ Finset.range 729, (∑ v ∈ Finset.range (p + 1), (if cnt k = v then 1 else 0)) = if k < flat p then 1 else 0 := by
    intro k hk
    rw [Finset.sum_ite_eq]
    have := cnt_le_iff hp (Finset.mem_range.1 hk)
    simp only [Finset.mem_range]
    by_cases hc : k < flat p
    · rw [if_pos hc, if_pos (by omega)]
    · rw [if_neg hc, if_neg (by omega)]
  rw [Finset.sum_congr rfl hk, Finset.sum_boole]
  have : (Finset.range 729).filter (fun k => k < flat p) = Finset.range (flat p) := by
    ext k; simp only [Finset.mem_filter, Finset.mem_range]; omega
  rw [this, Finset.card_range]
  rfl

/-- The scatter indices as a function of the index. -/
def idxC : IVec S729x1 32 := fun i => BitVec.ofNat 32 (cnt (i 0).val)

/-- The histogram's dimension numbers: 729 scalar updates, each at the bin its one index names. -/
def dd : ScatterDims S351 S729x1 S729 where
  updateWindowDims := []
  insertedWindowDims := [0]
  scatterDimsToOperandDims := [0]
  indexVectorDim := 1

/-- The bin update k lands in: its running count, when that is below 351; the update is dropped otherwise. -/
theorem resIdx_eval : ∀ k : Fin 729, (dd.resultIdx? (ix1 k) idxC).map (fun i : (⟨1, ![351]⟩ : Shape).Idx => (i 0).val)
    = if cnt k.val < 351 then some (cnt k.val) else none := by decide +kernel

theorem resIdx_iff (k : Fin 729) (v : Fin 351) : dd.resultIdx? (ix1 k) idxC = some (ix1 v) ↔ cnt k.val = v.val := by
  have e := resIdx_eval k
  have hv := v.isLt
  constructor
  · intro hh
    rw [hh] at e
    by_cases hc : cnt k.val < 351
    · rw [if_pos hc] at e
      exact (Option.some.inj e).symm
    · rw [if_neg hc] at e
      cases e
  · intro hc
    rw [if_pos (by omega)] at e
    cases hr : dd.resultIdx? (ix1 k) idxC with
    | none => rw [hr] at e; cases e
    | some i =>
      rw [hr] at e
      have e' : (i 0).val = cnt k.val := Option.some.inj e
      rw [eq_ix1 i]
      exact congrArg (fun a => some (ix1 a)) (Fin.ext (by omega))

variable [Facts]

/-! ## The stages of the reference -/

theorem sge_word : ∀ i j : Fin 27, IntOp.cmpi .sge (IntOp.addi (BitVec.ofNat 32 i.val) 0#32) (BitVec.ofNat 32 j.val)
    = if i.val < j.val then 0#1 else 1#1 := by decide +kernel

/-- The mask of the strict upper triangle: a matrix of ones with zeros at and below the diagonal, compared with zero,
    is one exactly above the diagonal. -/
theorem triMask_apply (i j : Fin 27) : triMask (ix2 i j) = if i.val < j.val then 1#1 else 0#1 := by
  show Ideal.cmp .une (Scalar.select (IntOp.cmpi .sge (IntOp.addi (BitVec.ofNat 32 i.val) 0#32) (BitVec.ofNat 32 j.val))
    (Ideal.ofBits .f32 0x00000000#32) (Ideal.ofBits .f32 0x3F800000#32)) (Ideal.ofBits .f32 0x00000000#32) = _
  rw [sge_word, Ideal.ofBits_zero_f32, Ideal.ofBits_one_f32]
  by_cases h : i.val < j.val
  · rw [if_pos h, if_pos h, select_zero]
    simp [Ideal.cmp]
  · rw [if_neg h, if_neg h, select_one]
    simp [Ideal.cmp]

/-- The flattened mask as 32-bit words. -/
theorem maskFlat_apply (k : Fin 729) : maskFlat (ix1 k) = BitVec.ofNat 32 (msk k.val) := by
  have hk := k.isLt
  show (shapeCast S729 triMask shapeCasts_S27x27_S729 (ix1 k)).setWidth 32 = _
  rw [shapeCast_apply triMask shapeCasts_S27x27_S729 (ix1 k) (ix2 ⟨k.val / 27, by omega⟩ ⟨k.val % 27, by omega⟩)
    (by rw [Shape.rowMajor_val_two, Shape.rowMajor_val_one]; show k.val / 27 * 27 + k.val % 27 = k.val; omega)]
  rw [triMask_apply]
  unfold msk
  show (if k.val / 27 < k.val % 27 then 1#1 else 0#1).setWidth 32 = _
  by_cases h : k.val / 27 < k.val % 27
  · rw [if_pos h, if_pos h]; rfl
  · rw [if_neg h, if_neg h]; rfl

/-- The running count of the mask. -/
theorem maskCount_apply (k : Fin 729) : maskCount (ix1 k) = BitVec.ofNat 32 (cnt k.val) := by
  unfold maskCount
  refine (cumsum_apply (n := 729) (lo := 728) rfl maskFlat _ (fun _ => rfl) _ _ k).trans ?_
  have hk := k.isLt
  rw [← prefix_msk k.val hk, ← sum_ofNat]
  refine Finset.sum_congr rfl fun i hi => ?_
  have hi' : i < 729 := by have := Finset.mem_range.1 hi; omega
  unfold readAt
  rw [dif_pos hi']
  exact maskFlat_apply ⟨i, hi'⟩

theorem clip_word : ∀ k : Fin 729,
    Scalar.select (IntOp.cmpi .slt (IntOp.maxsi 0#32 (BitVec.ofNat 32 (cnt k.val))) 0#32)
      (IntOp.addi (IntOp.maxsi 0#32 (BitVec.ofNat 32 (cnt k.val))) 351#32) (IntOp.maxsi 0#32 (BitVec.ofNat 32 (cnt k.val)))
      = BitVec.ofNat 32 (cnt k.val) := by decide +kernel

/-- The scatter indices: the running count itself (it is never negative). -/
theorem binIndex_apply (k : Fin 729) : binIndex (ix2 k 0) = BitVec.ofNat 32 (cnt k.val) := by
  unfold binIndex
  simp only []
  rw [broadcastInDim_apply (![0] : Fin 1 → Fin S729x1.rank) bcast_S729_S729x1_0 _ (ix2 k 0) (ix1 k)
    (fun a => by obtain rfl : a = 0 := Subsingleton.elim _ _; rfl)]
  show Scalar.select (IntOp.cmpi .slt (IntOp.maxsi 0#32 (maskCount (ix1 k))) 0#32)
      (IntOp.addi (IntOp.maxsi 0#32 (maskCount (ix1 k))) 351#32) (IntOp.maxsi 0#32 (maskCount (ix1 k))) = _
  rw [maskCount_apply]
  exact clip_word k

theorem binIndex_eq : binIndex = idxC := by
  funext i
  rw [eq_ix2 i]
  have h1 : i 1 = (0 : Fin 1) := Subsingleton.elim (α := Fin 1) _ _
  rw [h1]
  exact binIndex_apply (i 0)

/-- The histogram of the running count: bin v counts the flat positions whose running count is v. -/
theorem binCounts_apply (v : Fin 351) :
    binCounts (ix1 v) = BitVec.ofNat 32 (∑ k ∈ Finset.range 729, if cnt k = v.val then 1 else 0) := by
  unfold binCounts
  rw [binIndex_eq, scatter_apply, foldl_addi_if_eq]
  refine (congrArg (fun t => broadcastInDim S351 ![] bcast_S_S351 (kI 0#32) (ix1 v) + t) (congrArg List.sum (List.map_congr_left
    (g := fun m => (fun w : (⟨1, ![729]⟩ : Shape).Idx => BitVec.ofNat 32 (if cnt (w 0).val = v.val then 1 else 0))
      ((Shape.rowMajor ⟨1, ![729]⟩).symm m)) fun m _ => ?_))).trans ?_
  · have hX := eq_ix1 ((Shape.rowMajor ⟨1, ![729]⟩).symm m)
    by_cases hc : cnt (((Shape.rowMajor ⟨1, ![729]⟩).symm m) 0).val = v.val
    · have hr : scatter_S351_S729x1_S729_n_0_0_1.resultIdx? ((Shape.rowMajor ⟨1, ![729]⟩).symm m) idxC = some (ix1 v) := by
        rw [hX]; exact (resIdx_iff _ v).2 hc
      simp only [if_pos hc]
      rw [if_pos hr]; rfl
    · have hr : ¬ scatter_S351_S729x1_S729_n_0_0_1.resultIdx? ((Shape.rowMajor ⟨1, ![729]⟩).symm m) idxC = some (ix1 v) := by
        rw [hX]; exact fun h => hc ((resIdx_iff _ v).1 h)
      simp only [if_neg hc]
      rw [if_neg hr]; rfl
  · show 0#32 + _ = _
    rw [BitVec.zero_add]
    refine (sum_finRange_rowMajor (n := 729)
      (fun w => BitVec.ofNat 32 (if cnt (w 0).val = v.val then 1 else 0))).trans ?_
    show ∑ a : Fin 729, (fun k : ℕ => BitVec.ofNat 32 (if cnt k = v.val then 1 else 0)) a.val = _
    rw [Fin.sum_univ_eq_sum_range (fun k : ℕ => BitVec.ofNat 32 (if cnt k = v.val then 1 else 0)) 729, sum_ofNat]

/-- The running count of the histogram: the flat position of the p-th pair. -/
theorem flatPos_apply (p : Fin 351) : flatPos (ix1 p) = BitVec.ofNat 32 (27 * pairRow p.val + pairCol p.val) := by
  unfold flatPos
  refine (cumsum_apply (n := 351) (lo := 350) rfl binCounts _ (fun _ => rfl) _ _ p).trans ?_
  have hp := p.isLt
  show _ = BitVec.ofNat 32 (flat p.val)
  rw [← count_total hp, ← sum_ofNat]
  refine Finset.sum_congr rfl fun i hi => ?_
  have hi' : i < 351 := by have := Finset.mem_range.1 hi; omega
  unfold readAt
  rw [dif_pos hi']
  exact binCounts_apply ⟨i, hi'⟩

end Cert.ReferenceIdeal.Hand

end
-- ==== Proof.PairTablesTail.lean ====
/-
  The last integer stages of the reference's pair tables: from the flat position to the row and the column.

  The flat position of pair p in the 27 × 27 square is x = 27·f + g with 0 ≤ f < g < 27, so 0 ≤ x < 729. The reference
  takes the row as floor(x / 27) reduced modulo 27 and the column as floor(x / 1) reduced modulo 27, each followed by
  moving a negative value up by 27. On a non-negative x with a positive divisor the floor quotient is the truncated
  quotient and the remainder keeps its value, and nothing is negative: the row is x / 27 = f and the column x % 27 = g.
  Every stage acts entry by entry, so each table entry is one expression on the 32-bit word of x; the two facts about
  that expression are checked on every x below 729.
-/
import proofs.«159237_j82617990905996_2_alg».proof.Proof.RefTerm
import proofs.«159237_j82617990905996_2_alg».proof.Proof.Spec
import Idealize.ShloMosaic.Lib.ValueIdx

noncomputable section

namespace Cert.ReferenceIdeal.Hand

open Idealize.ShloMosaic Idealize.ShloMosaic.ValueIdx Cert.ReferenceIdeal Cert.ReferenceIdeal.Facts₀ Cert.Spec

/-! ## The three integer stages on one 32-bit word -/

/-- The sign of a word read as a signed integer: 0, -1 or 1. -/
def sgnW (x : BitVec 32) : BitVec 32 := if x = 0 then 0 else if x.msb then -1 else 1

/-- Floor division of a word by a divisor: the truncated quotient, less one where the signs differ and the remainder
    is not zero. -/
def floorDivW (x d : BitVec 32) : BitVec 32 :=
  Scalar.select (IntOp.andi (IntOp.cmpi .ne (sgnW x) (sgnW d)) (IntOp.cmpi .ne (IntOp.remsi .host x d) 0#32))
    (IntOp.subi (IntOp.divsi .host x d) 1#32) (IntOp.divsi .host x d)

/-- The divisor of the remainder stage: a zero divisor read as one. -/
def remDivisorW (d : BitVec 32) : BitVec 32 := Scalar.select (IntOp.cmpi .eq d 0#32) 1#32 d

/-- The remainder of a word by a divisor, with the divisor's sign. -/
def floorRemW (x d : BitVec 32) : BitVec 32 :=
  Scalar.select
    (IntOp.andi (IntOp.cmpi .ne (IntOp.cmpi .slt (IntOp.remsi .host x (remDivisorW d)) 0#32) (IntOp.cmpi .slt (remDivisorW d) 0#32))
      (IntOp.cmpi .ne (IntOp.remsi .host x (remDivisorW d)) 0#32))
    (IntOp.addi (IntOp.remsi .host x (remDivisorW d)) (remDivisorW d)) (IntOp.remsi .host x (remDivisorW d))

/-- A negative word moved up by 27. -/
def wrapW (x : BitVec 32) : BitVec 32 := Scalar.select (IntOp.cmpi .slt x 0#32) (IntOp.addi x 27#32) x

/-- For a flat position n below 729: the floor quotient by 27, reduced modulo 27, is n / 27 … -/
theorem rowW_of_flat : ∀ n : Fin 729,
    wrapW (floorRemW (floorDivW (BitVec.ofNat 32 n.val) 27#32) 27#32) = BitVec.ofNat 32 (n.val / 27) := by
  decide +kernel

/-- … and the floor quotient by 1 (the position itself), reduced modulo 27, is n % 27. -/
theorem colW_of_flat : ∀ n : Fin 729,
    wrapW (floorRemW (floorDivW (BitVec.ofNat 32 n.val) 1#32) 27#32) = BitVec.ofNat 32 (n.val % 27) := by
  decide +kernel

variable [Facts]

/-! ## The vector stages read at an entry: each is its word stage on the entry -/

theorem floorDiv_apply (x : IVec S351 32) (d : BitVec 32) (p : Fin 351) :
    floorDiv x (kI d) (ix1 p) = floorDivW (x (ix1 p)) d := rfl

theorem floorRem_apply (x : IVec S351 32) (d : BitVec 32) (p : Fin 351) :
    floorRem x (kI d) (ix1 p) = floorRemW (x (ix1 p)) d := rfl

theorem wrap27_apply (x : IVec S351 32) (p : Fin 351) : wrap27 x (ix1 p) = wrapW (x (ix1 p)) := rfl

/-- The row table, given the flat positions: entry p is the row of pair p. -/
theorem rowTable_of_flat (hflat : ∀ p : Fin 351, flatPos (ix1 p) = BitVec.ofNat 32 (27 * pairRow p.val + pairCol p.val))
    (p : Fin 351) : rowTable (ix1 p) = BitVec.ofNat 32 (pairRow p.val) := by
  unfold rowTable
  rw [wrap27_apply, floorRem_apply, floorDiv_apply, hflat p]
  have hb := pair_bounds p
  have hlt := pair_flat_lt p
  refine (rowW_of_flat ⟨27 * pairRow p.val + pairCol p.val, hlt⟩).trans ?_
  congr 1
  show (27 * pairRow p.val + pairCol p.val) / 27 = pairRow p.val
  omega

/-- The column table, given the flat positions: entry p is the column of pair p. -/
theorem colTable_of_flat (hflat : ∀ p : Fin 351, flatPos (ix1 p) = BitVec.ofNat 32 (27 * pairRow p.val + pairCol p.val))
    (p : Fin 351) : colTable (ix1 p) = BitVec.ofNat 32 (pairCol p.val) := by
  unfold colTable
  rw [wrap27_apply, floorRem_apply, floorDiv_apply, hflat p]
  have hb := pair_bounds p
  have hlt := pair_flat_lt p
  refine (colW_of_flat ⟨27 * pairRow p.val + pairCol p.val, hlt⟩).trans ?_
  congr 1
  show (27 * pairRow p.val + pairCol p.val) % 27 = pairCol p.val
  omega

end Cert.ReferenceIdeal.Hand

end
-- ==== Proof.LibBatchDot.lean ====
/-
  A BATCHED PRODUCT OF ROWS READ AT AN ENTRY (a general lemma file: it imports only the library).

  For operands l : [B, M, K] and r : [B, N, K] and a result [B, M, N], the dimension numbers with one batch axis (axis 0
  of both operands), one contracted axis (axis 2 of both) and one free axis on each side (axis 1) make the result's
  entry (b, i, j) the dot product of row i of l's batch entry b and row j of r's batch entry b:
      ∑ k : Fin K, l (b, i, k) * r (b, j, k).
  `batchRowDims B M N K wf` is that record of dimension numbers, built from a proof `wf` of its side conditions (decided
  on a program's literal sizes); a program's own record with the same six lists is equal to it by `rfl`, or by
  `eq_batchRowDims` from the six equations. `sum_contr_apply` re-indexes the sum over the contraction shape's indices by
  the contracted coordinate; `dotGeneral_batchRow_apply` is the host's `dot_general` at an entry and
  `matmul_zero_batchRow_apply` a matrix product into the zero accumulator at an entry, both at the extended reals,
  with no hypothesis on the operands' entries.
-/
import Idealize.ShloMosaic.Lib.ValueIdx
import Idealize.ShloMosaic.PureOps.Ideal.Laws

noncomputable section

open scoped BigOperators

namespace Idealize.ShloMosaic.BatchRowDot

open Idealize.ShloMosaic Idealize.ShloMosaic.ValueIdx

/-- The dimension numbers of a batched product of rows: batch axis 0, free axis 1 and contracted axis 2 on both sides,
    for operands `[B, M, K]` and `[B, N, K]` and a result `[B, M, N]`. -/
abbrev batchRowDims (B M N K : Nat)
    (wf : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ where
  lhsContracting := [2]
  rhsContracting := [2]
  lhsNonContracting := [1]
  rhsNonContracting := [1]
  lhsBatch := [0]
  rhsBatch := [0]
  wf := wf

/-- A record of dimension numbers with those six lists is `batchRowDims`. -/
theorem eq_batchRowDims {B M N K : Nat} (d : DotDims ⟨3, ![B, M, K]⟩ ⟨3, ![B, N, K]⟩ ⟨3, ![B, M, N]⟩)
    (hlc : d.lhsContracting = [2]) (hrc : d.rhsContracting = [2]) (hln : d.lhsNonContracting = [1])
    (hrn : d.rhsNonContracting = [1]) (hlb : d.lhsBatch = [0]) (hrb : d.rhsBatch = [0]) :
    d = batchRowDims B M N K (by have := d.wf; rwa [hlc, hrc, hln, hrn, hlb, hrb] at this) := by
  obtain ⟨lc, rc, ln, rn, lb, rb, wf⟩ := d
  simp only at hlc hrc hln hrn hlb hrb
  subst hlc hrc hln hrn hlb hrb
  rfl

variable {B M N K : Nat}
  (wf : DotDims.WF ⟨3, ![B, M, K]⟩ ⟨3, ![B, N, K]⟩ ⟨3, ![B, M, N]⟩ [2] [2] [1] [1] [0] [0])

/-- The sum over the contraction shape's indices of the products of the two operands' entries, at result entry
    `(b, i, j)`, is the sum over the contracted coordinate `k` of `l (b, i, k) * r (b, j, k)`. -/
theorem sum_contr_apply {R : Type} [AddCommMonoid R] [Mul R]
    (l : (⟨3, ![B, M, K]⟩ : Shape).Idx → R) (r : (⟨3, ![B, N, K]⟩ : Shape).Idx → R) (b : Fin B) (i : Fin M) (j : Fin N) :
    ∑ k : (batchRowDims B M N K wf).contr.Idx,
        l ((batchRowDims B M N K wf).lhsIdx (ix3 b i j) k) * r ((batchRowDims B M N K wf).rhsIdx (ix3 b i j) k)
      = ∑ k : Fin K, l (ix3 b i k) * r (ix3 b j k) := by
  have hr : (batchRowDims B M N K wf).contr.rank = 1 := rfl
  have hs : (batchRowDims B M N K wf).contr.size ⟨0, by omega⟩ = K := rfl
  rw [← Equiv.sum_comp (contrEquiv1 (batchRowDims B M N K wf) K hr hs).symm]
  refine Finset.sum_congr rfl fun k _ => ?_
  congr 1
  · refine congrArg _ (funext fun a => Fin.ext ?_)
    match a with
    | ⟨0, _⟩ => rfl
    | ⟨1, _⟩ => rfl
    | ⟨2, _⟩ => rfl
  · refine congrArg _ (funext fun a => Fin.ext ?_)
    match a with
    | ⟨0, _⟩ => rfl
    | ⟨1, _⟩ => rfl
    | ⟨2, _⟩ => rfl

/-- THE HOST'S `dot_general` READ AT `(b, i, j)`, at the extended reals: the dot product of row `i` of `l`'s batch entry
    `b` and row `j` of `r`'s, whatever the precision and the schedule key. (A printed reference applies the abbreviation
    `Host.dotGeneral`, which is this at the schedule `.single`.) -/
theorem dotGeneral_batchRow_apply {φ₁ φ₂ : FTy} (prec : Option ContractPrecision) (sched : HostSchedule)
    (l : FVec Ideal ⟨3, ![B, M, K]⟩ φ₁) (r : FVec Ideal ⟨3, ![B, N, K]⟩ φ₂) (b : Fin B) (i : Fin M) (j : Fin N) :
    FloatOps.dotGeneral (batchRowDims B M N K wf) prec sched l r (ix3 b i j) = ∑ k : Fin K, l (ix3 b i k) * r (ix3 b j k) :=
  (Ideal.dotGeneral_apply _ prec sched l r _).trans (sum_contr_apply wf l r b i j)

/-- A MATRIX PRODUCT INTO THE ZERO ACCUMULATOR READ AT `(b, i, j)`, at the extended reals: the same dot product. -/
theorem matmul_zero_batchRow_apply {φ₁ φ₂ : FTy} (prec : Option ContractPrecision)
    (l : FVec Ideal ⟨3, ![B, M, K]⟩ φ₁) (r : FVec Ideal ⟨3, ![B, N, K]⟩ φ₂) (b : Fin B) (i : Fin M) (j : Fin N) :
    FloatOps.matmul (batchRowDims B M N K wf) prec l r (constant ⟨3, ![B, M, N]⟩ .f32 0x00000000#32) (ix3 b i j)
      = ∑ k : Fin K, l (ix3 b i k) * r (ix3 b j k) :=
  (Ideal.matmul_constant_zero_apply _ prec l r _).trans (sum_contr_apply wf l r b i j)

end Idealize.ShloMosaic.BatchRowDot

end
-- ==== Proof.lean ====
/-
  The kernel and the reference compute one function of the dense array x : [16384, 128] and the embedding array
  e : [16384, 26, 128]. Per batch entry b there are 27 rows of 128 numbers — the dense row, then the 26 embedding
  rows — and the result row has 479 numbers: the dense row itself, then the dot products of rows f < g for the 351
  pairs of the strict upper triangle of the 27 × 27 matrix of row products, in row-major order (Spec.lean: `G`).

  The kernel handles 256 batch entries per grid point: it forms the whole matrix of products (a batched contraction;
  the change of float format before it is the identity on extended reals) and stores, for each f, the tail
  M[·, f, f+1 … 26] at the fixed column 128 + f·(53 - f)/2. The 27 stores tile the output block
  (KernelBlock.lean), the products are plain sums (KernelProducts.lean), and the 64 blocks tile the result
  (KernelArray.lean).

  The reference computes the pairs at run time: the mask of the triangle, its running count, a histogram of the
  count, the histogram's running count — the flat position 27·f + g of the p-th pair — and its quotient and remainder
  by 27 (RefTerm.lean names the stages; PairTables.lean and PairTablesTail.lean evaluate them), then gathers the
  products at those pairs (RefRead.lean); RefRun.lean is the run of its operations.

  The two sides meet in the specification; no law of arithmetic beyond re-indexing a finite sum is needed, so the
  finiteness of the inputs is never used. The idealization changes no operation, so `preserves` is `True`.
-/
import proofs.«159237_j82617990905996_2_alg».proof.Defs
import proofs.«159237_j82617990905996_2_alg».proof.Proof.Gen.Kernel
import proofs.«159237_j82617990905996_2_alg».proof.Proof.Gen.Kernel.Frame
import proofs.«159237_j82617990905996_2_alg».proof.Proof.Gen.KernelIdeal
import proofs.«159237_j82617990905996_2_alg».proof.Proof.Gen.KernelIdeal.Frame
import proofs.«159237_j82617990905996_2_alg».proof.Proof.Gen.KernelIdeal.Value
import proofs.«159237_j82617990905996_2_alg».proof.Proof.Gen.ReferenceIdeal
import proofs.«159237_j82617990905996_2_alg».proof.Proof.Gen.Pre_finite_inputs
import proofs.«159237_j82617990905996_2_alg».proof.Proof.KernelArray
import proofs.«159237_j82617990905996_2_alg».proof.Proof.RefRun
import proofs.«159237_j82617990905996_2_alg».proof.Proof.RefRead
import proofs.«159237_j82617990905996_2_alg».proof.Proof.PairTables
import proofs.«159237_j82617990905996_2_alg».proof.Proof.PairTablesTail
import proofs.«159237_j82617990905996_2_alg».proof.Proof.LibBatchDot
import Idealize.ShloMosaic.Adequacy
import Idealize.ShloMosaic.Init

noncomputable section

namespace Cert.ReferenceIdeal.Hand

open Idealize.ShloMosaic Idealize.ShloMosaic.ValueIdx Cert.ReferenceIdeal Cert.Spec

variable [Facts]

/-- Entry p of the reference's row table is the row of the p-th pair, -/
theorem rowTable_apply (p : Fin 351) : rowTable (ix1 p) = BitVec.ofNat 32 (pairRow p.val) :=
  rowTable_of_flat flatPos_apply p

/-- and entry p of its column table the pair's column. -/
theorem colTable_apply (p : Fin 351) : colTable (ix1 p) = BitVec.ofNat 32 (pairCol p.val) :=
  colTable_of_flat flatPos_apply p

end Cert.ReferenceIdeal.Hand

namespace Cert.Proof

open Idealize.ShloMosaic Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Hand.run m ρ)

/-- Over the extended reals both programs end with the specification of their (equal) argument arrays: the dense
    numbers followed by the 351 products of the strict upper triangle in row-major order — the kernel by placing
    the row tails at fixed offsets, the reference by gathering at the pairs it computes. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun r h c => ⟨(h c).1.trans ?_, (h c).2⟩)
    (Cert.ReferenceIdeal.Hand.run m' ρ')
  rw [(hagree c).1, (hagree c).2]
  exact Cert.ReferenceIdeal.Hand.result_eq Cert.ReferenceIdeal.Hand.rowTable_apply Cert.ReferenceIdeal.Hand.colTable_apply _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
